-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S2x400000 : Shape := ⟨2, ![2, 400000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S16x1 .f32) (main_arg14 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x1 .f32 := Host.absf main_arg13
  let main_cst_20 : FVec F S_ .f32 := constant S_ .f32 0x7F800000#32
  let main_v55 : FVec F S16x1 .f32 := broadcastInDim S16x1 ![] bcast_S_S16x1 main_cst_20
  let main_v56 : IVec S16x1 1 := cmpf .olt main_v54 main_v55
  let main_c_21 : IVec S_ 1 := constantI S_ 1 1#1
  let main_v57 : IVec S_ 1 := (fun x v => Host.reduce IntOp.andi x v reducesTo_S16x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128x32 .f32) (main_arg10 : FVec F S32 .f32) (main_arg11 : FVec F S32x16 .f32) (main_arg12 : FVec F S16 .f32) (main_arg13 : FVec F S16x1 .f32) (main_arg14 : FVec F S1 .f32) (main_v33 : IVec S_ 1) : IVec S_ 1 :=
  let main_v34 : FVec F S128x32 .f32 := Host.absf main_arg9
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x16 .f32 := Host.absf main_arg11
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_arg13 main_arg14 main_v48 main_v49 main_v50

def fn_part1 {F : FTy → Type} [FloatOps F] (main_arg6 : FVec F S128x64 .f32) (main_arg7 : FVec F S64 .f32) (main_arg8 : FVec F S128x64 .f32) (main_arg9 : FVec F S128x32 .f32) (main_arg10 : FVec F S32 .f32) (main_arg11 : FVec F S32x16 .f32) (main_arg12 : FVec F S16 .f32) (main_arg13 : FVec F S16x1 .f32) (main_arg14 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x64 .f32) (main_arg1 : IVec S2x800000 32) (main_arg2 : IVec S2x400000 32) (main_arg3 : FVec F S64x128 .f32) (main_arg4 : FVec F S128 .f32) (main_arg5 : FVec F S64x128 .f32) (main_arg6 : FVec F S128x64 .f32) (main_arg7 : FVec F S64 .f32) (main_arg8 : FVec F S128x64 .f32) (main_arg9 : FVec F S128x32 .f32) (main_arg10 : FVec F S32 .f32) (main_arg11 : FVec F S32x16 .f32) (main_arg12 : FVec F S16 .f32) (main_arg13 : FVec F S16x1 .f32) (main_arg14 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_arg13 main_arg14 main_v13 main_v16
-- ==== Kernel.lean ====
abbrev S50000x64 : Shape := ⟨2, ![50000, 64]⟩
abbrev S2x800000 : Shape := ⟨2, ![2, 800000]⟩
abbrev S2x400000 : Shape := ⟨2, ![2, 400000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S5000x64 : Shape := ⟨2, ![5000, 64]⟩
abbrev S5000x1 : Shape := ⟨2, ![5000, 1]⟩
abbrev S5000x128 : Shape := ⟨2, ![5000, 128]⟩
abbrev S1x128 : Shape := ⟨2, ![1, 128]⟩
abbrev S800000x128 : Shape := ⟨2, ![800000, 128]⟩
abbrev S64x32 : Shape := ⟨2, ![64, 32]⟩
abbrev S50000x32 : Shape := ⟨2, ![50000, 32]⟩
abbrev S2000x128 : Shape := ⟨2, ![2000, 128]⟩
abbrev S2000x1 : Shape := ⟨2, ![2000, 1]⟩
abbrev S2000x32 : Shape := ⟨2, ![2000, 32]⟩
abbrev S2000x64 : Shape := ⟨2, ![2000, 64]⟩
abbrev S1x64 : Shape := ⟨2, ![1, 64]⟩
abbrev S1x400000 : Shape := ⟨2, ![1, 400000]⟩
abbrev S400000 : Shape := ⟨1, ![400000]⟩
abbrev S400000x1 : Shape := ⟨2, ![400000, 1]⟩
abbrev S400000x32 : Shape := ⟨2, ![400000, 32]⟩
abbrev S4000x32 : Shape := ⟨2, ![4000, 32]⟩
abbrev S4000x1 : Shape := ⟨2, ![4000, 1]⟩
abbrev S1x32 : Shape := ⟨2, ![1, 32]⟩
abbrev S4000x16 : Shape := ⟨2, ![4000, 16]⟩
abbrev S1x16 : Shape := ⟨2, ![1, 16]⟩
abbrev S1x1 : Shape := ⟨2, ![1, 1]⟩

abbrev nBuf : Space → Nat
  | .hbm => 87
  | .vmem => 37
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S2x400000, .i32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S128x32, .f32⟩
  | .hbm, ⟨10, _⟩ => ⟨S32, .f32⟩
  | .hbm, ⟨11, _⟩ => ⟨S32x16, .f32⟩
  | .hbm, ⟨12, _⟩ => ⟨S16, .f32⟩
  | .hbm, ⟨13, _⟩ => ⟨S16x1, .f32⟩
  | .hbm, ⟨14, _⟩ => ⟨S1, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S_, .f32⟩
  | .hbm, ⟨29, _⟩ => ⟨S50000x64, .f32⟩
  | .hbm, ⟨30, _⟩ => ⟨S800000x1, .i32⟩
  | .hbm, ⟨31, _⟩ => ⟨S50000x64, .f32⟩
  | .hbm, ⟨32, _⟩ => ⟨S_, .f32⟩
  | .hbm, ⟨33, _⟩ => ⟨S800000, .f32⟩
  | .hbm, ⟨34, _⟩ => ⟨S_, .f32⟩
  | .hbm, ⟨35, _⟩ => ⟨S50000, .f32⟩
  | .hbm, ⟨36, _⟩ => ⟨S800000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S64x32, .f32⟩
  | .hbm, ⟨60, _⟩ => ⟨S64x32, .f32⟩
  | .hbm, ⟨61, _⟩ => ⟨S50000x32, .f32⟩
  | .hbm, ⟨62, _⟩ => ⟨S50000x32, .f32⟩
  | .hbm, ⟨63, _⟩ => ⟨S1x400000, .i32⟩
  | .hbm, ⟨64, _⟩ => ⟨S400000, .i32⟩
  | .hbm, ⟨65, _⟩ => ⟨S_, .i32⟩
  | .hbm, ⟨66, _⟩ => ⟨S400000, .i32⟩
  | .hbm, ⟨67, _⟩ => ⟨S400000, .i1⟩
  | .hbm, ⟨68, _⟩ => ⟨S_, .i32⟩
  | .hbm, ⟨69, _⟩ => ⟨S400000, .i32⟩
  | .hbm, ⟨70, _⟩ => ⟨S400000, .i32⟩
  | .hbm, ⟨71, _⟩ => ⟨S400000, .i32⟩
  | .hbm, ⟨72, _⟩ => ⟨S400000x1, .i32⟩
  | .hbm, ⟨73, _⟩ => ⟨S400000x32, .f32⟩
  | .hbm, ⟨74, _⟩ => ⟨S1x400000, .i32⟩
  | .hbm, ⟨75, _⟩ => ⟨S400000, .i32⟩
  | .hbm, ⟨76, _⟩ => ⟨S_, .i32⟩
  | .hbm, ⟨77, _⟩ => ⟨S400000, .i32⟩
  | .hbm, ⟨78, _⟩ => ⟨S400000, .i1⟩
  | .hbm, ⟨79, _⟩ => ⟨S_, .i32⟩
  | .hbm, ⟨80, _⟩ => ⟨S400000, .i32⟩
  | .hbm, ⟨81, _⟩ => ⟨S400000, .i32⟩
  | .hbm, ⟨82, _⟩ => ⟨S400000, .i32⟩
  | .hbm, ⟨83, _⟩ => ⟨S400000x1, .i32⟩
  | .hbm, ⟨84, _⟩ => ⟨S400000x32, .f32⟩
  | .hbm, ⟨85, _⟩ => ⟨S400000x1, .f32⟩
  | .hbm, ⟨86, _⟩ => ⟨S400000, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x128, .f32⟩
  | .local _ .vmem, ⟨7, _⟩ => ⟨S128, .f32⟩
  | .local _ .vmem, ⟨8, _⟩ => ⟨S64x128, .f32⟩
  | .local _ .vmem, ⟨9, _⟩ => ⟨S5000x128, .f32⟩
  | .local _ .vmem, ⟨10, _⟩ => ⟨S5000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S128x64, .f32⟩
  | .local _ .vmem, ⟨18, _⟩ => ⟨S64, .f32⟩
  | .local _ .vmem, ⟨19, _⟩ => ⟨S128x64, .f32⟩
  | .local _ .vmem, ⟨20, _⟩ => ⟨S64x32, .f32⟩
  | .local _ .vmem, ⟨21, _⟩ => ⟨S64x32, .f32⟩
  | .local _ .vmem, ⟨22, _⟩ => ⟨S2000x32, .f32⟩
  | .local _ .vmem, ⟨23, _⟩ => ⟨S2000x32, .f32⟩
  | .local _ .vmem, ⟨24, _⟩ => ⟨S2000x32, .f32⟩
  | .local _ .vmem, ⟨25, _⟩ => ⟨S2000x32, .f32⟩
  | .local _ .vmem, ⟨26, _⟩ => ⟨S4000x32, .f32⟩
  | .local _ .vmem, ⟨27, _⟩ => ⟨S4000x32, .f32⟩
  | .local _ .vmem, ⟨28, _⟩ => ⟨S4000x32, .f32⟩
  | .local _ .vmem, ⟨29, _⟩ => ⟨S4000x32, .f32⟩
  | .local _ .vmem, ⟨30, _⟩ => ⟨S32, .f32⟩
  | .local _ .vmem, ⟨31, _⟩ => ⟨S32x16, .f32⟩
  | .local _ .vmem, ⟨32, _⟩ => ⟨S16, .f32⟩
  | .local _ .vmem, ⟨33, _⟩ => ⟨S16x1, .f32⟩
  | .local _ .vmem, ⟨34, _⟩ => ⟨S1, .f32⟩
  | .local _ .vmem, ⟨35, _⟩ => ⟨S4000x1, .f32⟩
  | .local _ .vmem, ⟨36, _⟩ => ⟨S4000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36_0 : Ref sig .tc := ⟨.hbm, 61, rfl⟩
abbrev main_v36_1 : Ref sig .tc := ⟨.hbm, 62, rfl⟩
abbrev main_v37 : Ref sig .tc := ⟨.hbm, 63, rfl⟩
abbrev main_v38 : Ref sig .tc := ⟨.hbm, 64, rfl⟩
abbrev main_c_8 : Ref sig .tc := ⟨.hbm, 65, rfl⟩
abbrev main_v39 : Ref sig .tc := ⟨.hbm, 66, rfl⟩
abbrev main_v40 : Ref sig .tc := ⟨.hbm, 67, rfl⟩
abbrev main_c_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_10 : Ref sig .tc := ⟨.hbm, 76, rfl⟩
abbrev main_v48 : Ref sig .tc := ⟨.hbm, 77, rfl⟩
abbrev main_v49 : Ref sig .tc := ⟨.hbm, 78, rfl⟩
abbrev main_c_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  slices_S128x32_S64x32_0_0 : S128x32.Slices ![0, 0] S64x32
  slices_S128x32_S64x32_64_0 : S128x32.Slices ![64, 0] S64x32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  shapeCasts_S64_S1x64 : S64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S2000x32_S2000x32_0_0 : ∀ a, (![0, 0] : Fin 2 → Nat) a + S2000x32.size a ≤ S2000x32.size a
  h_S2000x32 : 0 < S2000x32.numel
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S4000x16 : S1x16.Broadcasts S4000x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S400000x1_S400000 : S400000x1.ShapeCasts S400000
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  dot_S2000x64_S64x32_S2000x32_1_0_0_1_n_n_wf : DotDims.WF S2000x64 S64x32 S2000x32 [1] [0] [0] [1] [] []
  gather_S50000x32_S400000x1_S400000x32_1_0_n_n_0_1_132_wf : GatherDims.WF S50000x32 S400000x1 S400000x32 [1] [0] [] [0] [] 1 ![1, 32]
  dot_S4000x32_S32x16_S4000x16_1_0_0_1_n_n_wf : DotDims.WF S4000x32 S32x16 S4000x16 [1] [0] [0] [1] [] []
  dot_S4000x16_S16x1_S4000x1_1_0_0_1_n_n_wf : DotDims.WF S4000x16 S16x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x32.size a ≤ S64x32.size a
  hwx1_6 : ∀ i : grid1.Coords, EltTy.bits .f32 = 32 ∨ (Rect.block (s := S64x32) S64x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x32.size a ≤ S64x32.size a
  hwx1_7 : ∀ i : grid1.Coords, EltTy.bits .f32 = 32 ∨ (Rect.block (s := S64x32) S64x32.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x32.size a ≤ S50000x32.size a
  hwx1_8 : ∀ i : grid1.Coords, EltTy.bits .f32 = 32 ∨ (Rect.block (s := S50000x32) S2000x32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x32.size a ≤ S50000x32.size a
  hwx1_9 : ∀ i : grid1.Coords, EltTy.bits .f32 = 32 ∨ (Rect.block (s := S50000x32) S2000x32.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S400000x32.size a
  hwx2_0 : ∀ i : grid2.Coords, EltTy.bits .f32 = 32 ∨ (Rect.block (s := S400000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x32.size a ≤ S400000x32.size a
  hwx2_1 : ∀ i : grid2.Coords, EltTy.bits .f32 = 32 ∨ (Rect.block (s := S400000x32) S4000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x16.size a ≤ S32x16.size a
  hwx2_3 : ∀ i : grid2.Coords, EltTy.bits .f32 = 32 ∨ (Rect.block (s := S32x16) S32x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16.size a ≤ S16.size a
  hwx2_4 : ∀ i : grid2.Coords, EltTy.bits .f32 = 32 ∨ (Rect.block (s := S16) S16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x1.size a ≤ S16x1.size a
  hwx2_5 : ∀ i : grid2.Coords, EltTy.bits .f32 = 32 ∨ (Rect.block (s := S16x1) S16x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1.size a ≤ S1.size a
  hwx2_6 : ∀ i : grid2.Coords, EltTy.bits .f32 = 32 ∨ (Rect.block (s := S1) S1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x1.size a ≤ S400000x1.size a
  hwx2_7 : ∀ i : grid2.Coords, EltTy.bits .f32 = 32 ∨ (Rect.block (s := S400000x1) S4000x1.size (cc2_transform_7 i) (hinb2_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S50000x32_S400000x1_S400000x32_1_0_n_n_0_1_132 : GatherDims S50000x32 S400000x1 S400000x32 where
  offsetDims := [1]
  collapsedSliceDims := [0]
  operandBatchingDims := []
  startIndicesBatchingDims := []
  startIndexMap := [0]
  indexVectorDim := 1
  sliceSizes := ![1, 32]
  wf := gather_S50000x32_S400000x1_S400000x32_1_0_n_n_0_1_132_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def dot_S4000x16_S16x1_S4000x1_1_0_0_1_n_n : DotDims S4000x16 S16x1 S4000x1 where
  lhsContracting := [1]
  rhsContracting := [0]
  lhsNonContracting := [0]
  rhsNonContracting := [1]
  lhsBatch := []
  rhsBatch := []
  wf := dot_S4000x16_S16x1_S4000x1_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S64x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S64x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36_0) S2000x32.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v36_1) S2000x32.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v45) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S4000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S32x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S16x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v55) S4000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S2x400000 : Shape := ⟨2, ![2, 400000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩
abbrev S1x400000 : Shape := ⟨2, ![1, 400000]⟩
abbrev S400000 : Shape := ⟨1, ![400000]⟩
abbrev S400000x1 : Shape := ⟨2, ![400000, 1]⟩
abbrev S400000x64 : Shape := ⟨2, ![400000, 64]⟩
abbrev S400000x128 : Shape := ⟨2, ![400000, 128]⟩
abbrev S400000x32 : Shape := ⟨2, ![400000, 32]⟩
abbrev S1x32 : Shape := ⟨2, ![1, 32]⟩
abbrev S400000x16 : Shape := ⟨2, ![400000, 16]⟩
abbrev S1x16 : Shape := ⟨2, ![1, 16]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S50000x64, .f32⟩
  | 1 => ⟨S2x800000, .i32⟩
  | 2 => ⟨S2x400000, .i32⟩
  | 3 => ⟨S64x128, .f32⟩
  | 4 => ⟨S128, .f32⟩
  | 5 => ⟨S64x128, .f32⟩
  | 6 => ⟨S128x64, .f32⟩
  | 7 => ⟨S64, .f32⟩
  | 8 => ⟨S128x64, .f32⟩
  | 9 => ⟨S128x32, .f32⟩
  | 10 => ⟨S32, .f32⟩
  | 11 => ⟨S32x16, .f32⟩
  | 12 => ⟨S16, .f32⟩
  | 13 => ⟨S16x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S_, .f32⟩
  | 29 => ⟨S50000x64, .f32⟩
  | 30 => ⟨S800000x1, .i32⟩
  | 31 => ⟨S50000x64, .f32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x64, .f32⟩
  | 43 => ⟨S50000x64, .f32⟩
  | 44 => ⟨S50000x128, .f32⟩
  | 45 => ⟨S1x128, .f32⟩
  | 46 => ⟨S50000x128, .f32⟩
  | 47 => ⟨S50000x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S1x800000, .i32⟩
  | 54 => ⟨S800000, .i32⟩
  | 55 => ⟨S1x800000, .i32⟩
  | 56 => ⟨S800000, .i32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S_, .f32⟩
  | 71 => ⟨S800000, .f32⟩
  | 72 => ⟨S_, .f32⟩
  | 73 => ⟨S50000, .f32⟩
  | 74 => ⟨S800000x1, .i32⟩
  | 75 => ⟨S50000, .f32⟩
  | 76 => ⟨S_, .f32⟩
  | 77 => ⟨S50000, .f32⟩
  | 78 => ⟨S50000, .f32⟩
  | 79 => ⟨S50000x1, .f32⟩
  | 80 => ⟨S50000x128, .f32⟩
  | 81 => ⟨S50000x128, .f32⟩
  | 82 => ⟨S50000x64, .f32⟩
  | 83 => ⟨S1x64, .f32⟩
  | 84 => ⟨S50000x64, .f32⟩
  | 85 => ⟨S50000x64, .f32⟩
  | 86 => ⟨S50000x64, .f32⟩
  | 87 => ⟨S50000x64, .f32⟩
  | 88 => ⟨S1x400000, .i32⟩
  | 89 => ⟨S400000, .i32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S400000x64, .f32⟩
  | 99 => ⟨S1x400000, .i32⟩
  | 100 => ⟨S400000, .i32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S400000x64, .f32⟩
  | 110 => ⟨S400000x128, .f32⟩
  | 111 => ⟨S400000x32, .f32⟩
  | 112 => ⟨S1x32, .f32⟩
  | 113 => ⟨S400000x32, .f32⟩
  | 114 => ⟨S400000x32, .f32⟩
  | 115 => ⟨S_, .f32⟩
  | 116 => ⟨S400000x32, .f32⟩
  | 117 => ⟨S400000x32, .f32⟩
  | 118 => ⟨S400000x16, .f32⟩
  | 119 => ⟨S1x16, .f32⟩
  | 120 => ⟨S400000x16, .f32⟩
  | 121 => ⟨S400000x16, .f32⟩
  | 122 => ⟨S_, .f32⟩
  | 123 => ⟨S400000x16, .f32⟩
  | 124 => ⟨S400000x16, .f32⟩
  | 125 => ⟨S400000x1, .f32⟩
  | 126 => ⟨S1x1, .f32⟩
  | 127 => ⟨S400000x1, .f32⟩
  | _ => ⟨S50000x64, .f32⟩

abbrev hbmTy0_1 (i : Nat) : BufTy := match i % 128 with
  | 0 => ⟨S400000x1, .f32⟩
  | 1 => ⟨S400000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call0_cst : Ref sig .tc := ⟨.hbm, 50, rfl⟩
abbrev main_call0_v0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_4 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_10 : Ref sig .tc := ⟨.hbm, 90, rfl⟩
abbrev main_v61 : Ref sig .tc := ⟨.hbm, 91, rfl⟩
abbrev main_v62 : Ref sig .tc := ⟨.hbm, 92, rfl⟩
abbrev main_c_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_12 : Ref sig .tc := ⟨.hbm, 101, rfl⟩
abbrev main_v70 : Ref sig .tc := ⟨.hbm, 102, rfl⟩
abbrev main_v71 : Ref sig .tc := ⟨.hbm, 103, rfl⟩
abbrev main_c_13 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_call1_cst : Ref sig .tc := ⟨.hbm, 115, rfl⟩
abbrev main_call1_v0 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call2_cst : Ref sig .tc := ⟨.hbm, 122, rfl⟩
abbrev main_call2_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  concatenates_S400000x64_S400000x64_S400000x128_d1 : Shape.Concatenates [S400000x64, S400000x64] S400000x128 1
  bcast_S32_S1x32_1 : S32.BroadcastsInDim S1x32 (![1] : Fin 1 → Fin S1x32.rank)
  bcast_S1x32_S400000x32_0_1 : S1x32.BroadcastsInDim S400000x32 (![0, 1] : Fin 2 → Fin S400000x32.rank)
  bcast_S_S400000x32 : S_.BroadcastsInDim S400000x32 (![] : Fin 0 → Fin S400000x32.rank)
  bcast_S16_S1x16_1 : S16.BroadcastsInDim S1x16 (![1] : Fin 1 → Fin S1x16.rank)
  bcast_S1x16_S400000x16_0_1 : S1x16.BroadcastsInDim S400000x16 (![0, 1] : Fin 2 → Fin S400000x16.rank)
  bcast_S_S400000x16 : S_.BroadcastsInDim S400000x16 (![] : Fin 0 → Fin S400000x16.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  shapeCasts_S400000x1_S400000 : S400000x1.ShapeCasts S400000
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S400000x1_S400000x64_1_0_n_n_0_1_164_wf : GatherDims.WF S50000x64 S400000x1 S400000x64 [1] [0] [] [0] [] 1 ![1, 64]
  dot_S400000x128_S128x32_S400000x32_1_0_0_1_n_n_wf : DotDims.WF S400000x128 S128x32 S400000x32 [1] [0] [0] [1] [] []
  dot_S400000x32_S32x16_S400000x16_1_0_0_1_n_n_wf : DotDims.WF S400000x32 S32x16 S400000x16 [1] [0] [0] [1] [] []
  dot_S400000x16_S16x1_S400000x1_1_0_0_1_n_n_wf : DotDims.WF S400000x16 S16x1 S400000x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S400000x128_S128x32_S400000x32_1_0_0_1_n_n : DotDims S400000x128 S128x32 S400000x32 where
  lhsContracting := [1]
  rhsContracting := [0]
  lhsNonContracting := [0]
  rhsNonContracting := [1]
  lhsBatch := []
  rhsBatch := []
  wf := dot_S400000x128_S128x32_S400000x32_1_0_0_1_n_n_wf
def dot_S400000x32_S32x16_S400000x16_1_0_0_1_n_n : DotDims S400000x32 S32x16 S400000x16 where
  lhsContracting := [1]
  rhsContracting := [0]
  lhsNonContracting := [0]
  rhsNonContracting := [1]
  lhsBatch := []
  rhsBatch := []
  wf := dot_S400000x32_S32x16_S400000x16_1_0_0_1_n_n_wf
def dot_S400000x16_S16x1_S400000x1_1_0_0_1_n_n : DotDims S400000x16 S16x1 S400000x1 where
  lhsContracting := [1]
  rhsContracting := [0]
  lhsNonContracting := [0]
  rhsNonContracting := [1]
  lhsBatch := []
  rhsBatch := []
  wf := dot_S400000x16_S16x1_S400000x1_1_0_0_1_n_n_wf

class Facts : Prop extends Facts₀ where

variable [Facts]
-- ==== Proof.KernelRun.lean ====
/-
  The idealized kernel program's run with its RESULT named. The program is three tiled regions among four stretches
  of host operations; the buffers' contents at each boundary are a fold from the launch memory, and after the last
  stretch every unscoped buffer holds that fold's last stage. Here the run is stated with the result array (the
  edge scores) at that last stage, beside the argument arrays ending as launched.
-/
import proofs.«176232_j25872882991658_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    stage of the boundary fold and every argument array as launched. -/
theorem run_value : θ_run defs (onTc (τ := τ) (main (F := F))) ⟨m, fun _ => 0, ρ⟩ (fun r => ∀ c : Dev nD,
      r.2.mem ((c.tc : Thread nD τ).loc main_v56) = W7 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v56 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c)⟩)

end Cert.KernelIdeal.RunValue

end
-- ==== Proof.Spec.lean ====
/-
  The network's layers as whole-array functions over the extended reals, index by index. Both programs are read
  against these: a matrix product is a finite sum of products of entries, a bias is added along the rows, the rectifier
  is the maximum with zero. Two spellings of a graph-convolution layer are given: the neighbour sums multiplied by the
  weights and only then scaled, row by row, by the inverse degree column (`combine`), and the neighbour sums divided
  by the degree before they meet the weights (`combineRef`).
-/
import Idealize.ShloMosaic.PureOps.Ideal
import Idealize.ShloMosaic.Lib.ValueIdx

noncomputable section

namespace Cert.Spec

open Idealize.ShloMosaic Idealize.ShloMosaic.ValueIdx

/-- A matrix of extended reals with `a` rows and `b` columns. -/
abbrev A2 (a b : ℕ) : Type := FVec Ideal (⟨2, ![a, b]⟩ : Shape) .f32
/-- A vector of extended reals with `a` entries. -/
abbrev A1 (a : ℕ) : Type := FVec Ideal (⟨1, ![a]⟩ : Shape) .f32

/-- The rectifier, entry by entry: the maximum with zero. -/
def relu {s : Shape} (x : FVec Ideal s .f32) : FVec Ideal s .f32 :=
  fun i => max (x i) (Ideal.ofBits .f32 0x00000000#32)

/-- The matrix product `Z · W`: entry `(p, q)` is the sum over `e` of `Z (p, e) * W (e, q)`. -/
def proj {n k d : ℕ} (Z : A2 n k) (W : A2 k d) : A2 n d :=
  fun i => ∑ e : Fin k, Z (ix2 (i 0) e) * W (ix2 e (i 1))

/-- A dense layer `Z · W + b`, the bias added along the rows. -/
def affine {n k d : ℕ} (Z : A2 n k) (W : A2 k d) (b : A1 d) : A2 n d :=
  fun i => proj Z W i + b (ix1 (i 1))

/-- A graph-convolution layer with the mean taken AFTER the product: `(M · Wl)` scaled row by row by the column `I`,
    plus the bias, plus `X · Wr`. -/
def combine {n k d : ℕ} (M : A2 n k) (I : A2 n 1) (X : A2 n k) (Wl : A2 k d) (bl : A1 d) (Wr : A2 k d) : A2 n d :=
  fun i => (proj M Wl i * I (ix2 (i 0) (0 : Fin 1)) + bl (ix1 (i 1))) + proj X Wr i

/-- A graph-convolution layer with the mean taken BEFORE the product: the rows of `M` divided by the entries of
    `Dg`, times `Wl`, plus the bias, plus `X · Wr`. -/
def combineRef {n k d : ℕ} (M : A2 n k) (Dg : A1 n) (X : A2 n k) (Wl : A2 k d) (bl : A1 d) (Wr : A2 k d) : A2 n d :=
  fun i => ((∑ e : Fin k, Ideal.div (M (ix2 (i 0) e)) (Dg (ix1 (i 0))) * Wl (ix2 e (i 1))) + bl (ix1 (i 1))) + proj X Wr i

/-- The sum of two matrices plus a bias along the rows. -/
def addBias {n d : ℕ} (A B : A2 n d) (b : A1 d) : A2 n d :=
  fun i => (A i + B i) + b (ix1 (i 1))

/-- The edge decoder from the two gathered node projections: rectified sum, a rectified dense layer, a dense layer. -/
def dec {n : ℕ} (A B : A2 n 32) (b1 : A1 32) (W2 : A2 32 16) (b2 : A1 16) (W3 : A2 16 1) (b3 : A1 1) : A2 n 1 :=
  affine (relu (affine (relu (addBias A B b1)) W2 b2)) W3 b3

end Cert.Spec

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.Region0.lean ====
/-
  The first graph-convolution kernel as ONE whole-array function. Its grid has ten points; point `t` loads rows
  `5000 t … 5000 t + 4999` of the neighbour sums `M`, of the inverse-degree column `I` and of the features `X`, the whole
  weights `Wl`, `Wr` and bias `bl`, and stores the tile whose entry `(p, q)` is
  `max (((Σ_e M(r,e)·Wl(e,q)) · I(r,0) + bl(q)) + Σ_e X(r,e)·Wr(e,q)) 0` at row `r = 5000 t + p` — the two matrix products
  into zero accumulators are finite sums of products of entries, the column broadcast repeats `I`'s one column, the bias
  is laid along the rows, the roundings on the way into the products are the identity over the extended reals. The ten
  row blocks tile the output array, so after the region the array is `Spec.relu (Spec.combine M I X Wl bl Wr)` of the six
  arrays the region found, whatever they hold.
-/
import proofs.«176232_j25872882991658_2_alg».proof.Proof.Gen.KernelIdeal.Frame
import proofs.«176232_j25872882991658_2_alg».proof.Proof.Spec
import proofs.«176232_j25872882991658_2_alg».proof.Proof.LibMatmulNN
import proofs.«176232_j25872882991658_2_alg».proof.Proof.LibColumnBroadcast
import proofs.«176232_j25872882991658_2_alg».proof.Proof.LibBiasRow
import Idealize.ShloMosaic.Lib.Pipeline.Value

noncomputable section

namespace Cert.KernelIdeal.Region0

open Cert.KernelIdeal Cert.KernelIdeal.Gen Idealize.ShloMosaic Idealize.ShloMosaic.ValueIdx Idealize.ShloMosaic.TcCoe
open Idealize.ShloMosaic.Pipeline (Dat)

/-- The rows-against-columns dimension numbers of the two products, in the general lemma's spelling. -/
theorem dot_eq : dot_S5000x64_S64x128_S5000x128_1_0_0_1_n_n = Cert.LibMatmulNN.dims dot_S5000x64_S64x128_S5000x128_1_0_0_1_n_n_wf := rfl

/-- The stored tile at an entry `(p, q)`: the first product's entry scaled by the column's entry of row `p`, plus the bias at
    `q`, plus the second product's entry, rectified against the zero word (kept as a word, never evaluated). -/
theorem pay_apply (v0 : Vec Ideal S5000x64 .f32) (v3 : Vec Ideal S5000x64 .f32) (v5 : Vec Ideal S64x128 .f32)
    (v7 : Vec Ideal S64x128 .f32) (v9 : Vec Ideal S128 .f32) (v10 : Vec Ideal S5000x1 .f32) (p : Fin 5000) (q : Fin 128) :
    k0_pay1 (F := Ideal) v0 v3 v5 v7 v9 v10 (ix2 p q)
      = max (((∑ e : Fin 64, v0 (ix2 p e) * v5 (ix2 e q)) * v10 (ix2 p (0 : Fin 1)) + v9 (ix1 q))
          + ∑ e : Fin 64, v3 (ix2 p e) * v7 (ix2 e q)) (Ideal.ofBits .f32 0x00000000#32) := by
  unfold k0_pay1
  rw [maximumf_apply, addf_apply, addf_apply, mulf_apply, broadcast_apply, dot_eq]
  unfold Idealize.ShloMosaic.matmul
  rw [Cert.LibMatmulNN.matmul_zero_apply, Cert.LibMatmulNN.matmul_zero_apply,
    Cert.Layout.broadcastTo_a1_ab_apply, BiasRead.bias_rows_apply, shapeCast_self, shapeCast_self]
  rfl

variable (V : (c : Dev nD) → (b : Ref sig .tc) → Buf (Elt Ideal) ((c : Thread nD τ).loc b))

/-- The zero offsets of a whole-block access, rank two and rank one. -/
theorem hz : (![0, 0] : Fin 2 → Nat) = fun _ => 0 := funext fun a => by fin_cases a <;> rfl
theorem hz1 : (![0] : Fin 1 → Nat) = fun _ => 0 := funext fun a => by fin_cases a <;> rfl

/-- The layer's output as one function of the six arrays the region finds. -/
abbrev G (c : Dev nD) : Cert.Spec.A2 50000 128 :=
  Cert.Spec.relu (Cert.Spec.combine (V c main_v13) (V c main_v22) (V c main_arg0) (V c main_arg3) (V c main_arg4) (V c main_arg5))

/-- The printed index maps, decided over the ten grid points: the three row-blocked inputs and the output move together,
    block index the point's number on the row axis and zero on the column axis; the weights and the bias stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point `t` is rows `5000 t …` of the neighbour sums. -/
theorem blk0_apply (c : Dev nD) (t : Fin cfg0.N) (p : Fin 5000) (e : Fin 64) (r : Fin 50000) (hr : r.val = t.val * 5000 + p.val) :
    (iblk0 V c 0 t : Vec Ideal S5000x64 .f32) (ix2 p e) = (V c main_v13 : Cert.Spec.A2 50000 64) (ix2 r e) := by
  obtain ⟨h0, h1, -⟩ := idx_facts t
  unfold iblk0
  rw [View.read_apply]
  show V c main_v13 _ = V c main_v13 _
  refine congrArg _ (funext fun a => Fin.ext ?_)
  match a with
  | ⟨0, _⟩ => show win0_0.index t (0 : Fin 2) * 5000 + 1 * p.val = r.val; rw [h0, hr]; omega
  | ⟨1, _⟩ => show win0_0.index t (1 : Fin 2) * 64 + 1 * e.val = e.val; rw [h1]; omega

/-- Window 1's block at point `t` is rows `5000 t …` of the inverse-degree column. -/
theorem blk1_apply (c : Dev nD) (t : Fin cfg0.N) (p : Fin 5000) (r : Fin 50000) (hr : r.val = t.val * 5000 + p.val) :
    (iblk0 V c 1 t : Vec Ideal S5000x1 .f32) (ix2 p (0 : Fin 1)) = (V c main_v22 : Cert.Spec.A2 50000 1) (ix2 r (0 : Fin 1)) := by
  obtain ⟨-, -, h0, h1, -⟩ := idx_facts t
  unfold iblk0
  rw [View.read_apply]
  show V c main_v22 _ = V c main_v22 _
  refine congrArg _ (funext fun a => Fin.ext ?_)
  match a with
  | ⟨0, _⟩ => show win0_1.index t (0 : Fin 2) * 5000 + 1 * p.val = r.val; rw [h0, hr]; omega
  | ⟨1, _⟩ => show win0_1.index t (1 : Fin 2) * 1 + 1 * 0 = 0; rw [h1]

/-- Window 2's block at point `t` is rows `5000 t …` of the features. -/
theorem blk2_apply (c : Dev nD) (t : Fin cfg0.N) (p : Fin 5000) (e : Fin 64) (r : Fin 50000) (hr : r.val = t.val * 5000 + p.val) :
    (iblk0 V c 2 t : Vec Ideal S5000x64 .f32) (ix2 p e) = (V c main_arg0 : Cert.Spec.A2 50000 64) (ix2 r e) := by
  obtain ⟨-, -, -, -, h0, h1, -⟩ := idx_facts t
  unfold iblk0
  rw [View.read_apply]
  show V c main_arg0 _ = V c main_arg0 _
  refine congrArg _ (funext fun a => Fin.ext ?_)
  match a with
  | ⟨0, _⟩ => show win0_2.index t (0 : Fin 2) * 5000 + 1 * p.val = r.val; rw [h0, hr]; omega
  | ⟨1, _⟩ => show win0_2.index t (1 : Fin 2) * 64 + 1 * e.val = e.val; rw [h1]; omega

/-- Window 3's block at every point is the whole left weight matrix. -/
theorem blk3_apply (c : Dev nD) (t : Fin cfg0.N) (e : Fin 64) (q : Fin 128) :
    (iblk0 V c 3 t : Vec Ideal S64x128 .f32) (ix2 e q) = (V c main_arg3 : Cert.Spec.A2 64 128) (ix2 e q) := by
  obtain ⟨-, -, -, -, -, -, h0, h1, -⟩ := idx_facts t
  unfold iblk0
  rw [View.read_apply]
  show V c main_arg3 _ = V c main_arg3 _
  refine congrArg _ (funext fun a => Fin.ext ?_)
  match a with
  | ⟨0, _⟩ => show win0_3.index t (0 : Fin 2) * 64 + 1 * e.val = e.val; rw [h0]; omega
  | ⟨1, _⟩ => show win0_3.index t (1 : Fin 2) * 128 + 1 * q.val = q.val; rw [h1]; omega

/-- Window 4's block at every point is the whole bias vector. -/
theorem blk4_apply (c : Dev nD) (t : Fin cfg0.N) (q : Fin 128) :
    (iblk0 V c 4 t : Vec Ideal S128 .f32) (ix1 q) = (V c main_arg4 : Cert.Spec.A1 128) (ix1 q) := by
  obtain ⟨-, -, -, -, -, -, -, -, h0, -⟩ := idx_facts t
  unfold iblk0
  rw [View.read_apply]
  show V c main_arg4 _ = V c main_arg4 _
  refine congrArg _ (funext fun a => Fin.ext ?_)
  match a with
  | ⟨0, _⟩ => show win0_4.index t (0 : Fin 1) * 128 + 1 * q.val = q.val; rw [h0]; omega

/-- Window 5's block at every point is the whole right weight matrix. -/
theorem blk5_apply (c : Dev nD) (t : Fin cfg0.N) (e : Fin 64) (q : Fin 128) :
    (iblk0 V c 5 t : Vec Ideal S64x128 .f32) (ix2 e q) = (V c main_arg5 : Cert.Spec.A2 64 128) (ix2 e q) := by
  obtain ⟨-, -, -, -, -, -, -, -, -, h0, h1, -⟩ := idx_facts t
  unfold iblk0
  rw [View.read_apply]
  show V c main_arg5 _ = V c main_arg5 _
  refine congrArg _ (funext fun a => Fin.ext ?_)
  match a with
  | ⟨0, _⟩ => show win0_5.index t (0 : Fin 2) * 64 + 1 * e.val = e.val; rw [h0]; omega
  | ⟨1, _⟩ => show win0_5.index t (1 : Fin 2) * 128 + 1 * q.val = q.val; rw [h1]; omega

/-- The stored tile's entry `(p, q)`, when each loaded block's entries are the arrays' entries at row `r`, is the
    layer's output at `(r, q)`. -/
theorem entry_congr (B0 B2 : Vec Ideal S5000x64 .f32) (B3 B5 : Vec Ideal S64x128 .f32) (B4 : Vec Ideal S128 .f32)
    (B1 : Vec Ideal S5000x1 .f32) (M X : Cert.Spec.A2 50000 64) (I : Cert.Spec.A2 50000 1) (Wl Wr : Cert.Spec.A2 64 128)
    (bl : Cert.Spec.A1 128) (p : Fin 5000) (q : Fin 128) (r : Fin 50000)
    (h0 : ∀ e : Fin 64, B0 (ix2 p e) = M (ix2 r e)) (h1 : B1 (ix2 p (0 : Fin 1)) = I (ix2 r (0 : Fin 1)))
    (h2 : ∀ e : Fin 64, B2 (ix2 p e) = X (ix2 r e)) (h3 : ∀ e : Fin 64, B3 (ix2 e q) = Wl (ix2 e q))
    (h4 : B4 (ix1 q) = bl (ix1 q)) (h5 : ∀ e : Fin 64, B5 (ix2 e q) = Wr (ix2 e q)) :
    k0_pay1 (F := Ideal) B0 B2 B3 B5 B4 B1 (ix2 p q) = Cert.Spec.relu (Cert.Spec.combine M I X Wl bl Wr) (ix2 r q) := by
  refine (pay_apply B0 B2 B3 B5 B4 B1 p q).trans ?_
  show _ = max (((∑ e : Fin 64, M (ix2 r e) * Wl (ix2 e q)) * I (ix2 r (0 : Fin 1)) + bl (ix1 q))
      + ∑ e : Fin 64, X (ix2 r e) * Wr (ix2 e q)) (Ideal.ofBits .f32 0x00000000#32)
  rw [h1, h4, Finset.sum_congr rfl fun e _ => congrArg₂ (· * ·) (h0 e) (h3 e),
    Finset.sum_congr rfl fun e _ => congrArg₂ (· * ·) (h2 e) (h5 e)]

/-- What point `t` writes back is block `t` of the layer's output. -/
theorem flushed_eq (c : Dev nD) (t : Fin cfg0.N) :
    (dat0 (F := Ideal) V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x128) hz,
    View.ld_unit_zero (S := S128) hz1, View.ld_unit_zero (S := S5000x1) hz]
  refine funext fun (j : S5000x128.Idx) => ?_
  obtain ⟨p, q, rfl⟩ : ∃ (p : Fin 5000) (q : Fin 128), j = ix2 p q := ⟨j 0, j 1, eq_ix2 j⟩
  have ht : t.val < 10 := lt_of_lt_of_eq t.isLt (show cfg0.N = 10 from N_0)
  obtain ⟨r, hr⟩ : ∃ r : Fin 50000, r.val = t.val * 5000 + p.val := ⟨⟨t.val * 5000 + p.val, by omega⟩, rfl⟩
  obtain ⟨-, -, -, -, -, -, -, -, -, -, -, h0, h1⟩ := idx_facts t
  have hemb : ((cfg0.win 6).blk t).view.emb (ix2 p q) = (ix2 r q : S50000x128.Idx) := by
    funext a; apply Fin.ext
    match a with
    | ⟨0, _⟩ => show win0_6.index t (0 : Fin 2) * 5000 + 1 * p.val = r.val; rw [h0, hr]; omega
    | ⟨1, _⟩ => show win0_6.index t (1 : Fin 2) * 128 + 1 * q.val = q.val; rw [h1]; omega
  show k0_pay1 (F := Ideal) (iblk0 V c 0 t) (iblk0 V c 2 t) (iblk0 V c 3 t) (iblk0 V c 5 t) (iblk0 V c 4 t) (iblk0 V c 1 t) (ix2 p q)
    = G V c (((cfg0.win 6).blk t).view.emb (ix2 p q))
  refine Eq.trans ?_ (congrArg (G V c) hemb).symm
  exact entry_congr (iblk0 V c 0 t) (iblk0 V c 2 t) (iblk0 V c 3 t) (iblk0 V c 5 t) (iblk0 V c 4 t) (iblk0 V c 1 t)
    (V c main_v13) (V c main_arg0) (V c main_v22) (V c main_arg3) (V c main_arg5) (V c main_arg4) p q r
    (fun e => blk0_apply V c t p e r hr) (blk1_apply V c t p r hr) (fun e => blk2_apply V c t p e r hr)
    (fun e => blk3_apply V c t e q) (blk4_apply V c t q) (fun e => blk5_apply V c t e q)

/-- An index of the output array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v23).slice (win0_6.rect t)).set ↔ _
  rw [View.set_slice_whole, Rect.mem_set_unit]
  exact Iff.rfl

/-- Every row lies in the block of the point numbered by the row divided by the block's height. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, lt_of_lt_of_eq (show (i 0).val / 5000 < 10 by omega) (show cfg0.N = 10 from N_0).symm⟩, rfl⟩
  obtain ⟨-, -, -, -, -, -, -, -, -, -, -, h0, h1⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    rw [h0, ht]; omega
  | ⟨1, _⟩ =>
    show win0_6.index t (1 : Fin 2) * 128 ≤ (i 1).val ∧ (i 1).val < win0_6.index t (1 : Fin 2) * 128 + 128
    rw [h1]; omega

/-- The region's output array after its ten points: the rectified graph-convolution layer of the arrays it found. -/
theorem final0 (c : Dev nD) :
    (dat0 (F := Ideal) V c).arrAt 6 cfg0.N
      = Cert.Spec.relu (Cert.Spec.combine (V c main_v13) (V c main_v22) (V c main_arg0) (V c main_arg3) (V c main_arg4) (V c main_arg5)) :=
  (dat0 V c).arrAt_eq_of_cover 6 (G V c) (fun t _ => flushed_eq V c t) cover

end Cert.KernelIdeal.Region0

end
-- ==== Proof.Region1.lean ====
/-
  The second graph-convolution layer fused with the decoder's two node-side projections, as whole-array functions.

  The region walks 25 grid points; point `t` holds rows `2000 t … 2000 t + 1999` of the neighbour sums `M`, of the inverse
  degree column `I` and of the features `H`, and the whole of the weights `Wl`, `Wr`, `Wd1a`, `Wd1b` and of the bias `bl`.
  On those rows it forms
      Z (p, k) = ((Σ_e M (p, e) · Wl (e, k)) · I (p, 0) + bl (k)) + Σ_e H (p, e) · Wr (e, k)
  and writes back, to the same rows of its two outputs, `Σ_k Z (p, k) · Wd1a (k, j)` and `Σ_k Z (p, k) · Wd1b (k, j)`.

  Read at the extended reals, where a change of float format is the identity and a matrix product into a zero
  accumulator is the plain finite sum, the block each point writes back is the block of ONE function of the arrays the
  region finds, `proj (combine M I H Wl bl Wr) Wd`; the 25 blocks tile the 50000 rows; so each output array ends holding
  that function (`final1_8`, `final1_9`). The order: the body's three values at an index (`pay1_apply` … `pay3_apply`);
  the block indices over the grid (`idx_facts`) and each input block read off its array (`iblk0_apply` … `iblk7_eq`);
  one row of one block over abstract arrays (`block_rows`), shared by the two outputs (`out_rows`); then per output
  where a block's element sits in the array, what a point writes back, the cover, and the array after the region.
-/
import proofs.«176232_j25872882991658_2_alg».proof.Proof.Gen.KernelIdeal.Frame
import proofs.«176232_j25872882991658_2_alg».proof.Proof.Spec
import proofs.«176232_j25872882991658_2_alg».proof.Proof.LibMatmulNN
import proofs.«176232_j25872882991658_2_alg».proof.Proof.LibColumnBroadcast
import proofs.«176232_j25872882991658_2_alg».proof.Proof.LibBiasRow

noncomputable section

namespace Cert.KernelIdeal.Region1

open Cert.KernelIdeal Cert.KernelIdeal.Gen Idealize.ShloMosaic Idealize.ShloMosaic.ValueIdx Idealize.ShloMosaic.TcCoe

/-! ## The body's values at an index -/

/-- The layer's two products contract the columns of a `[2000, 128]` factor with the rows of a `[128, 64]` one. -/
theorem dotA_eq : dot_S2000x128_S128x64_S2000x64_1_0_0_1_n_n
    = Cert.LibMatmulNN.dims (M := 2000) (K := 128) (N := 64) Gen.dot_S2000x128_S128x64_S2000x64_1_0_0_1_n_n_wf := rfl
/-- The projections contract the columns of a `[2000, 64]` factor with the rows of a `[64, 32]` one. -/
theorem dotB_eq : dot_S2000x64_S64x32_S2000x32_1_0_0_1_n_n
    = Cert.LibMatmulNN.dims (M := 2000) (K := 64) (N := 32) Gen.dot_S2000x64_S64x32_S2000x32_1_0_0_1_n_n_wf := rfl
/-- The layer's output on a block at `(p, k)`: the neighbour sums' row against `Wl`'s column, scaled by the row's inverse
    degree, plus the bias, plus the features' row against `Wr`'s column. -/
theorem pay1_apply (v0 v3 : Vec Ideal S2000x128 .f32) (v6 v8 : Vec Ideal S128x64 .f32) (v10 : Vec Ideal S64 .f32)
    (v11 : Vec Ideal S2000x1 .f32) (p : Fin 2000) (k : Fin 64) :
    k1_pay1 v0 v3 v6 v8 v10 v11 (ix2 p k)
      = ((∑ e : Fin 128, v0 (ix2 p e) * v6 (ix2 e k)) * v11 (ix2 p (0 : Fin 1)) + v10 (ix1 k))
        + ∑ e : Fin 128, v3 (ix2 p e) * v8 (ix2 e k) := by
  unfold k1_pay1
  simp only [shapeCast_self, matmul]
  rw [truncf_apply, addf_apply, addf_apply, mulf_apply, dotA_eq,
    Cert.LibMatmulNN.matmul_zero_apply, Cert.LibMatmulNN.matmul_zero_apply,
    Cert.Layout.broadcastTo_a1_ab_apply, BiasRead.bias_rows_apply]
  rfl
/-- The first projection on a block at `(p, j)`: the layer's output's row `p` against column `j` of the weight block. -/
theorem pay2_apply (v0 v3 : Vec Ideal S2000x128 .f32) (v6 v8 : Vec Ideal S128x64 .f32) (v10 : Vec Ideal S64 .f32)
    (v11 : Vec Ideal S2000x1 .f32) (v22 : Vec Ideal S64x32 .f32) (p : Fin 2000) (j : Fin 32) :
    k1_pay2 v0 v3 v6 v8 v10 v11 v22 (ix2 p j)
      = ∑ k : Fin 64, k1_pay1 v0 v3 v6 v8 v10 v11 (ix2 p k) * v22 (ix2 k j) := by
  unfold k1_pay2
  simp only [shapeCast_self, matmul]
  rw [dotB_eq, Cert.LibMatmulNN.matmul_zero_apply]
  rfl
/-- The second projection on a block at `(p, j)`: the same against the other weight block. -/
theorem pay3_apply (v0 v3 : Vec Ideal S2000x128 .f32) (v6 v8 : Vec Ideal S128x64 .f32) (v10 : Vec Ideal S64 .f32)
    (v11 : Vec Ideal S2000x1 .f32) (v25 : Vec Ideal S64x32 .f32) (p : Fin 2000) (j : Fin 32) :
    k1_pay3 v0 v3 v6 v8 v10 v11 v25 (ix2 p j)
      = ∑ k : Fin 64, k1_pay1 v0 v3 v6 v8 v10 v11 (ix2 p k) * v25 (ix2 k j) := by
  unfold k1_pay3
  simp only [shapeCast_self, matmul]
  rw [dotB_eq, Cert.LibMatmulNN.matmul_zero_apply]
  rfl

/-! ## The blocks, read off the arrays the region finds -/

variable (V : (c : Dev nD) → (b : Ref sig .tc) → Buf (Elt Ideal) ((c : Thread nD τ).loc b))

/-- The zero offsets of a whole-block access, rank 2 and rank 1. -/
theorem hz : (![0, 0] : Fin 2 → Nat) = fun _ => 0 := funext fun a => by fin_cases a <;> rfl
theorem hz1 : (![0] : Fin 1 → Nat) = fun _ => 0 := funext fun a => by fin_cases a; rfl

/-- The block indices over the grid: the three row-blocked inputs and the two outputs move with the point along the
    rows, and the weights and the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- Row `p` of the block of point `t` is row `2000 t + p` of the array. -/
def row (t : Fin cfg1.N) (p : Fin 2000) : Fin 50000 :=
  ⟨t.val * 2000 + p.val, by
    have h : t.val < 25 := lt_of_lt_of_eq t.isLt N_1
    have := p.isLt
    omega⟩

/-- Its value. -/
theorem row_val (t : Fin cfg1.N) (p : Fin 2000) : (row t p).val = t.val * 2000 + p.val := rfl

/-- The neighbour sums' block at point `t`: row `p` is row `2000 t + p` of the array. -/
theorem iblk0_apply (c : Dev nD) (t : Fin cfg1.N) (p : Fin 2000) (e : Fin 128) :
    (iblk1 V c 0 t : Vec Ideal S2000x128 .f32) (ix2 p e) = (V c main_v33 : Cert.Spec.A2 50000 128) (ix2 (row t p) e) := by
  obtain ⟨h0, h1, -⟩ := idx_facts t
  unfold iblk1
  rw [View.read_apply]
  show V c main_v33 _ = V c main_v33 _
  congr 1
  funext a
  apply Fin.ext
  match a with
  | ⟨0, _⟩ => show win1_0.index t (0 : Fin 2) * 2000 + 1 * p.val = t.val * 2000 + p.val; rw [h0]; omega
  | ⟨1, _⟩ => show win1_0.index t (1 : Fin 2) * 128 + 1 * e.val = e.val; rw [h1]; omega

/-- The inverse degree column's block at point `t`: row `p` is row `2000 t + p` of the column. -/
theorem iblk1_apply (c : Dev nD) (t : Fin cfg1.N) (p : Fin 2000) :
    (iblk1 V c 1 t : Vec Ideal S2000x1 .f32) (ix2 p (0 : Fin 1)) = (V c main_v22 : Cert.Spec.A2 50000 1) (ix2 (row t p) (0 : Fin 1)) := by
  obtain ⟨-, -, h0, h1, -⟩ := idx_facts t
  unfold iblk1
  rw [View.read_apply]
  show V c main_v22 _ = V c main_v22 _
  congr 1
  funext a
  apply Fin.ext
  match a with
  | ⟨0, _⟩ => show win1_1.index t (0 : Fin 2) * 2000 + 1 * p.val = t.val * 2000 + p.val; rw [h0]; omega
  | ⟨1, _⟩ => show win1_1.index t (1 : Fin 2) * 1 + 1 * 0 = 0; rw [h1]
/-- The features' block at point `t`: row `p` is row `2000 t + p` of the array. -/
theorem iblk2_apply (c : Dev nD) (t : Fin cfg1.N) (p : Fin 2000) (e : Fin 128) :
    (iblk1 V c 2 t : Vec Ideal S2000x128 .f32) (ix2 p e) = (V c main_v23 : Cert.Spec.A2 50000 128) (ix2 (row t p) e) := by
  obtain ⟨-, -, -, -, h0, h1, -⟩ := idx_facts t
  unfold iblk1
  rw [View.read_apply]
  show V c main_v23 _ = V c main_v23 _
  congr 1
  funext a
  apply Fin.ext
  match a with
  | ⟨0, _⟩ => show win1_2.index t (0 : Fin 2) * 2000 + 1 * p.val = t.val * 2000 + p.val; rw [h0]; omega
  | ⟨1, _⟩ => show win1_2.index t (1 : Fin 2) * 128 + 1 * e.val = e.val; rw [h1]; omega
/-- The block of `Wl` at every point is the whole array. -/
theorem iblk3_eq (c : Dev nD) (t : Fin cfg1.N) :
    (iblk1 V c 3 t : Vec Ideal S128x64 .f32) = (V c main_arg6 : Cert.Spec.A2 128 64) := by
  obtain ⟨-, -, -, -, -, -, h0, h1, -⟩ := idx_facts t
  funext y
  unfold iblk1
  rw [View.read_apply]
  show V c main_arg6 _ = V c main_arg6 _
  congr 1
  funext a
  apply Fin.ext
  match a with
  | ⟨0, _⟩ => show win1_3.index t (0 : Fin 2) * 128 + 1 * (y 0).val = (y 0).val; rw [h0]; omega
  | ⟨1, _⟩ => show win1_3.index t (1 : Fin 2) * 64 + 1 * (y 1).val = (y 1).val; rw [h1]; omega
/-- The block of the bias at every point is the whole vector. -/
theorem iblk4_eq (c : Dev nD) (t : Fin cfg1.N) :
    (iblk1 V c 4 t : Vec Ideal S64 .f32) = (V c main_arg7 : Cert.Spec.A1 64) := by
  obtain ⟨-, -, -, -, -, -, -, -, h0, -⟩ := idx_facts t
  funext y
  unfold iblk1
  rw [View.read_apply]
  show V c main_arg7 _ = V c main_arg7 _
  congr 1
  funext a
  apply Fin.ext
  match a with
  | ⟨0, _⟩ => show win1_4.index t (0 : Fin 1) * 64 + 1 * (y 0).val = (y 0).val; rw [h0]; omega
/-- The block of `Wr` at every point is the whole array. -/
theorem iblk5_eq (c : Dev nD) (t : Fin cfg1.N) :
    (iblk1 V c 5 t : Vec Ideal S128x64 .f32) = (V c main_arg8 : Cert.Spec.A2 128 64) := by
  obtain ⟨-, -, -, -, -, -, -, -, -, h0, h1, -⟩ := idx_facts t
  funext y
  unfold iblk1
  rw [View.read_apply]
  show V c main_arg8 _ = V c main_arg8 _
  congr 1
  funext a
  apply Fin.ext
  match a with
  | ⟨0, _⟩ => show win1_5.index t (0 : Fin 2) * 128 + 1 * (y 0).val = (y 0).val; rw [h0]; omega
  | ⟨1, _⟩ => show win1_5.index t (1 : Fin 2) * 64 + 1 * (y 1).val = (y 1).val; rw [h1]; omega
/-- The block of `Wd1a` at every point is the whole array. -/
theorem iblk6_eq (c : Dev nD) (t : Fin cfg1.N) :
    (iblk1 V c 6 t : Vec Ideal S64x32 .f32) = (V c main_v34 : Cert.Spec.A2 64 32) := by
  obtain ⟨-, -, -, -, -, -, -, -, -, -, -, h0, h1, -⟩ := idx_facts t
  funext y
  unfold iblk1
  rw [View.read_apply]
  show V c main_v34 _ = V c main_v34 _
  congr 1
  funext a
  apply Fin.ext
  match a with
  | ⟨0, _⟩ => show win1_6.index t (0 : Fin 2) * 64 + 1 * (y 0).val = (y 0).val; rw [h0]; omega
  | ⟨1, _⟩ => show win1_6.index t (1 : Fin 2) * 32 + 1 * (y 1).val = (y 1).val; rw [h1]; omega
/-- The block of `Wd1b` at every point is the whole array. -/
theorem iblk7_eq (c : Dev nD) (t : Fin cfg1.N) :
    (iblk1 V c 7 t : Vec Ideal S64x32 .f32) = (V c main_v35 : Cert.Spec.A2 64 32) := by
  obtain ⟨-, -, -, -, -, -, -, -, -, -, -, -, -, h0, h1, -⟩ := idx_facts t
  funext y
  unfold iblk1
  rw [View.read_apply]
  show V c main_v35 _ = V c main_v35 _
  congr 1
  funext a
  apply Fin.ext
  match a with
  | ⟨0, _⟩ => show win1_7.index t (0 : Fin 2) * 64 + 1 * (y 0).val = (y 0).val; rw [h0]; omega
  | ⟨1, _⟩ => show win1_7.index t (1 : Fin 2) * 32 + 1 * (y 1).val = (y 1).val; rw [h1]; omega

/-! ## One row of one block -/

/-- One row of one block, over abstract arrays. If row `p` of the three row-blocked inputs is row `r` of the arrays
    `M`, `I`, `H`, and the other blocks are the whole arrays `Wl`, `bl`, `Wr`, `Wd`, then a function that is, entry by
    entry, the block's layer output against the last weight block is, on row `p`, row `r` of the layer `combine` against `Wd`. -/
theorem block_rows (M H : Cert.Spec.A2 50000 128) (I : Cert.Spec.A2 50000 1) (Wl Wr : Cert.Spec.A2 128 64)
    (bl : Cert.Spec.A1 64) (Wd : Cert.Spec.A2 64 32)
    (x0 x2 : Vec Ideal S2000x128 .f32) (x1 : Vec Ideal S2000x1 .f32) (x3 x5 : Vec Ideal S128x64 .f32)
    (x4 : Vec Ideal S64 .f32) (x6 : Vec Ideal S64x32 .f32) (P : Vec Ideal S2000x32 .f32)
    (hP : ∀ (p : Fin 2000) (j : Fin 32), P (ix2 p j)
      = ∑ k : Fin 64, k1_pay1 x0 x2 x3 x5 x4 x1 (ix2 p k) * x6 (ix2 k j))
    (r : Fin 50000) (p : Fin 2000)
    (h0 : ∀ e : Fin 128, x0 (ix2 p e) = M (ix2 r e)) (h1 : x1 (ix2 p (0 : Fin 1)) = I (ix2 r (0 : Fin 1)))
    (h2 : ∀ e : Fin 128, x2 (ix2 p e) = H (ix2 r e))
    (h3 : x3 = Wl) (h4 : x4 = bl) (h5 : x5 = Wr) (h6 : x6 = Wd) (q : Fin 32) :
    P (ix2 p q) = Cert.Spec.proj (Cert.Spec.combine M I H Wl bl Wr) Wd (ix2 r q) := by
  rw [h3, h4, h5, h6] at hP
  rw [hP]
  show _ = ∑ k : Fin 64, Cert.Spec.combine M I H Wl bl Wr (ix2 r k) * Wd (ix2 k q)
  refine Finset.sum_congr rfl fun k _ => congrArg (· * _) ?_
  rw [pay1_apply, h1]
  show _ = ((∑ e : Fin 128, M (ix2 r e) * Wl (ix2 e k)) * I (ix2 r (0 : Fin 1)) + bl (ix1 k))
    + ∑ e : Fin 128, H (ix2 r e) * Wr (ix2 e k)
  simp only [h0, h2]

/-- The layer's output on the whole arrays as the region finds them. -/
abbrev Z (c : Dev nD) : Cert.Spec.A2 50000 64 :=
  Cert.Spec.combine (V c main_v33) (V c main_v22) (V c main_v23) (V c main_arg6) (V c main_arg7) (V c main_arg8)

/-- Either output's block at point `t`: rows `2000 t …` of `Z` against the weight array. -/
theorem out_rows (c : Dev nD) (t : Fin cfg1.N) (P : Vec Ideal S2000x32 .f32) (x6 : Vec Ideal S64x32 .f32)
    (Wd : Cert.Spec.A2 64 32) (h6 : x6 = Wd)
    (hP : ∀ (p : Fin 2000) (j : Fin 32), P (ix2 p j)
      = ∑ k : Fin 64, k1_pay1 (iblk1 V c 0 t) (iblk1 V c 2 t) (iblk1 V c 3 t) (iblk1 V c 5 t) (iblk1 V c 4 t) (iblk1 V c 1 t) (ix2 p k) * x6 (ix2 k j))
    (p : Fin 2000) (q : Fin 32) :
    P (ix2 p q) = Cert.Spec.proj (Z V c) Wd (ix2 (row t p) q) :=
  block_rows (V c main_v33) (V c main_v23) (V c main_v22) (V c main_arg6) (V c main_arg8) (V c main_arg7) Wd
    (iblk1 V c 0 t) (iblk1 V c 2 t) (iblk1 V c 1 t) (iblk1 V c 3 t) (iblk1 V c 5 t) (iblk1 V c 4 t) x6 P hP (row t p) p
    (iblk0_apply V c t p) (iblk1_apply V c t p) (iblk2_apply V c t p) (iblk3_eq V c t) (iblk4_eq V c t) (iblk5_eq V c t) h6 q

/-! ## Output 8 -/

/-- Element `(p, q)` of the block of point `t` sits at `(2000 t + p, q)` of the array. -/
theorem emb8 (t : Fin cfg1.N) (p : Fin 2000) (q : Fin 32) :
    (((cfg1.win 8).blk t).view.emb (ix2 p q) : S50000x32.Idx) = ix2 (row t p) q := by
  obtain ⟨-, -, -, -, -, -, -, -, -, -, -, -, -, -, -, h0, h1, -⟩ := idx_facts t
  funext a
  apply Fin.ext
  match a with
  | ⟨0, _⟩ => show win1_8.index t (0 : Fin 2) * 2000 + 1 * p.val = t.val * 2000 + p.val; rw [h0]; omega
  | ⟨1, _⟩ => show win1_8.index t (1 : Fin 2) * 32 + 1 * q.val = q.val; rw [h1]; omega

/-- What point `t` writes back to output 8 is block `t` of `Z · Wd1a`. -/
theorem flushed8_eq (c : Dev nD) (t : Fin cfg1.N) :
    (dat1 V c).flushed 8 t = ((cfg1.win 8).blk t).view.read (Elt Ideal) (Cert.Spec.proj (Z V c) (V c main_v34)) := by
  show (cfg1.win 8).cut (grid1.coords t) ((dat1 V c).after 8 t) = _
  rw [after1_8]
  unfold out1_8
  rw [View.canon_unit_zero hz]
  simp only [View.ld_unit_zero (S := S2000x128) hz, View.ld_unit_zero (S := S128x64) hz, View.ld_unit_zero (S := S64) hz1,
    View.ld_unit_zero (S := S2000x1) hz, View.ld_unit_zero (S := S64x32) hz]
  funext j
  obtain ⟨p, q, rfl⟩ : ∃ (p : Fin 2000) (q : Fin 32), j = ix2 p q := ⟨j 0, j 1, eq_ix2 j⟩
  refine (out_rows V c t _ (iblk1 V c 6 t) (V c main_v34) (iblk6_eq V c t) (fun p j => pay2_apply _ _ _ _ _ _ _ p j) p q).trans ?_
  exact (congrArg (Cert.Spec.proj (Z V c) (V c main_v34)) (emb8 t p q)).symm

/-- An index of the array is in point `t`'s block iff each coordinate is in the block's range on its axis. -/
theorem mem_blk8 (t : Fin cfg1.N) (i : S50000x32.Idx) :
    i ∈ ((cfg1.win 8).blk t).view.set ↔ ∀ a : Fin 2, win1_8.index t a * S2000x32.size a ≤ (i a).val
      ∧ (i a).val < win1_8.index t a * S2000x32.size a + S2000x32.size a := by
  show i ∈ ((View.whole main_v36_0).slice (win1_8.rect t)).set ↔ _
  rw [View.set_slice_whole, Rect.mem_set_unit]
  exact Iff.rfl

/-- Row `r` of the array lies in the block of point `r / 2000`, which writes back. -/
theorem cover8 (i : S50000x32.Idx) :
    ∃ t : Fin cfg1.N, (cfg1.win 8).flush t = true ∧ i ∈ ((cfg1.win 8).blk t).view.set := by
  have hi0 : (i 0).val < 50000 := (i 0).isLt
  have hi1 : (i 1).val < 32 := (i 1).isLt
  have ht : (i 0).val / 2000 < cfg1.N := lt_of_lt_of_eq (by omega : (i 0).val / 2000 < 25) N_1.symm
  obtain ⟨-, -, -, -, -, -, -, -, -, -, -, -, -, -, -, h0, h1, -⟩ := idx_facts ⟨(i 0).val / 2000, ht⟩
  refine ⟨⟨(i 0).val / 2000, ht⟩, flush1_8 _, ?_⟩
  rw [mem_blk8]
  intro a
  match a with
  | ⟨0, _⟩ =>
    show win1_8.index ⟨(i 0).val / 2000, ht⟩ (0 : Fin 2) * 2000 ≤ (i 0).val
      ∧ (i 0).val < win1_8.index ⟨(i 0).val / 2000, ht⟩ (0 : Fin 2) * 2000 + 2000
    rw [h0]
    show (i 0).val / 2000 * 2000 ≤ (i 0).val ∧ (i 0).val < (i 0).val / 2000 * 2000 + 2000
    omega
  | ⟨1, _⟩ =>
    show win1_8.index ⟨(i 0).val / 2000, ht⟩ (1 : Fin 2) * 32 ≤ (i 1).val
      ∧ (i 1).val < win1_8.index ⟨(i 0).val / 2000, ht⟩ (1 : Fin 2) * 32 + 32
    rw [h1]
    omega

/-- Output 8 after the region: the layer's output against `Wd1a`, as one function of the arrays the region finds. -/
theorem final1_8 (c : Dev nD) :
    (dat1 (F := Ideal) V c).arrAt 8 cfg1.N
      = Cert.Spec.proj (Cert.Spec.combine (V c main_v33) (V c main_v22) (V c main_v23) (V c main_arg6) (V c main_arg7) (V c main_arg8)) (V c main_v34) :=
  (dat1 V c).arrAt_eq_of_cover 8 (Cert.Spec.proj (Z V c) (V c main_v34)) (fun t _ => flushed8_eq V c t) cover8

/-! ## Output 9 -/

/-- Element `(p, q)` of the block of point `t` sits at `(2000 t + p, q)` of the array. -/
theorem emb9 (t : Fin cfg1.N) (p : Fin 2000) (q : Fin 32) :
    (((cfg1.win 9).blk t).view.emb (ix2 p q) : S50000x32.Idx) = ix2 (row t p) q := by
  obtain ⟨-, -, -, -, -, -, -, -, -, -, -, -, -, -, -, -, -, h0, h1⟩ := idx_facts t
  funext a
  apply Fin.ext
  match a with
  | ⟨0, _⟩ => show win1_9.index t (0 : Fin 2) * 2000 + 1 * p.val = t.val * 2000 + p.val; rw [h0]; omega
  | ⟨1, _⟩ => show win1_9.index t (1 : Fin 2) * 32 + 1 * q.val = q.val; rw [h1]; omega

/-- What point `t` writes back to output 9 is block `t` of `Z · Wd1b`. -/
theorem flushed9_eq (c : Dev nD) (t : Fin cfg1.N) :
    (dat1 V c).flushed 9 t = ((cfg1.win 9).blk t).view.read (Elt Ideal) (Cert.Spec.proj (Z V c) (V c main_v35)) := by
  show (cfg1.win 9).cut (grid1.coords t) ((dat1 V c).after 9 t) = _
  rw [after1_9]
  unfold out1_9
  rw [View.canon_unit_zero hz]
  simp only [View.ld_unit_zero (S := S2000x128) hz, View.ld_unit_zero (S := S128x64) hz, View.ld_unit_zero (S := S64) hz1,
    View.ld_unit_zero (S := S2000x1) hz, View.ld_unit_zero (S := S64x32) hz]
  funext j
  obtain ⟨p, q, rfl⟩ : ∃ (p : Fin 2000) (q : Fin 32), j = ix2 p q := ⟨j 0, j 1, eq_ix2 j⟩
  refine (out_rows V c t _ (iblk1 V c 7 t) (V c main_v35) (iblk7_eq V c t) (fun p j => pay3_apply _ _ _ _ _ _ _ p j) p q).trans ?_
  exact (congrArg (Cert.Spec.proj (Z V c) (V c main_v35)) (emb9 t p q)).symm

/-- An index of the array is in point `t`'s block iff each coordinate is in the block's range on its axis. -/
theorem mem_blk9 (t : Fin cfg1.N) (i : S50000x32.Idx) :
    i ∈ ((cfg1.win 9).blk t).view.set ↔ ∀ a : Fin 2, win1_9.index t a * S2000x32.size a ≤ (i a).val
      ∧ (i a).val < win1_9.index t a * S2000x32.size a + S2000x32.size a := by
  show i ∈ ((View.whole main_v36_1).slice (win1_9.rect t)).set ↔ _
  rw [View.set_slice_whole, Rect.mem_set_unit]
  exact Iff.rfl

/-- Row `r` of the array lies in the block of point `r / 2000`, which writes back. -/
theorem cover9 (i : S50000x32.Idx) :
    ∃ t : Fin cfg1.N, (cfg1.win 9).flush t = true ∧ i ∈ ((cfg1.win 9).blk t).view.set := by
  have hi0 : (i 0).val < 50000 := (i 0).isLt
  have hi1 : (i 1).val < 32 := (i 1).isLt
  have ht : (i 0).val / 2000 < cfg1.N := lt_of_lt_of_eq (by omega : (i 0).val / 2000 < 25) N_1.symm
  obtain ⟨-, -, -, -, -, -, -, -, -, -, -, -, -, -, -, -, -, h0, h1⟩ := idx_facts ⟨(i 0).val / 2000, ht⟩
  refine ⟨⟨(i 0).val / 2000, ht⟩, flush1_9 _, ?_⟩
  rw [mem_blk9]
  intro a
  match a with
  | ⟨0, _⟩ =>
    show win1_9.index ⟨(i 0).val / 2000, ht⟩ (0 : Fin 2) * 2000 ≤ (i 0).val
      ∧ (i 0).val < win1_9.index ⟨(i 0).val / 2000, ht⟩ (0 : Fin 2) * 2000 + 2000
    rw [h0]
    show (i 0).val / 2000 * 2000 ≤ (i 0).val ∧ (i 0).val < (i 0).val / 2000 * 2000 + 2000
    omega
  | ⟨1, _⟩ =>
    show win1_9.index ⟨(i 0).val / 2000, ht⟩ (1 : Fin 2) * 32 ≤ (i 1).val
      ∧ (i 1).val < win1_9.index ⟨(i 0).val / 2000, ht⟩ (1 : Fin 2) * 32 + 32
    rw [h1]
    omega

/-- Output 9 after the region: the layer's output against `Wd1b`, as one function of the arrays the region finds. -/
theorem final1_9 (c : Dev nD) :
    (dat1 (F := Ideal) V c).arrAt 9 cfg1.N
      = Cert.Spec.proj (Cert.Spec.combine (V c main_v33) (V c main_v22) (V c main_v23) (V c main_arg6) (V c main_arg7) (V c main_arg8)) (V c main_v35) :=
  (dat1 V c).arrAt_eq_of_cover 9 (Cert.Spec.proj (Z V c) (V c main_v35)) (fun t _ => flushed9_eq V c t) cover9

end Cert.KernelIdeal.Region1

end
-- ==== Proof.Region2.lean ====
/-
  The edge decoder's region as one whole-array function.

  The region walks 100 blocks of 4000 rows. At each block the body adds the two gathered node projections and the first
  bias, rectifies, applies a rectified dense layer and then a dense layer; the weights and the biases are read whole at
  every block. Since an entry of the decoder depends on its inputs only through the entry's own row of the two gathered
  matrices, what each block writes back is that block of the decoder of the WHOLE arrays, and the 100 blocks tile the
  400000 rows: after the region the result array holds the decoder of the arrays the region found.
-/
import proofs.«176232_j25872882991658_2_alg».proof.Proof.Gen.KernelIdeal.Frame
import proofs.«176232_j25872882991658_2_alg».proof.Proof.Spec
import proofs.«176232_j25872882991658_2_alg».proof.Proof.LibMatmulNN
import proofs.«176232_j25872882991658_2_alg».proof.Proof.LibBiasRow

noncomputable section

namespace Cert.KernelIdeal.Region2

open Cert.KernelIdeal Cert.KernelIdeal.Gen Idealize.ShloMosaic Idealize.ShloMosaic.ValueIdx
open Cert.KernelIdeal.Facts₀ Cert.KernelIdeal.Facts
open Idealize.ShloMosaic.TcCoe
open Idealize.ShloMosaic.Pipeline (Dat)

/-- The printed dimension numbers of the first product are "rows against columns". -/
theorem dims_first : dot_S4000x32_S32x16_S4000x16_1_0_0_1_n_n
    = Cert.LibMatmulNN.dims (M := 4000) (K := 32) (N := 16) Facts₀.dot_S4000x32_S32x16_S4000x16_1_0_0_1_n_n_wf := rfl

/-- The printed dimension numbers of the second product are "rows against columns". -/
theorem dims_second : dot_S4000x16_S16x1_S4000x1_1_0_0_1_n_n
    = Cert.LibMatmulNN.dims (M := 4000) (K := 16) (N := 1) Facts₀.dot_S4000x16_S16x1_S4000x1_1_0_0_1_n_n_wf := rfl

/-- The body's payload on a block of rows is the edge decoder of that block, entry by entry. -/
theorem payload_apply (v0 v2 : Vec Ideal S4000x32 .f32) (v4 : Vec Ideal S32 .f32) (v12 : Vec Ideal S32x16 .f32)
    (v14 : Vec Ideal S16 .f32) (v22 : Vec Ideal S16x1 .f32) (v24 : Vec Ideal S1 .f32) (p : Fin 4000) (u : Fin 1) :
    k2_pay1 (F := Ideal) v0 v2 v4 v12 v14 v22 v24 (ix2 p u) = Cert.Spec.dec v0 v2 v4 v12 v14 v22 v24 (ix2 p u) := by
  unfold k2_pay1
  simp only [addf_apply, maximumf_apply, truncf_apply, broadcast_apply, shapeCast_self, dims_first, dims_second,
    Cert.LibMatmulNN.matmul_zero_apply, BiasRead.bias_rows_apply]
  rfl

/-- An entry of the edge decoder depends on its inputs only through the entry's own row of the two gathered matrices. -/
theorem dec_row {n n' : ℕ} (A B : Cert.Spec.A2 n 32) (A' B' : Cert.Spec.A2 n' 32) (b1 : Cert.Spec.A1 32)
    (W2 : Cert.Spec.A2 32 16) (b2 : Cert.Spec.A1 16) (W3 : Cert.Spec.A2 16 1) (b3 : Cert.Spec.A1 1)
    (p : Fin n) (p' : Fin n') (u : Fin 1)
    (hA : ∀ e : Fin 32, A (ix2 p e) = A' (ix2 p' e)) (hB : ∀ e : Fin 32, B (ix2 p e) = B' (ix2 p' e)) :
    Cert.Spec.dec A B b1 W2 b2 W3 b3 (ix2 p u) = Cert.Spec.dec A' B' b1 W2 b2 W3 b3 (ix2 p' u) := by
  show (∑ e2 : Fin 16, max ((∑ e1 : Fin 32, max ((A (ix2 p e1) + B (ix2 p e1)) + b1 (ix1 e1)) (Ideal.ofBits .f32 0x00000000#32) * W2 (ix2 e1 e2)) + b2 (ix1 e2)) (Ideal.ofBits .f32 0x00000000#32) * W3 (ix2 e2 u)) + b3 (ix1 u)
    = (∑ e2 : Fin 16, max ((∑ e1 : Fin 32, max ((A' (ix2 p' e1) + B' (ix2 p' e1)) + b1 (ix1 e1)) (Ideal.ofBits .f32 0x00000000#32) * W2 (ix2 e1 e2)) + b2 (ix1 e2)) (Ideal.ofBits .f32 0x00000000#32) * W3 (ix2 e2 u)) + b3 (ix1 u)
  simp only [hA, hB]

/-- The payload on a block whose rows are rows of two larger matrices is the decoder of those matrices at the row. -/
theorem block_apply (x0 x1 : Vec Ideal S4000x32 .f32) (x2 : Vec Ideal S32 .f32) (x3 : Vec Ideal S32x16 .f32)
    (x4 : Vec Ideal S16 .f32) (x5 : Vec Ideal S16x1 .f32) (x6 : Vec Ideal S1 .f32) (A B : Cert.Spec.A2 400000 32)
    (k : ℕ) (y : S4000x1.Idx) (i : S400000x1.Idx)
    (hi0 : (i 0).val = k * 4000 + (y 0).val) (hi1 : (i 1).val = (y 1).val)
    (hA : ∀ (p : Fin 4000) (e : Fin 32) (r : Fin 400000), r.val = k * 4000 + p.val → x0 (ix2 p e) = A (ix2 r e))
    (hB : ∀ (p : Fin 4000) (e : Fin 32) (r : Fin 400000), r.val = k * 4000 + p.val → x1 (ix2 p e) = B (ix2 r e)) :
    k2_pay1 (F := Ideal) x0 x1 x2 x3 x4 x5 x6 y = Cert.Spec.dec A B x2 x3 x4 x5 x6 i := by
  obtain ⟨p, u, rfl⟩ : ∃ (p : Fin 4000) (u : Fin 1), y = ix2 p u := ⟨y 0, y 1, eq_ix2 y⟩
  obtain ⟨r, w, rfl⟩ : ∃ (r : Fin 400000) (w : Fin 1), i = ix2 r w := ⟨i 0, i 1, eq_ix2 i⟩
  obtain rfl : w = u := Fin.ext hi1
  exact (payload_apply x0 x1 x2 x3 x4 x5 x6 p w).trans
    (dec_row x0 x1 A B x2 x3 x4 x5 x6 p r w (fun e => hA p e r hi0) (fun e => hB p e r hi0))

variable (V : (c : Dev nD) → (b : Ref sig .tc) → Buf (Elt Ideal) ((c : Thread nD τ).loc b))

/-- The zero offsets of a rank-2 access, however spelt. -/
theorem zeros2 : (![0, 0] : Fin 2 → Nat) = fun _ => 0 := funext fun a => by fin_cases a <;> rfl
/-- The zero offsets of a rank-1 access, however spelt. -/
theorem zeros1 : (![0] : Fin 1 → Nat) = fun _ => 0 := funext fun a => by fin_cases a; rfl

/-- The printed index maps, decided over the grid: the two gathered matrices and the result move one block of rows per
    point, the weights and biases stay at block 0. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- Row `p` of the first gathered matrix's block at point `t` is row `4000 t + p` of the matrix. -/
theorem iblk0_apply (c : Dev nD) (t : Fin cfg2.N) (p : Fin 4000) (e : Fin 32) (r : Fin 400000)
    (hr : r.val = t.val * 4000 + p.val) :
    (iblk2 (F := Ideal) V c 0 t : Vec Ideal S4000x32 .f32) (ix2 p e) = (V c main_v45 : Vec Ideal S400000x32 .f32) (ix2 r e) := by
  obtain ⟨h0, h1, -⟩ := block_indices t
  unfold iblk2
  rw [View.read_apply]
  show V c main_v45 _ = V c main_v45 _
  refine congrArg _ ?_
  funext a
  apply Fin.ext
  match a with
  | ⟨0, _⟩ => show win2_0.index t (0 : Fin 2) * 4000 + 1 * p.val = r.val; rw [h0, hr]; omega
  | ⟨1, _⟩ => show win2_0.index t (1 : Fin 2) * 32 + 1 * e.val = e.val; rw [h1]; omega

/-- Row `p` of the second gathered matrix's block at point `t` is row `4000 t + p` of the matrix. -/
theorem iblk1_apply (c : Dev nD) (t : Fin cfg2.N) (p : Fin 4000) (e : Fin 32) (r : Fin 400000)
    (hr : r.val = t.val * 4000 + p.val) :
    (iblk2 (F := Ideal) V c 1 t : Vec Ideal S4000x32 .f32) (ix2 p e) = (V c main_v54 : Vec Ideal S400000x32 .f32) (ix2 r e) := by
  obtain ⟨-, -, h0, h1, -⟩ := block_indices t
  unfold iblk2
  rw [View.read_apply]
  show V c main_v54 _ = V c main_v54 _
  refine congrArg _ ?_
  funext a
  apply Fin.ext
  match a with
  | ⟨0, _⟩ => show win2_1.index t (0 : Fin 2) * 4000 + 1 * p.val = r.val; rw [h0, hr]; omega
  | ⟨1, _⟩ => show win2_1.index t (1 : Fin 2) * 32 + 1 * e.val = e.val; rw [h1]; omega

/-- The first bias's block is the whole vector, at every point. -/
theorem iblk2_eq (c : Dev nD) (t : Fin cfg2.N) :
    (iblk2 (F := Ideal) V c 2 t : Vec Ideal S32 .f32) = (V c main_arg10 : Vec Ideal S32 .f32) := by
  obtain ⟨-, -, -, -, h0, -⟩ := block_indices t
  funext x
  unfold iblk2
  rw [View.read_apply]
  show V c main_arg10 _ = V c main_arg10 x
  refine congrArg _ ?_
  funext a
  apply Fin.ext
  match a with
  | ⟨0, _⟩ => show win2_2.index t (0 : Fin 1) * 32 + 1 * (x 0).val = (x 0).val; rw [h0]; omega

/-- The second layer's weights' block is the whole matrix, at every point. -/
theorem iblk3_eq (c : Dev nD) (t : Fin cfg2.N) :
    (iblk2 (F := Ideal) V c 3 t : Vec Ideal S32x16 .f32) = (V c main_arg11 : Vec Ideal S32x16 .f32) := by
  obtain ⟨-, -, -, -, -, h0, h1, -⟩ := block_indices t
  funext x
  unfold iblk2
  rw [View.read_apply]
  show V c main_arg11 _ = V c main_arg11 x
  refine congrArg _ ?_
  funext a
  apply Fin.ext
  match a with
  | ⟨0, _⟩ => show win2_3.index t (0 : Fin 2) * 32 + 1 * (x 0).val = (x 0).val; rw [h0]; omega
  | ⟨1, _⟩ => show win2_3.index t (1 : Fin 2) * 16 + 1 * (x 1).val = (x 1).val; rw [h1]; omega

/-- The second bias's block is the whole vector, at every point. -/
theorem iblk4_eq (c : Dev nD) (t : Fin cfg2.N) :
    (iblk2 (F := Ideal) V c 4 t : Vec Ideal S16 .f32) = (V c main_arg12 : Vec Ideal S16 .f32) := by
  obtain ⟨-, -, -, -, -, -, -, h0, -⟩ := block_indices t
  funext x
  unfold iblk2
  rw [View.read_apply]
  show V c main_arg12 _ = V c main_arg12 x
  refine congrArg _ ?_
  funext a
  apply Fin.ext
  match a with
  | ⟨0, _⟩ => show win2_4.index t (0 : Fin 1) * 16 + 1 * (x 0).val = (x 0).val; rw [h0]; omega

/-- The third layer's weights' block is the whole matrix, at every point. -/
theorem iblk5_eq (c : Dev nD) (t : Fin cfg2.N) :
    (iblk2 (F := Ideal) V c 5 t : Vec Ideal S16x1 .f32) = (V c main_arg13 : Vec Ideal S16x1 .f32) := by
  obtain ⟨-, -, -, -, -, -, -, -, h0, h1, -⟩ := block_indices t
  funext x
  unfold iblk2
  rw [View.read_apply]
  show V c main_arg13 _ = V c main_arg13 x
  refine congrArg _ ?_
  funext a
  apply Fin.ext
  match a with
  | ⟨0, _⟩ => show win2_5.index t (0 : Fin 2) * 16 + 1 * (x 0).val = (x 0).val; rw [h0]; omega
  | ⟨1, _⟩ => show win2_5.index t (1 : Fin 2) * 1 + 1 * (x 1).val = (x 1).val; rw [h1]; omega

/-- The third bias's block is the whole vector, at every point. -/
theorem iblk6_eq (c : Dev nD) (t : Fin cfg2.N) :
    (iblk2 (F := Ideal) V c 6 t : Vec Ideal S1 .f32) = (V c main_arg14 : Vec Ideal S1 .f32) := by
  obtain ⟨-, -, -, -, -, -, -, -, -, -, h0, -⟩ := block_indices t
  funext x
  unfold iblk2
  rw [View.read_apply]
  show V c main_arg14 _ = V c main_arg14 x
  refine congrArg _ ?_
  funext a
  apply Fin.ext
  match a with
  | ⟨0, _⟩ => show win2_6.index t (0 : Fin 1) * 1 + 1 * (x 0).val = (x 0).val; rw [h0]; omega

/-- The edge decoder of the arrays the region finds. -/
abbrev decoded (c : Dev nD) : Cert.Spec.A2 400000 1 :=
  Cert.Spec.dec (V c main_v45) (V c main_v54) (V c main_arg10) (V c main_arg11) (V c main_arg12) (V c main_arg13) (V c main_arg14)

/-- What point `t` writes back is block `t` of the decoder of the whole arrays. -/
theorem written_back_eq (c : Dev nD) (t : Fin cfg2.N) :
    (dat2 (F := Ideal) V c).flushed 7 t = ((cfg2.win 7).blk t).view.read (Elt Ideal) (decoded V c) := by
  show (cfg2.win 7).cut (grid2.coords t) ((dat2 V c).after 7 t) = _
  rw [after2_7]
  unfold out2_7
  rw [View.canon_unit_zero zeros2]
  simp only [View.ld_unit_zero (S := S4000x32) zeros2, View.ld_unit_zero (S := S32) zeros1, View.ld_unit_zero (S := S32x16) zeros2,
    View.ld_unit_zero (S := S16) zeros1, View.ld_unit_zero (S := S16x1) zeros2, View.ld_unit_zero (S := S1) zeros1]
  rw [iblk2_eq V c t, iblk3_eq V c t, iblk4_eq V c t, iblk5_eq V c t, iblk6_eq V c t]
  obtain ⟨-, -, -, -, -, -, -, -, -, -, -, h0, h1⟩ := block_indices t
  funext y
  show k2_pay1 (F := Ideal) (iblk2 V c 0 t) (iblk2 V c 1 t) (V c main_arg10) (V c main_arg11) (V c main_arg12) (V c main_arg13) (V c main_arg14) y
    = decoded V c (((cfg2.win 7).blk t).view.emb y)
  refine block_apply _ _ _ _ _ _ _ _ _ t.val y _ ?_ ?_ (fun p e r hr => iblk0_apply V c t p e r hr) (fun p e r hr => iblk1_apply V c t p e r hr)
  · show win2_7.index t (0 : Fin 2) * 4000 + 1 * (y 0).val = t.val * 4000 + (y 0).val
    rw [h0]; omega
  · show win2_7.index t (1 : Fin 2) * 1 + 1 * (y 1).val = (y 1).val
    rw [h1]; omega

/-- An index of the result is in point `t`'s block iff each coordinate is in the block's range on its axis. -/
theorem mem_rows_block (t : Fin cfg2.N) (i : S400000x1.Idx) :
    i ∈ ((cfg2.win 7).blk t).view.set ↔ ∀ a : Fin 2, win2_7.index t a * S4000x1.size a ≤ (i a).val ∧ (i a).val < win2_7.index t a * S4000x1.size a + S4000x1.size a := by
  show i ∈ ((View.whole main_v55).slice (win2_7.rect t)).set ↔ _
  rw [View.set_slice_whole, Rect.mem_set_unit]
  exact Iff.rfl

/-- Row `r` of the result lies in the block of point `r / 4000`. -/
theorem rows_covered (i : S400000x1.Idx) :
    ∃ t : Fin cfg2.N, (cfg2.win 7).flush t = true ∧ i ∈ ((cfg2.win 7).blk t).view.set := by
  have hN : cfg2.N = 100 := N_2
  have hi0 : (i 0).val < 400000 := (i 0).isLt
  have hi1 : (i 1).val < 1 := (i 1).isLt
  obtain ⟨t, ht⟩ : ∃ t : Fin cfg2.N, t.val = (i 0).val / 4000 := ⟨⟨(i 0).val / 4000, by rw [hN]; omega⟩, rfl⟩
  obtain ⟨-, -, -, -, -, -, -, -, -, -, -, h0, h1⟩ := block_indices t
  refine ⟨t, flush2_7 t, ?_⟩
  rw [mem_rows_block]
  intro a
  match a with
  | ⟨0, _⟩ =>
    show win2_7.index t (0 : Fin 2) * 4000 ≤ (i 0).val ∧ (i 0).val < win2_7.index t (0 : Fin 2) * 4000 + 4000
    rw [h0, ht]; omega
  | ⟨1, _⟩ =>
    show win2_7.index t (1 : Fin 2) * 1 ≤ (i 1).val ∧ (i 1).val < win2_7.index t (1 : Fin 2) * 1 + 1
    rw [h1]; omega

/-- The result array after the region: the edge decoder of the arrays the region finds, as one whole-array function. -/
theorem final2 (c : Dev nD) :
    (dat2 (F := Ideal) V c).arrAt 7 cfg2.N
      = Cert.Spec.dec (V c main_v45) (V c main_v54) (V c main_arg10) (V c main_arg11) (V c main_arg12) (V c main_arg13) (V c main_arg14) :=
  (dat2 V c).arrAt_eq_of_cover 7 (decoded V c) (fun t _ => written_back_eq V c t) rows_covered

end Cert.KernelIdeal.Region2

end
-- ==== Proof.Chain.lean ====
/-
  The host-side pieces of the graph network, as whole-array functions of the argument arrays: the two rows of an
  edge list as index columns (negative entries wrapped by the node count where they index a gather), the neighbour
  sums (rows gathered at the sources, added up at the targets), the in-degree clamped below by one and its
  reciprocal column, the two halves of the decoder's first weight matrix, and the final flattening.
-/
import proofs.«176232_j25872882991658_2_alg».proof.Proof.Gen.KernelIdeal

noncomputable section

namespace Cert.KernelIdeal.Chain

open Cert.KernelIdeal Cert.KernelIdeal.Facts₀ Cert.KernelIdeal.Facts Idealize.ShloMosaic

variable {F : FTy → Type} [FloatOps F]

/-- Row 0 of the edge list (the sources), as a vector. -/
def srcRaw (a : (⟨S2x800000, .i32⟩ : BufTy).Contents (Elt F)) : (⟨S800000, .i32⟩ : BufTy).Contents (Elt F) :=
  shapeCast _ (extractStridedSlice S1x800000 ![0, 0] a slices_S2x800000_S1x800000_0_0) shapeCasts_S1x800000_S800000

/-- Row 1 of the edge list (the targets), as a vector. -/
def dstRaw (a : (⟨S2x800000, .i32⟩ : BufTy).Contents (Elt F)) : (⟨S800000, .i32⟩ : BufTy).Contents (Elt F) :=
  shapeCast _ (extractStridedSlice S1x800000 ![1, 0] a slices_S2x800000_S1x800000_1_0) shapeCasts_S1x800000_S800000

/-- An index vector made a column. -/
def col (v : (⟨S800000, .i32⟩ : BufTy).Contents (Elt F)) : (⟨S800000x1, .i32⟩ : BufTy).Contents (Elt F) :=
  broadcastInDim S800000x1 ![0] bcast_S800000_S800000x1_0 v

/-- An index vector with its negative entries wrapped by the node count, made a column. -/
def wrapCol (v : (⟨S800000, .i32⟩ : BufTy).Contents (Elt F)) : (⟨S800000x1, .i32⟩ : BufTy).Contents (Elt F) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- Neighbour sums of 64-wide rows: the rows of `x` gathered at the sources and added up at the targets. -/
def msg64 (x : (⟨S50000x64, .f32⟩ : BufTy).Contents (Elt F)) (a : (⟨S2x800000, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32)) (col (dstRaw a))
    (Host.gather gather_S50000x64_S800000x1_S800000x64_1_0_n_n_0_1_164 x (wrapCol (srcRaw a)))

/-- Neighbour sums of 128-wide rows. -/
def msg128 (h : (⟨S50000x128, .f32⟩ : BufTy).Contents (Elt F)) (a : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (col (dstRaw a))
    (Host.gather gather_S50000x128_S800000x1_S800000x128_1_0_n_n_0_1_1128 h (wrapCol (srcRaw a)))

/-- The in-degree of every node (ones added up at the targets), clamped below by one. -/
def degMax (a : (⟨S2x800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32)) (col (dstRaw a))
      (broadcastInDim S800000 ![] bcast_S_S800000 (constant S_ .f32 0x3F800000#32)))
    (broadcastInDim S50000 ![] bcast_S_S50000 (constant S_ .f32 0x3F800000#32))

/-- The reciprocal of the clamped degree, as a column. -/
def invDeg (a : (⟨S2x800000, .i32⟩ : BufTy).Contents (Elt F)) : (⟨S50000x1, .f32⟩ : BufTy).Contents (Elt F) :=
  shapeCast _ (Host.divf (broadcastInDim S50000 ![] bcast_S_S50000 (constant S_ .f32 0x3F800000#32)) (degMax a))
    shapeCasts_S50000_S50000x1

/-- Rows 0 … 63 of the decoder's first weight matrix. -/
def wd1a (w : (⟨S128x32, .f32⟩ : BufTy).Contents (Elt F)) : (⟨S64x32, .f32⟩ : BufTy).Contents (Elt F) :=
  extractStridedSlice S64x32 ![0, 0] w slices_S128x32_S64x32_0_0

/-- Rows 64 … 127 of the decoder's first weight matrix. -/
def wd1b (w : (⟨S128x32, .f32⟩ : BufTy).Contents (Elt F)) : (⟨S64x32, .f32⟩ : BufTy).Contents (Elt F) :=
  extractStridedSlice S64x32 ![64, 0] w slices_S128x32_S64x32_64_0

/-- Row 0 of the scored-edge list, as a vector. -/
def lblRaw0 (a : (⟨S2x400000, .i32⟩ : BufTy).Contents (Elt F)) : (⟨S400000, .i32⟩ : BufTy).Contents (Elt F) :=
  shapeCast _ (extractStridedSlice S1x400000 ![0, 0] a slices_S2x400000_S1x400000_0_0) shapeCasts_S1x400000_S400000

/-- Row 1 of the scored-edge list, as a vector. -/
def lblRaw1 (a : (⟨S2x400000, .i32⟩ : BufTy).Contents (Elt F)) : (⟨S400000, .i32⟩ : BufTy).Contents (Elt F) :=
  shapeCast _ (extractStridedSlice S1x400000 ![1, 0] a slices_S2x400000_S1x400000_1_0) shapeCasts_S1x400000_S400000

/-- A scored-edge index vector with its negative entries wrapped by the node count, made a column. -/
def wrapCol4 (v : (⟨S400000, .i32⟩ : BufTy).Contents (Elt F)) : (⟨S400000x1, .i32⟩ : BufTy).Contents (Elt F) :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 50000#32))) v)

/-- The rows of a 32-wide node table gathered at an index column. -/
def gather32 (t : (⟨S50000x32, .f32⟩ : BufTy).Contents (Elt F)) (i : (⟨S400000x1, .i32⟩ : BufTy).Contents (Elt F)) :
    (⟨S400000x32, .f32⟩ : BufTy).Contents (Elt F) :=
  Host.gather gather_S50000x32_S400000x1_S400000x32_1_0_n_n_0_1_132 t i

/-- A one-column matrix flattened to a vector. -/
def flat (o : (⟨S400000x1, .f32⟩ : BufTy).Contents (Elt F)) : (⟨S400000, .f32⟩ : BufTy).Contents (Elt F) :=
  shapeCast _ o shapeCasts_S400000x1_S400000

end Cert.KernelIdeal.Chain

end
-- ==== Proof.HostChain.lean ====
/-
  The host side of the idealized kernel program, read stage by stage. Between the three tiled regions the program
  runs stretches of host operations; here each buffer a region reads, or a later stretch reads, is written as a
  function of the argument arrays and of the earlier regions' outputs: the edge rows, the neighbour sums, the
  inverse degree column, the slices of the decoder's weights, the gathered node projections, and the final
  flattening. An argument array is never written, so at every stage it holds its launch contents.
-/
import proofs.«176232_j25872882991658_2_alg».proof.Proof.Gen.KernelIdeal.Frame
import proofs.«176232_j25872882991658_2_alg».proof.Proof.Chain
import Idealize.ShloMosaic.Lib.StableHlo.Run
import Idealize.ShloMosaic.PureOps.Ideal

set_option maxRecDepth 16384

noncomputable section

namespace Cert.KernelIdeal.HostChain

open Cert.KernelIdeal Cert.KernelIdeal.Gen Cert.KernelIdeal.Facts₀
open Idealize.ShloMosaic Idealize.ShloMosaic.TcCoe Idealize.SL.Sem Idealize.ShloMosaic.StableHlo

/-- Neighbour sums of 128-wide rows from the two raw edge rows: the rows of `h` gathered at the sources (negative
    entries wrapped) and added up at the targets. -/
def msg128v {F : FTy → Type} [FloatOps F] (h : (⟨S50000x128, .f32⟩ : BufTy).Contents (Elt F)) (s d : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] Facts₀.bcast_S_S50000x128 (constant S_ .f32 0x00000000#32)) (Chain.col d)
    (Host.gather gather_S50000x128_S800000x1_S800000x128_1_0_n_n_0_1_1128 h (Chain.wrapCol s))

theorem msg128v_eq (h : (⟨S50000x128, .f32⟩ : BufTy).Contents (Elt Ideal)) (a : (⟨S2x800000, .i32⟩ : BufTy).Contents (Elt Ideal)) :
    msg128v (F := Ideal) h (Chain.srcRaw a) (Chain.dstRaw a) = Chain.msg128 (F := Ideal) h a := rfl

/-- A buffer that no operation of a stretch writes holds after the stretch what it held before. -/
local macro "not_written " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg)

/-! ## After the first stretch: the edge rows, the neighbour sums of `x`, the inverse degree column -/

theorem w1_arg0 (c : Dev nD) : W1 m ρ c (Proc.devRef .tc main_arg0) = m ((c : Thread nD τ).loc main_arg0) :=
  show W1 m ρ c (Proc.devRef .tc main_arg0) = W0 m ρ c (Proc.devRef .tc main_arg0) by not_written hostOps0

theorem w1_arg2 (c : Dev nD) : W1 m ρ c (Proc.devRef .tc main_arg2) = m ((c : Thread nD τ).loc main_arg2) :=
  show W1 m ρ c (Proc.devRef .tc main_arg2) = W0 m ρ c (Proc.devRef .tc main_arg2) by not_written hostOps0

theorem w1_arg3 (c : Dev nD) : W1 m ρ c (Proc.devRef .tc main_arg3) = m ((c : Thread nD τ).loc main_arg3) :=
  show W1 m ρ c (Proc.devRef .tc main_arg3) = W0 m ρ c (Proc.devRef .tc main_arg3) by not_written hostOps0

theorem w1_arg4 (c : Dev nD) : W1 m ρ c (Proc.devRef .tc main_arg4) = m ((c : Thread nD τ).loc main_arg4) :=
  show W1 m ρ c (Proc.devRef .tc main_arg4) = W0 m ρ c (Proc.devRef .tc main_arg4) by not_written hostOps0

theorem w1_arg5 (c : Dev nD) : W1 m ρ c (Proc.devRef .tc main_arg5) = m ((c : Thread nD τ).loc main_arg5) :=
  show W1 m ρ c (Proc.devRef .tc main_arg5) = W0 m ρ c (Proc.devRef .tc main_arg5) by not_written hostOps0

theorem w1_arg6 (c : Dev nD) : W1 m ρ c (Proc.devRef .tc main_arg6) = m ((c : Thread nD τ).loc main_arg6) :=
  show W1 m ρ c (Proc.devRef .tc main_arg6) = W0 m ρ c (Proc.devRef .tc main_arg6) by not_written hostOps0

theorem w1_arg7 (c : Dev nD) : W1 m ρ c (Proc.devRef .tc main_arg7) = m ((c : Thread nD τ).loc main_arg7) :=
  show W1 m ρ c (Proc.devRef .tc main_arg7) = W0 m ρ c (Proc.devRef .tc main_arg7) by not_written hostOps0

theorem w1_arg8 (c : Dev nD) : W1 m ρ c (Proc.devRef .tc main_arg8) = m ((c : Thread nD τ).loc main_arg8) :=
  show W1 m ρ c (Proc.devRef .tc main_arg8) = W0 m ρ c (Proc.devRef .tc main_arg8) by not_written hostOps0

theorem w1_arg9 (c : Dev nD) : W1 m ρ c (Proc.devRef .tc main_arg9) = m ((c : Thread nD τ).loc main_arg9) :=
  show W1 m ρ c (Proc.devRef .tc main_arg9) = W0 m ρ c (Proc.devRef .tc main_arg9) by not_written hostOps0

theorem w1_arg10 (c : Dev nD) : W1 m ρ c (Proc.devRef .tc main_arg10) = m ((c : Thread nD τ).loc main_arg10) :=
  show W1 m ρ c (Proc.devRef .tc main_arg10) = W0 m ρ c (Proc.devRef .tc main_arg10) by not_written hostOps0

theorem w1_arg11 (c : Dev nD) : W1 m ρ c (Proc.devRef .tc main_arg11) = m ((c : Thread nD τ).loc main_arg11) :=
  show W1 m ρ c (Proc.devRef .tc main_arg11) = W0 m ρ c (Proc.devRef .tc main_arg11) by not_written hostOps0

theorem w1_arg12 (c : Dev nD) : W1 m ρ c (Proc.devRef .tc main_arg12) = m ((c : Thread nD τ).loc main_arg12) :=
  show W1 m ρ c (Proc.devRef .tc main_arg12) = W0 m ρ c (Proc.devRef .tc main_arg12) by not_written hostOps0

theorem w1_arg13 (c : Dev nD) : W1 m ρ c (Proc.devRef .tc main_arg13) = m ((c : Thread nD τ).loc main_arg13) :=
  show W1 m ρ c (Proc.devRef .tc main_arg13) = W0 m ρ c (Proc.devRef .tc main_arg13) by not_written hostOps0

theorem w1_arg14 (c : Dev nD) : W1 m ρ c (Proc.devRef .tc main_arg14) = m ((c : Thread nD τ).loc main_arg14) :=
  show W1 m ρ c (Proc.devRef .tc main_arg14) = W0 m ρ c (Proc.devRef .tc main_arg14) by not_written hostOps0

set_option maxHeartbeats 4000000 in
theorem w1_v1 (c : Dev nD) : W1 m ρ c (Proc.devRef .tc main_v1) = Chain.srcRaw (F := Ideal) (m ((c : Thread nD τ).loc main_arg1)) := by
  show StableHlo.after hostOps0 (W0 m ρ c) (Proc.devRef .tc main_v1) = _
  simp only [hostOps0]
  after_results_simp
  rfl

set_option maxHeartbeats 4000000 in
theorem w1_v3 (c : Dev nD) : W1 m ρ c (Proc.devRef .tc main_v3) = Chain.dstRaw (F := Ideal) (m ((c : Thread nD τ).loc main_arg1)) := by
  show StableHlo.after hostOps0 (W0 m ρ c) (Proc.devRef .tc main_v3) = _
  simp only [hostOps0]
  after_results_simp
  rfl

set_option maxHeartbeats 4000000 in
theorem w1_v13 (c : Dev nD) : W1 m ρ c (Proc.devRef .tc main_v13) = Chain.msg64 (F := Ideal) (m ((c : Thread nD τ).loc main_arg0)) (m ((c : Thread nD τ).loc main_arg1)) := by
  show StableHlo.after hostOps0 (W0 m ρ c) (Proc.devRef .tc main_v13) = _
  simp only [hostOps0]
  after_results_simp
  rfl

set_option maxHeartbeats 4000000 in
theorem w1_v22 (c : Dev nD) : W1 m ρ c (Proc.devRef .tc main_v22) = Chain.invDeg (F := Ideal) (m ((c : Thread nD τ).loc main_arg1)) := by
  show StableHlo.after hostOps0 (W0 m ρ c) (Proc.devRef .tc main_v22) = _
  simp only [hostOps0]
  after_results_simp
  rfl

/-! ## At the first region's exit: what it did not write -/

theorem w2_arg2 (c : Dev nD) : W2 m ρ c (Proc.devRef .tc main_arg2) = m ((c : Thread nD τ).loc main_arg2) :=
  (W2_of_ne m ρ c main_arg2 (by decide)).trans (w1_arg2 m ρ c)

theorem w2_arg6 (c : Dev nD) : W2 m ρ c (Proc.devRef .tc main_arg6) = m ((c : Thread nD τ).loc main_arg6) :=
  (W2_of_ne m ρ c main_arg6 (by decide)).trans (w1_arg6 m ρ c)

theorem w2_arg7 (c : Dev nD) : W2 m ρ c (Proc.devRef .tc main_arg7) = m ((c : Thread nD τ).loc main_arg7) :=
  (W2_of_ne m ρ c main_arg7 (by decide)).trans (w1_arg7 m ρ c)

theorem w2_arg8 (c : Dev nD) : W2 m ρ c (Proc.devRef .tc main_arg8) = m ((c : Thread nD τ).loc main_arg8) :=
  (W2_of_ne m ρ c main_arg8 (by decide)).trans (w1_arg8 m ρ c)

theorem w2_arg9 (c : Dev nD) : W2 m ρ c (Proc.devRef .tc main_arg9) = m ((c : Thread nD τ).loc main_arg9) :=
  (W2_of_ne m ρ c main_arg9 (by decide)).trans (w1_arg9 m ρ c)

theorem w2_arg10 (c : Dev nD) : W2 m ρ c (Proc.devRef .tc main_arg10) = m ((c : Thread nD τ).loc main_arg10) :=
  (W2_of_ne m ρ c main_arg10 (by decide)).trans (w1_arg10 m ρ c)

theorem w2_arg11 (c : Dev nD) : W2 m ρ c (Proc.devRef .tc main_arg11) = m ((c : Thread nD τ).loc main_arg11) :=
  (W2_of_ne m ρ c main_arg11 (by decide)).trans (w1_arg11 m ρ c)

theorem w2_arg12 (c : Dev nD) : W2 m ρ c (Proc.devRef .tc main_arg12) = m ((c : Thread nD τ).loc main_arg12) :=
  (W2_of_ne m ρ c main_arg12 (by decide)).trans (w1_arg12 m ρ c)

theorem w2_arg13 (c : Dev nD) : W2 m ρ c (Proc.devRef .tc main_arg13) = m ((c : Thread nD τ).loc main_arg13) :=
  (W2_of_ne m ρ c main_arg13 (by decide)).trans (w1_arg13 m ρ c)

theorem w2_arg14 (c : Dev nD) : W2 m ρ c (Proc.devRef .tc main_arg14) = m ((c : Thread nD τ).loc main_arg14) :=
  (W2_of_ne m ρ c main_arg14 (by decide)).trans (w1_arg14 m ρ c)

theorem w2_v1 (c : Dev nD) : W2 m ρ c (Proc.devRef .tc main_v1) = Chain.srcRaw (F := Ideal) (m ((c : Thread nD τ).loc main_arg1)) :=
  (W2_of_ne m ρ c main_v1 (by decide)).trans (w1_v1 m ρ c)

theorem w2_v3 (c : Dev nD) : W2 m ρ c (Proc.devRef .tc main_v3) = Chain.dstRaw (F := Ideal) (m ((c : Thread nD τ).loc main_arg1)) :=
  (W2_of_ne m ρ c main_v3 (by decide)).trans (w1_v3 m ρ c)

theorem w2_v22 (c : Dev nD) : W2 m ρ c (Proc.devRef .tc main_v22) = Chain.invDeg (F := Ideal) (m ((c : Thread nD τ).loc main_arg1)) :=
  (W2_arr m ρ c 1).trans ((((dat0 (V1 m ρ) c).arrAt_in 1 rfl _).trans (A_eq0 (V1 m ρ) c 1)).trans (w1_v22 m ρ c))

/-! ## After the second stretch: the neighbour sums of the hidden layer, the two halves of the decoder's weights -/

set_option maxHeartbeats 4000000 in
theorem w3_v33 (c : Dev nD) : W3 m ρ c (Proc.devRef .tc main_v33) = msg128v (F := Ideal) (W2 m ρ c (Proc.devRef .tc main_v23)) (W2 m ρ c (Proc.devRef .tc main_v1)) (W2 m ρ c (Proc.devRef .tc main_v3)) := by
  show StableHlo.after hostOps1 (W2 m ρ c) (Proc.devRef .tc main_v33) = _
  simp only [hostOps1]
  after_results_simp
  rfl

set_option maxHeartbeats 4000000 in
theorem w3_v34 (c : Dev nD) : W3 m ρ c (Proc.devRef .tc main_v34) = Chain.wd1a (F := Ideal) (W2 m ρ c (Proc.devRef .tc main_arg9)) := by
  show StableHlo.after hostOps1 (W2 m ρ c) (Proc.devRef .tc main_v34) = _
  simp only [hostOps1]
  after_results_simp
  rfl

set_option maxHeartbeats 4000000 in
theorem w3_v35 (c : Dev nD) : W3 m ρ c (Proc.devRef .tc main_v35) = Chain.wd1b (F := Ideal) (W2 m ρ c (Proc.devRef .tc main_arg9)) := by
  show StableHlo.after hostOps1 (W2 m ρ c) (Proc.devRef .tc main_v35) = _
  simp only [hostOps1]
  after_results_simp
  rfl

theorem w3_arg2 (c : Dev nD) : W3 m ρ c (Proc.devRef .tc main_arg2) = m ((c : Thread nD τ).loc main_arg2) :=
  (show W3 m ρ c (Proc.devRef .tc main_arg2) = W2 m ρ c (Proc.devRef .tc main_arg2) by not_written hostOps1).trans (w2_arg2 m ρ c)

theorem w3_arg6 (c : Dev nD) : W3 m ρ c (Proc.devRef .tc main_arg6) = m ((c : Thread nD τ).loc main_arg6) :=
  (show W3 m ρ c (Proc.devRef .tc main_arg6) = W2 m ρ c (Proc.devRef .tc main_arg6) by not_written hostOps1).trans (w2_arg6 m ρ c)

theorem w3_arg7 (c : Dev nD) : W3 m ρ c (Proc.devRef .tc main_arg7) = m ((c : Thread nD τ).loc main_arg7) :=
  (show W3 m ρ c (Proc.devRef .tc main_arg7) = W2 m ρ c (Proc.devRef .tc main_arg7) by not_written hostOps1).trans (w2_arg7 m ρ c)

theorem w3_arg8 (c : Dev nD) : W3 m ρ c (Proc.devRef .tc main_arg8) = m ((c : Thread nD τ).loc main_arg8) :=
  (show W3 m ρ c (Proc.devRef .tc main_arg8) = W2 m ρ c (Proc.devRef .tc main_arg8) by not_written hostOps1).trans (w2_arg8 m ρ c)

theorem w3_arg10 (c : Dev nD) : W3 m ρ c (Proc.devRef .tc main_arg10) = m ((c : Thread nD τ).loc main_arg10) :=
  (show W3 m ρ c (Proc.devRef .tc main_arg10) = W2 m ρ c (Proc.devRef .tc main_arg10) by not_written hostOps1).trans (w2_arg10 m ρ c)

theorem w3_arg11 (c : Dev nD) : W3 m ρ c (Proc.devRef .tc main_arg11) = m ((c : Thread nD τ).loc main_arg11) :=
  (show W3 m ρ c (Proc.devRef .tc main_arg11) = W2 m ρ c (Proc.devRef .tc main_arg11) by not_written hostOps1).trans (w2_arg11 m ρ c)

theorem w3_arg12 (c : Dev nD) : W3 m ρ c (Proc.devRef .tc main_arg12) = m ((c : Thread nD τ).loc main_arg12) :=
  (show W3 m ρ c (Proc.devRef .tc main_arg12) = W2 m ρ c (Proc.devRef .tc main_arg12) by not_written hostOps1).trans (w2_arg12 m ρ c)

theorem w3_arg13 (c : Dev nD) : W3 m ρ c (Proc.devRef .tc main_arg13) = m ((c : Thread nD τ).loc main_arg13) :=
  (show W3 m ρ c (Proc.devRef .tc main_arg13) = W2 m ρ c (Proc.devRef .tc main_arg13) by not_written hostOps1).trans (w2_arg13 m ρ c)

theorem w3_arg14 (c : Dev nD) : W3 m ρ c (Proc.devRef .tc main_arg14) = m ((c : Thread nD τ).loc main_arg14) :=
  (show W3 m ρ c (Proc.devRef .tc main_arg14) = W2 m ρ c (Proc.devRef .tc main_arg14) by not_written hostOps1).trans (w2_arg14 m ρ c)

theorem w3_v22 (c : Dev nD) : W3 m ρ c (Proc.devRef .tc main_v22) = Chain.invDeg (F := Ideal) (m ((c : Thread nD τ).loc main_arg1)) :=
  (show W3 m ρ c (Proc.devRef .tc main_v22) = W2 m ρ c (Proc.devRef .tc main_v22) by not_written hostOps1).trans (w2_v22 m ρ c)

theorem w3_v23 (c : Dev nD) : W3 m ρ c (Proc.devRef .tc main_v23) = W2 m ρ c (Proc.devRef .tc main_v23) :=
  show W3 m ρ c (Proc.devRef .tc main_v23) = W2 m ρ c (Proc.devRef .tc main_v23) by not_written hostOps1

/-! ## At the second region's exit, and after the third stretch: the gathered projections -/

theorem w4_arg2 (c : Dev nD) : W4 m ρ c (Proc.devRef .tc main_arg2) = m ((c : Thread nD τ).loc main_arg2) :=
  (W4_of_ne m ρ c main_arg2 (by decide)).trans (w3_arg2 m ρ c)

theorem w4_arg10 (c : Dev nD) : W4 m ρ c (Proc.devRef .tc main_arg10) = m ((c : Thread nD τ).loc main_arg10) :=
  (W4_of_ne m ρ c main_arg10 (by decide)).trans (w3_arg10 m ρ c)

theorem w4_arg11 (c : Dev nD) : W4 m ρ c (Proc.devRef .tc main_arg11) = m ((c : Thread nD τ).loc main_arg11) :=
  (W4_of_ne m ρ c main_arg11 (by decide)).trans (w3_arg11 m ρ c)

theorem w4_arg12 (c : Dev nD) : W4 m ρ c (Proc.devRef .tc main_arg12) = m ((c : Thread nD τ).loc main_arg12) :=
  (W4_of_ne m ρ c main_arg12 (by decide)).trans (w3_arg12 m ρ c)

theorem w4_arg13 (c : Dev nD) : W4 m ρ c (Proc.devRef .tc main_arg13) = m ((c : Thread nD τ).loc main_arg13) :=
  (W4_of_ne m ρ c main_arg13 (by decide)).trans (w3_arg13 m ρ c)

theorem w4_arg14 (c : Dev nD) : W4 m ρ c (Proc.devRef .tc main_arg14) = m ((c : Thread nD τ).loc main_arg14) :=
  (W4_of_ne m ρ c main_arg14 (by decide)).trans (w3_arg14 m ρ c)

set_option maxHeartbeats 4000000 in
theorem w5_v45 (c : Dev nD) : W5 m ρ c (Proc.devRef .tc main_v45) = Chain.gather32 (F := Ideal) (W4 m ρ c (Proc.devRef .tc main_v36_0)) (Chain.wrapCol4 (Chain.lblRaw0 (W4 m ρ c (Proc.devRef .tc main_arg2)))) := by
  show StableHlo.after hostOps2 (W4 m ρ c) (Proc.devRef .tc main_v45) = _
  simp only [hostOps2]
  after_results_simp
  rfl

set_option maxHeartbeats 4000000 in
theorem w5_v54 (c : Dev nD) : W5 m ρ c (Proc.devRef .tc main_v54) = Chain.gather32 (F := Ideal) (W4 m ρ c (Proc.devRef .tc main_v36_1)) (Chain.wrapCol4 (Chain.lblRaw1 (W4 m ρ c (Proc.devRef .tc main_arg2)))) := by
  show StableHlo.after hostOps2 (W4 m ρ c) (Proc.devRef .tc main_v54) = _
  simp only [hostOps2]
  after_results_simp
  rfl

theorem w5_arg10 (c : Dev nD) : W5 m ρ c (Proc.devRef .tc main_arg10) = m ((c : Thread nD τ).loc main_arg10) :=
  (show W5 m ρ c (Proc.devRef .tc main_arg10) = W4 m ρ c (Proc.devRef .tc main_arg10) by not_written hostOps2).trans (w4_arg10 m ρ c)

theorem w5_arg11 (c : Dev nD) : W5 m ρ c (Proc.devRef .tc main_arg11) = m ((c : Thread nD τ).loc main_arg11) :=
  (show W5 m ρ c (Proc.devRef .tc main_arg11) = W4 m ρ c (Proc.devRef .tc main_arg11) by not_written hostOps2).trans (w4_arg11 m ρ c)

theorem w5_arg12 (c : Dev nD) : W5 m ρ c (Proc.devRef .tc main_arg12) = m ((c : Thread nD τ).loc main_arg12) :=
  (show W5 m ρ c (Proc.devRef .tc main_arg12) = W4 m ρ c (Proc.devRef .tc main_arg12) by not_written hostOps2).trans (w4_arg12 m ρ c)

theorem w5_arg13 (c : Dev nD) : W5 m ρ c (Proc.devRef .tc main_arg13) = m ((c : Thread nD τ).loc main_arg13) :=
  (show W5 m ρ c (Proc.devRef .tc main_arg13) = W4 m ρ c (Proc.devRef .tc main_arg13) by not_written hostOps2).trans (w4_arg13 m ρ c)

theorem w5_arg14 (c : Dev nD) : W5 m ρ c (Proc.devRef .tc main_arg14) = m ((c : Thread nD τ).loc main_arg14) :=
  (show W5 m ρ c (Proc.devRef .tc main_arg14) = W4 m ρ c (Proc.devRef .tc main_arg14) by not_written hostOps2).trans (w4_arg14 m ρ c)

/-! ## After the last stretch: the scores flattened -/

set_option maxHeartbeats 4000000 in
theorem w7_v56 (c : Dev nD) : W7 m ρ c (Proc.devRef .tc main_v56) = Chain.flat (F := Ideal) (W6 m ρ c (Proc.devRef .tc main_v55)) := by
  show StableHlo.after hostOps3 (W6 m ρ c) (Proc.devRef .tc main_v56) = _
  simp only [hostOps3]
  after_results_simp
  rfl

end Cert.KernelIdeal.HostChain

end
-- ==== Proof.RefRead.lean ====
/-
  The reference network read layer by layer as the whole-array functions of the specification. Each graph-convolution
  layer is: the neighbour sums divided, row by row, by the clamped degree; times the left weights; plus the bias along
  the rows; plus the node features times the right weights (and, for the first layer, the rectifier on top). The edge
  decoder is three dense layers on the joined endpoint features, the first two rectified, and the final column read as
  a vector. The neighbour sums, the degrees and the joined endpoint features enter as given arrays.
-/
import proofs.«176232_j25872882991658_2_alg».proof.Proof.Gen.ReferenceIdeal.Read
import proofs.«176232_j25872882991658_2_alg».proof.Proof.Spec

noncomputable section

namespace Cert.ReferenceIdeal.RefRead

open Cert.ReferenceIdeal Cert.ReferenceIdeal.Facts₀ Cert.ReferenceIdeal.Facts Cert.ReferenceIdeal.Read Idealize.ShloMosaic Idealize.ShloMosaic.ValueIdx

/-- The first layer's mean at `(p, e)`: the neighbour sum divided by the clamped degree of row `p`. -/
theorem mean1_apply (x0 : (⟨S50000x64, .f32⟩ : BufTy).Contents (Elt Ideal)) (x1 : (⟨S2x800000, .i32⟩ : BufTy).Contents (Elt Ideal)) (p : Fin 50000) (e : Fin 64) :
    val_main_v22 (F := Ideal) x0 x1 (ix2 p e)
      = Ideal.div (val_main_v13 (F := Ideal) x0 x1 (ix2 p e)) (val_main_v19 (F := Ideal) x1 (ix1 p)) := by
  rw [val_main_v22_apply, val_main_v21_apply, val_main_v20_apply]
  have e1 : idx_main_v20 (idx_main_v21 (ix2 p e)) = ix1 p :=
    funext fun a => Fin.ext (by match a with | ⟨0, _⟩ => rfl)
  rw [e1]
  rfl

/-- The first layer: the rectified combination of the row means of the neighbour sums of the input features and the input features themselves. -/
theorem h_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) :
    val_main_v29 (F := Ideal) x0 x1 x3 x4 x5
      = Cert.Spec.relu (Cert.Spec.combineRef (val_main_v13 (F := Ideal) x0 x1) (val_main_v19 (F := Ideal) x1) x0 x3 x4 x5) := by
  funext i
  obtain ⟨p, q, rfl⟩ : ∃ (p : Fin 50000) (q : Fin 128), i = ix2 p q := ⟨i 0, i 1, eq_ix2 i⟩
  rw [val_main_v29_apply, val_main_v28_apply, val_main_v26_apply, val_main_v23_apply, val_main_v27_apply, val_main_v25_apply, val_main_v24_apply, val_main_call0_v0_apply, val_main_call0_cst_apply]
  have el : ∀ k : Fin 64, lidx_main_v23 (ix2 p q) k = ix2 p k := fun k =>
    funext fun a => Fin.ext (by match a with | ⟨0, _⟩ => rfl | ⟨1, _⟩ => rfl)
  have er : ∀ k : Fin 64, ridx_main_v23 (ix2 p q) k = ix2 k q := fun k =>
    funext fun a => Fin.ext (by match a with | ⟨0, _⟩ => rfl | ⟨1, _⟩ => rfl)
  have el' : ∀ k : Fin 64, lidx_main_v27 (ix2 p q) k = ix2 p k := fun k =>
    funext fun a => Fin.ext (by match a with | ⟨0, _⟩ => rfl | ⟨1, _⟩ => rfl)
  have er' : ∀ k : Fin 64, ridx_main_v27 (ix2 p q) k = ix2 k q := fun k =>
    funext fun a => Fin.ext (by match a with | ⟨0, _⟩ => rfl | ⟨1, _⟩ => rfl)
  have eb : idx_main_v24 (idx_main_v25 (ix2 p q)) = ix1 q :=
    funext fun a => Fin.ext (by match a with | ⟨0, _⟩ => rfl)
  simp only [el, er, el', er', eb, mean1_apply]
  rfl

/-- The second layer's mean at `(p, e)`: the neighbour sum divided by the clamped degree of row `p`. -/
theorem mean2_apply (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (p : Fin 50000) (e : Fin 128) :
    val_main_v52 (F := Ideal) x0 x1 x3 x4 x5 (ix2 p e)
      = Ideal.div (val_main_v43 (F := Ideal) x0 x1 x3 x4 x5 (ix2 p e)) (val_main_v49 (F := Ideal) x1 (ix1 p)) := by
  rw [val_main_v52_apply, val_main_v51_apply, val_main_v50_apply]
  have e1 : idx_main_v50 (idx_main_v51 (ix2 p e)) = ix1 p :=
    funext fun a => Fin.ext (by match a with | ⟨0, _⟩ => rfl)
  rw [e1]
  rfl

/-- The second layer: the combination of the row means of the neighbour sums of the hidden features and the hidden features themselves. -/
theorem z_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S128x64, .f32⟩ : BufTy).Contents (Elt Ideal)) (x7 : (⟨S64, .f32⟩ : BufTy).Contents (Elt Ideal)) (x8 : (⟨S128x64, .f32⟩ : BufTy).Contents (Elt Ideal)) :
    val_main_v58 (F := Ideal) x0 x1 x3 x4 x5 x6 x7 x8
      = Cert.Spec.combineRef (val_main_v43 (F := Ideal) x0 x1 x3 x4 x5) (val_main_v49 (F := Ideal) x1) (val_main_v29 (F := Ideal) x0 x1 x3 x4 x5) x6 x7 x8 := by
  funext i
  obtain ⟨p, q, rfl⟩ : ∃ (p : Fin 50000) (q : Fin 64), i = ix2 p q := ⟨i 0, i 1, eq_ix2 i⟩
  rw [val_main_v58_apply, val_main_v56_apply, val_main_v53_apply, val_main_v57_apply, val_main_v55_apply, val_main_v54_apply]
  have el : ∀ k : Fin 128, lidx_main_v53 (ix2 p q) k = ix2 p k := fun k =>
    funext fun a => Fin.ext (by match a with | ⟨0, _⟩ => rfl | ⟨1, _⟩ => rfl)
  have er : ∀ k : Fin 128, ridx_main_v53 (ix2 p q) k = ix2 k q := fun k =>
    funext fun a => Fin.ext (by match a with | ⟨0, _⟩ => rfl | ⟨1, _⟩ => rfl)
  have el' : ∀ k : Fin 128, lidx_main_v57 (ix2 p q) k = ix2 p k := fun k =>
    funext fun a => Fin.ext (by match a with | ⟨0, _⟩ => rfl | ⟨1, _⟩ => rfl)
  have er' : ∀ k : Fin 128, ridx_main_v57 (ix2 p q) k = ix2 k q := fun k =>
    funext fun a => Fin.ext (by match a with | ⟨0, _⟩ => rfl | ⟨1, _⟩ => rfl)
  have eb : idx_main_v54 (idx_main_v55 (ix2 p q)) = ix1 q :=
    funext fun a => Fin.ext (by match a with | ⟨0, _⟩ => rfl)
  simp only [el, er, el', er', eb, mean2_apply]
  rfl

/-- The decoder's first dense layer, rectified, on the joined endpoint features. -/
theorem dec1_eq (x0 : (⟨S50000x64, .f32⟩ : BufTy).Contents (Elt Ideal)) (x1 : (⟨S2x800000, .i32⟩ : BufTy).Contents (Elt Ideal)) (x2 : (⟨S2x400000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S128x64, .f32⟩ : BufTy).Contents (Elt Ideal)) (x7 : (⟨S64, .f32⟩ : BufTy).Contents (Elt Ideal)) (x8 : (⟨S128x64, .f32⟩ : BufTy).Contents (Elt Ideal)) (x9 : (⟨S128x32, .f32⟩ : BufTy).Contents (Elt Ideal)) (x10 : (⟨S32, .f32⟩ : BufTy).Contents (Elt Ideal)) :
    val_main_v82 (F := Ideal) x0 x1 x2 x3 x4 x5 x6 x7 x8 x9 x10
      = Cert.Spec.relu (Cert.Spec.affine (val_main_v77 (F := Ideal) x0 x1 x2 x3 x4 x5 x6 x7 x8) x9 x10) := by
  funext i
  obtain ⟨p, q, rfl⟩ : ∃ (p : Fin 400000) (q : Fin 32), i = ix2 p q := ⟨i 0, i 1, eq_ix2 i⟩
  rw [val_main_v82_apply, val_main_v81_apply, val_main_v78_apply, val_main_v80_apply, val_main_v79_apply, val_main_call1_v0_apply, val_main_call1_cst_apply]
  have el : ∀ k : Fin 128, lidx_main_v78 (ix2 p q) k = ix2 p k := fun k =>
    funext fun a => Fin.ext (by match a with | ⟨0, _⟩ => rfl | ⟨1, _⟩ => rfl)
  have er : ∀ k : Fin 128, ridx_main_v78 (ix2 p q) k = ix2 k q := fun k =>
    funext fun a => Fin.ext (by match a with | ⟨0, _⟩ => rfl | ⟨1, _⟩ => rfl)
  have eb : idx_main_v79 (idx_main_v80 (ix2 p q)) = ix1 q :=
    funext fun a => Fin.ext (by match a with | ⟨0, _⟩ => rfl)
  simp only [el, er, eb]
  rfl

/-- The decoder's second dense layer, rectified. -/
theorem dec2_eq (x0 : (⟨S50000x64, .f32⟩ : BufTy).Contents (Elt Ideal)) (x1 : (⟨S2x800000, .i32⟩ : BufTy).Contents (Elt Ideal)) (x2 : (⟨S2x400000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S128x64, .f32⟩ : BufTy).Contents (Elt Ideal)) (x7 : (⟨S64, .f32⟩ : BufTy).Contents (Elt Ideal)) (x8 : (⟨S128x64, .f32⟩ : BufTy).Contents (Elt Ideal)) (x9 : (⟨S128x32, .f32⟩ : BufTy).Contents (Elt Ideal)) (x10 : (⟨S32, .f32⟩ : BufTy).Contents (Elt Ideal)) (x11 : (⟨S32x16, .f32⟩ : BufTy).Contents (Elt Ideal)) (x12 : (⟨S16, .f32⟩ : BufTy).Contents (Elt Ideal)) :
    val_main_v87 (F := Ideal) x0 x1 x2 x3 x4 x5 x6 x7 x8 x9 x10 x11 x12
      = Cert.Spec.relu (Cert.Spec.affine (val_main_v82 (F := Ideal) x0 x1 x2 x3 x4 x5 x6 x7 x8 x9 x10) x11 x12) := by
  funext i
  obtain ⟨p, q, rfl⟩ : ∃ (p : Fin 400000) (q : Fin 16), i = ix2 p q := ⟨i 0, i 1, eq_ix2 i⟩
  rw [val_main_v87_apply, val_main_v86_apply, val_main_v83_apply, val_main_v85_apply, val_main_v84_apply, val_main_call2_v0_apply, val_main_call2_cst_apply]
  have el : ∀ k : Fin 32, lidx_main_v83 (ix2 p q) k = ix2 p k := fun k =>
    funext fun a => Fin.ext (by match a with | ⟨0, _⟩ => rfl | ⟨1, _⟩ => rfl)
  have er : ∀ k : Fin 32, ridx_main_v83 (ix2 p q) k = ix2 k q := fun k =>
    funext fun a => Fin.ext (by match a with | ⟨0, _⟩ => rfl | ⟨1, _⟩ => rfl)
  have eb : idx_main_v84 (idx_main_v85 (ix2 p q)) = ix1 q :=
    funext fun a => Fin.ext (by match a with | ⟨0, _⟩ => rfl)
  simp only [el, er, eb]
  rfl

/-- The decoder's last dense layer, a single output column. -/
theorem dec3_eq (x0 : (⟨S50000x64, .f32⟩ : BufTy).Contents (Elt Ideal)) (x1 : (⟨S2x800000, .i32⟩ : BufTy).Contents (Elt Ideal)) (x2 : (⟨S2x400000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S128x64, .f32⟩ : BufTy).Contents (Elt Ideal)) (x7 : (⟨S64, .f32⟩ : BufTy).Contents (Elt Ideal)) (x8 : (⟨S128x64, .f32⟩ : BufTy).Contents (Elt Ideal)) (x9 : (⟨S128x32, .f32⟩ : BufTy).Contents (Elt Ideal)) (x10 : (⟨S32, .f32⟩ : BufTy).Contents (Elt Ideal)) (x11 : (⟨S32x16, .f32⟩ : BufTy).Contents (Elt Ideal)) (x12 : (⟨S16, .f32⟩ : BufTy).Contents (Elt Ideal)) (x13 : (⟨S16x1, .f32⟩ : BufTy).Contents (Elt Ideal)) (x14 : (⟨S1, .f32⟩ : BufTy).Contents (Elt Ideal)) :
    val_main_v91 (F := Ideal) x0 x1 x2 x3 x4 x5 x6 x7 x8 x9 x10 x11 x12 x13 x14
      = Cert.Spec.affine (val_main_v87 (F := Ideal) x0 x1 x2 x3 x4 x5 x6 x7 x8 x9 x10 x11 x12) x13 x14 := by
  funext i
  obtain ⟨p, q, rfl⟩ : ∃ (p : Fin 400000) (q : Fin 1), i = ix2 p q := ⟨i 0, i 1, eq_ix2 i⟩
  rw [val_main_v91_apply, val_main_v88_apply, val_main_v90_apply, val_main_v89_apply]
  have el : ∀ k : Fin 16, lidx_main_v88 (ix2 p q) k = ix2 p k := fun k =>
    funext fun a => Fin.ext (by match a with | ⟨0, _⟩ => rfl | ⟨1, _⟩ => rfl)
  have er : ∀ k : Fin 16, ridx_main_v88 (ix2 p q) k = ix2 k q := fun k =>
    funext fun a => Fin.ext (by match a with | ⟨0, _⟩ => rfl | ⟨1, _⟩ => rfl)
  have eb : idx_main_v89 (idx_main_v90 (ix2 p q)) = ix1 q :=
    funext fun a => Fin.ext (by match a with | ⟨0, _⟩ => exact (Nat.lt_one_iff.mp q.isLt).symm)
  simp only [el, er, eb]
  rfl

/-- The output: the three dense layers of the decoder on the joined endpoint features, the single column read as a vector. -/
theorem out_eq (x0 : (⟨S50000x64, .f32⟩ : BufTy).Contents (Elt Ideal)) (x1 : (⟨S2x800000, .i32⟩ : BufTy).Contents (Elt Ideal)) (x2 : (⟨S2x400000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S128x64, .f32⟩ : BufTy).Contents (Elt Ideal)) (x7 : (⟨S64, .f32⟩ : BufTy).Contents (Elt Ideal)) (x8 : (⟨S128x64, .f32⟩ : BufTy).Contents (Elt Ideal)) (x9 : (⟨S128x32, .f32⟩ : BufTy).Contents (Elt Ideal)) (x10 : (⟨S32, .f32⟩ : BufTy).Contents (Elt Ideal)) (x11 : (⟨S32x16, .f32⟩ : BufTy).Contents (Elt Ideal)) (x12 : (⟨S16, .f32⟩ : BufTy).Contents (Elt Ideal)) (x13 : (⟨S16x1, .f32⟩ : BufTy).Contents (Elt Ideal)) (x14 : (⟨S1, .f32⟩ : BufTy).Contents (Elt Ideal)) :
    val_main_v92 (F := Ideal) x0 x1 x2 x3 x4 x5 x6 x7 x8 x9 x10 x11 x12 x13 x14
      = shapeCast S400000 (Cert.Spec.affine (Cert.Spec.relu (Cert.Spec.affine (Cert.Spec.relu (Cert.Spec.affine (val_main_v77 (F := Ideal) x0 x1 x2 x3 x4 x5 x6 x7 x8) x9 x10)) x11 x12)) x13 x14) shapeCasts_S400000x1_S400000 := by
  unfold val_main_v92
  rw [dec3_eq, dec2_eq, dec1_eq]

end Cert.ReferenceIdeal.RefRead

end
-- ==== Proof.LibScaledSum.lean ====
/-
  Sums on the extended reals scaled by a nonnegative finite factor.

  The extended reals are not a semiring: `x * (y + z) = x * y + x * z` fails when `y` and `z` are infinities of
  opposite sign and `x` is negative or infinite. For `0 ≤ x < ⊤` it holds, and so such a factor moves across any
  finite sum. This is the one law a graph convolution needs when the normalisation by the target node's degree is
  applied once per node, after the sum over the incoming edges, instead of once per edge.
-/
import Mathlib.Data.EReal.Inv
import Mathlib.Algebra.BigOperators.Group.Finset.Basic

open scoped BigOperators

namespace EdgeSum

/-- A nonnegative finite factor distributes over a finite sum of extended reals. -/
theorem mul_sum_of_nonneg_of_ne_top {υ : Type*} (S : Finset υ) (f : υ → EReal) {x : EReal} (h0 : 0 ≤ x) (ht : x ≠ ⊤) :
    x * ∑ u ∈ S, f u = ∑ u ∈ S, x * f u := by
  classical
  induction S using Finset.induction_on with
  | empty => simp
  | insert a s ha ih => rw [Finset.sum_insert ha, Finset.sum_insert ha, EReal.left_distrib_of_nonneg_of_ne_top h0 ht, ih]

/-- THE EDGE LAW. Over a set `S` of edges, let edge `u` carry the message `a u`, the weight `b u` of its source and the
    weight `c u` of its target. If every edge of `S` has the same target weight `x` (they all enter one node) and `x` is
    nonnegative and finite, then scaling the sum of the source-weighted messages by `x` once is the sum of the
    messages each weighted by `b u * c u`. Both sums start from the same `z` with `x * z = z` (zero). -/
theorem scale_once_eq_scale_each {υ : Type*} (S : Finset υ) (a b c : υ → EReal) {x z : EReal} (h0 : 0 ≤ x) (ht : x ≠ ⊤)
    (hz : z = 0) (hc : ∀ u ∈ S, c u = x) :
    x * (z + ∑ u ∈ S, a u * b u) = z + ∑ u ∈ S, a u * (b u * c u) := by
  subst hz
  rw [zero_add, zero_add, mul_sum_of_nonneg_of_ne_top S _ h0 ht]
  refine Finset.sum_congr rfl fun u hu => ?_
  rw [hc u hu, mul_comm x, mul_assoc]

end EdgeSum
-- ==== Proof.Algebra.lean ====
/-
  The one algebraic law of the graph convolution: scaling the product `M · Wl` row by row by the reciprocal of the
  degree, after the sum over the contracted index, is the product of the rows of `M` divided by the degree with `Wl`.

  On the extended reals a factor does not distribute over a sum in general; a nonnegative finite factor does, and
  the reciprocal of a real degree at least one is such a factor. The entries of `M` and `Wl` may be any extended
  reals, infinities included.
-/
import proofs.«176232_j25872882991658_2_alg».proof.Proof.Spec
import proofs.«176232_j25872882991658_2_alg».proof.Proof.LibScaledSum
import Mathlib.Data.EReal.Inv
import Mathlib.Data.EReal.Operations

open scoped BigOperators

noncomputable section

namespace Cert.Spec

open Idealize.ShloMosaic Idealize.ShloMosaic.ValueIdx

/-- For a nonnegative finite `c`: `(∑ e, a e * b e) * c = ∑ e, (a e * c) * b e`. -/
theorem sum_mul_scale {k : ℕ} (a b : Fin k → EReal) {c : EReal} (h0 : 0 ≤ c) (ht : c ≠ ⊤) :
    (∑ e : Fin k, a e * b e) * c = ∑ e : Fin k, (a e * c) * b e := by
  rw [mul_comm, EdgeSum.mul_sum_of_nonneg_of_ne_top Finset.univ _ h0 ht]
  refine Finset.sum_congr rfl fun e _ => ?_
  rw [mul_comm c, mul_right_comm]

/-- The reciprocal of a real number at least one, as an extended real, is nonnegative and finite. -/
theorem inv_real_nonneg_ne_top {r : ℝ} (hr : 1 ≤ r) :
    (0 : EReal) ≤ ((1 / r : ℝ) : EReal) ∧ ((1 / r : ℝ) : EReal) ≠ ⊤ := by
  refine ⟨?_, EReal.coe_ne_top _⟩
  have h : (0 : ℝ) ≤ 1 / r := by positivity
  exact_mod_cast h

/-- THE LAW. If the column `I` holds the reciprocals of the degrees `Dg`, each a real number at least one, the layer
    scaled after the product is the layer with the rows of `M` divided by the degree before the product. -/
theorem combine_eq_combineRef {n k d : ℕ} (M : A2 n k) (I : A2 n 1) (Dg : A1 n) (X : A2 n k) (Wl : A2 k d) (bl : A1 d)
    (Wr : A2 k d)
    (hI : ∀ p : Fin n, I (ix2 p (0 : Fin 1)) = Ideal.div 1 (Dg (ix1 p)))
    (hD : ∀ p : Fin n, ∃ r : ℝ, 1 ≤ r ∧ Dg (ix1 p) = (r : EReal)) :
    combine M I X Wl bl Wr = combineRef M Dg X Wl bl Wr := by
  funext i
  obtain ⟨r, hr1, hr⟩ := hD (i 0)
  have hr0 : r ≠ 0 := by
    intro h
    rw [h] at hr1
    norm_num at hr1
  obtain ⟨h0, ht⟩ := inv_real_nonneg_ne_top hr1
  have key : proj M Wl i * I (ix2 (i 0) (0 : Fin 1))
      = ∑ e : Fin k, Ideal.div (M (ix2 (i 0) e)) (Dg (ix1 (i 0))) * Wl (ix2 e (i 1)) := by
    rw [hI (i 0), hr, Ideal.div_coe hr0, one_mul]
    refine (sum_mul_scale (fun e => M (ix2 (i 0) e)) (fun e => Wl (ix2 e (i 1))) h0 ht).trans ?_
    refine Finset.sum_congr rfl fun e _ => ?_
    rw [Ideal.div_coe hr0]
  show (proj M Wl i * I (ix2 (i 0) (0 : Fin 1)) + bl (ix1 (i 1))) + proj X Wr i
      = ((∑ e : Fin k, Ideal.div (M (ix2 (i 0) e)) (Dg (ix1 (i 0))) * Wl (ix2 e (i 1))) + bl (ix1 (i 1))) + proj X Wr i
  rw [key]

end Cert.Spec

end
-- ==== Proof.LibScatterRows.lean ====
/-
  The accumulating scatter of rows, read at an element.

  An operand `[N, D]` receives `E` update rows `[E, D]`; row `e` is added onto the operand row whose number is the
  entry `(e, 0)` of an index column `[E, 1]`, read as a signed integer (a row whose index is negative or at least `N`
  is dropped). Over the extended reals the additions commute, so the element `(v, c)` of the result is the operand's
  element plus the sum, over the rows `e` whose index is `v`, of the update's element `(e, c)`. The same holds for
  a vector `[E]` of updates added onto a vector `[N]`.
-/
import Idealize.ShloMosaic.PureOps.Ideal
import Idealize.ShloMosaic.Lib.ValueIdx

noncomputable section

namespace Cert.ScatterRows

open Idealize.ShloMosaic Idealize.ShloMosaic.ValueIdx

/-! ## Rows `[E, D]` onto `[N, D]` -/

/-- The dimension numbers of a scatter of update rows `[E, D]` onto an operand `[N, D]` by an index column `[E, 1]`:
    the updates' axis 1 is the window axis, the operand's axis 0 is the scattered one, the index vector lies on the
    indices' axis 1. -/
abbrev rowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)

/-- The window of update element `(e, c)` starts, on the operand's row axis, at the index `(e, 0)` read signed. -/
theorem rows_start_zero (j : (⟨2, ![E, D]⟩ : Shape).Idx) (idx : IVec ⟨2, ![E, 1]⟩ w) :
    (rowsDims N D E wf).start j idx 0 = (idx (ix2 (j 0) (0 : Fin 1))).toInt := by
  unfold ScatterDims.start
  rw [dif_pos (show (0 : Fin 2) ∈ (rowsDims N D E wf).scatterDimsToOperandDims from List.mem_singleton.mpr rfl)]
  have hsi : (rowsDims N D E wf).siIdx j ⟨List.idxOf (0 : Fin 2) (rowsDims N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and at `0` on the operand's column axis, which the index column does not name. -/
theorem rows_start_one (j : (⟨2, ![E, D]⟩ : Shape).Idx) (idx : IVec ⟨2, ![E, 1]⟩ w) :
    (rowsDims N D E wf).start j idx 1 = 0 := by
  unfold ScatterDims.start
  rw [dif_neg (show ¬ (1 : Fin 2) ∈ (rowsDims N D E wf).scatterDimsToOperandDims from
    (show (1 : Fin 2) ∉ ([0] : List (Fin 2)) by decide))]

/-- The window coordinate of update element `(e, c)` is `0` on the row axis … -/
theorem rows_window_zero (j : (⟨2, ![E, D]⟩ : Shape).Idx) : (rowsDims N D E wf).window j 0 = 0 := by
  unfold ScatterDims.window
  rw [dif_neg (show ¬ (0 : Fin 2) ∈ (rowsDims N D E wf).sKept from
    (show (0 : Fin 2) ∉ (List.finRange 2).filter (fun a => a ∉ ([0] : List (Fin 2))) by decide))]

/-- … and `c` on the column axis. -/
theorem rows_window_one (j : (⟨2, ![E, D]⟩ : Shape).Idx) : (rowsDims N D E wf).window j 1 = (j 1).val := by
  unfold ScatterDims.window
  rw [dif_pos (show (1 : Fin 2) ∈ (rowsDims N D E wf).sKept from
    (show (1 : Fin 2) ∈ (List.finRange 2).filter (fun a => a ∉ ([0] : List (Fin 2))) by decide))]
  rfl

/-- WHERE AN UPDATE ELEMENT LANDS: element `(e, c)` of the updates lands on element `(v, c')` of the operand exactly
    when the index `(e, 0)`, read signed, is `v` and `c = c'`. -/
theorem rows_resultIdx?_eq_some_iff (j : (⟨2, ![E, D]⟩ : Shape).Idx) (idx : IVec ⟨2, ![E, 1]⟩ w)
    (i : (⟨2, ![N, D]⟩ : Shape).Idx) :
    (rowsDims N D E wf).resultIdx? j idx = some i ↔
      (idx (ix2 (j 0) (0 : Fin 1))).toInt = ((i 0).val : Int) ∧ (j 1).val = (i 1).val := by
  unfold ScatterDims.resultIdx?
  have h0 := rows_start_zero wf j idx
  have h1 := rows_start_one wf j idx
  have w0 := rows_window_zero wf j
  have w1 := rows_window_one wf j
  have hi0 : (i 0).val < N := idx2_lt0 i
  have hi1 : (i 1).val < D := idx2_lt1 i
  split
  · rename_i h
    rw [Option.some.injEq]
    constructor
    · intro hE
      have e0 := congrArg (fun k => (k 0).val) hE
      have e1 := congrArg (fun k => (k 1).val) hE
      simp only [h0, h1, w0, w1] at e0 e1
      have g0 := (h 0).1
      rw [h0, w0] at g0
      constructor <;> omega
    · rintro ⟨e0, e1⟩
      funext a; refine Fin.ext ?_
      match a with
      | ⟨0, _⟩ => show ((rowsDims N D E wf).start j idx 0 + ((rowsDims N D E wf).window j 0 : Int)).toNat = (i 0).val; rw [h0, w0]; omega
      | ⟨1, _⟩ => show ((rowsDims N D E wf).start j idx 1 + ((rowsDims N D E wf).window j 1 : Int)).toNat = (i 1).val; rw [h1, w1]; omega
  · rename_i h
    constructor
    · intro hE; exact absurd hE (by simp)
    · rintro ⟨e0, e1⟩
      exfalso; apply h
      intro a
      match a with
      | ⟨0, _⟩ =>
        show 0 ≤ (rowsDims N D E wf).start j idx 0 + ((rowsDims N D E wf).window j 0 : Int) ∧ (rowsDims N D E wf).start j idx 0 + ((rowsDims N D E wf).window j 0 : Int) < (N : Int)
        rw [h0, w0]; omega
      | ⟨1, _⟩ =>
        show 0 ≤ (rowsDims N D E wf).start j idx 1 + ((rowsDims N D E wf).window j 1 : Int) ∧ (rowsDims N D E wf).start j idx 1 + ((rowsDims N D E wf).window j 1 : Int) < (D : Int)
        rw [h1, w1]; omega

/-- THE SCATTER OF ROWS READ AT `(v, c)`: the operand there plus the sum, over the rows `e` whose index `(e, 0)` read
    signed is `v`, of the update at `(e, c)`. -/
theorem hostScatterAdd_rows_apply (x : (⟨2, ![N, D]⟩ : Shape).Idx → EReal) (idx : IVec ⟨2, ![E, 1]⟩ w)
    (upd : (⟨2, ![E, D]⟩ : Shape).Idx → EReal) (v : Fin N) (c : Fin D) :
    Ideal.hostScatterAdd (rowsDims N D E wf) x idx upd (ix2 v c)
      = x (ix2 v c) + ∑ e : Fin E, if (idx (ix2 e (0 : Fin 1))).toInt = (v.val : Int) then upd (ix2 e c) else 0 := by
  unfold Ideal.hostScatterAdd
  congr 1
  rw [Finset.sum_filter, sum_idx2]
  refine Finset.sum_congr rfl fun e _ => ?_
  have hiff : ∀ c' : Fin D, ((rowsDims N D E wf).resultIdx? (ix2 e c') idx = some (ix2 v c)) ↔
      ((idx (ix2 e (0 : Fin 1))).toInt = (v.val : Int) ∧ c' = c) := by
    intro c'
    rw [rows_resultIdx?_eq_some_iff]
    exact and_congr Iff.rfl Fin.val_inj
  simp only [hiff]
  by_cases hv : (idx (ix2 e (0 : Fin 1))).toInt = (v.val : Int)
  · simp only [hv, true_and, if_true]
    rw [Finset.sum_ite_eq' Finset.univ c (fun c' => upd (ix2 e c'))]
    simp
  · simp only [hv, false_and, if_false]
    exact Finset.sum_const_zero

/-- The same for the program's operation `Host.scatterAdd`, which at the ideal values is that exact sum. -/
theorem scatterAdd_rows_apply {φ : FTy} (x : (⟨2, ![N, D]⟩ : Shape).Idx → EReal) (idx : IVec ⟨2, ![E, 1]⟩ w)
    (upd : (⟨2, ![E, D]⟩ : Shape).Idx → EReal) (v : Fin N) (c : Fin D) :
    Host.scatterAdd (F := Ideal) (φ := φ) (rowsDims N D E wf) x idx upd (ix2 v c)
      = x (ix2 v c) + ∑ e : Fin E, if (idx (ix2 e (0 : Fin 1))).toInt = (v.val : Int) then upd (ix2 e c) else 0 :=
  hostScatterAdd_rows_apply wf x idx upd v c

end Rows

/-! ## A vector `[E]` onto `[N]` -/

/-- The dimension numbers of a scatter of update entries `[E]` onto an operand `[N]` by an index column `[E, 1]`: no
    window axis, the operand's only axis is the scattered one, the index vector lies on the indices' axis 1. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

/-- The window of update entry `e` starts at the index `(e, 0)` read signed. -/
theorem vec_start_zero (j : (⟨1, ![E]⟩ : Shape).Idx) (idx : IVec ⟨2, ![E, 1]⟩ w) :
    (vecDims N E wf).start j idx 0 = (idx (ix2 (j 0) (0 : Fin 1))).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- Its window coordinate is `0`: the operand's axis is an inserted one. -/
theorem vec_window_zero (j : (⟨1, ![E]⟩ : Shape).Idx) : (vecDims N E wf).window j 0 = 0 := by
  unfold ScatterDims.window
  rw [dif_neg (show ¬ (0 : Fin 1) ∈ (vecDims N E wf).sKept from
    (show (0 : Fin 1) ∉ (List.finRange 1).filter (fun a => a ∉ ([0] : List (Fin 1))) by decide))]

/-- WHERE AN UPDATE ENTRY LANDS: entry `e` lands on entry `v` of the operand exactly when the index `(e, 0)`, read
    signed, is `v`. -/
theorem vec_resultIdx?_eq_some_iff (j : (⟨1, ![E]⟩ : Shape).Idx) (idx : IVec ⟨2, ![E, 1]⟩ w)
    (i : (⟨1, ![N]⟩ : Shape).Idx) :
    (vecDims N E wf).resultIdx? j idx = some i ↔ (idx (ix2 (j 0) (0 : Fin 1))).toInt = ((i 0).val : Int) := by
  unfold ScatterDims.resultIdx?
  have h0 := vec_start_zero wf j idx
  have w0 := vec_window_zero wf j
  have hi0 : (i 0).val < N := (i 0).isLt
  split
  · rename_i h
    rw [Option.some.injEq]
    constructor
    · intro hE
      have e0 := congrArg (fun k => (k 0).val) hE
      simp only [h0, w0] at e0
      have g0 := (h 0).1
      rw [h0, w0] at g0
      omega
    · intro e0
      funext a; refine Fin.ext ?_
      match a with
      | ⟨0, _⟩ => show ((vecDims N E wf).start j idx 0 + ((vecDims N E wf).window j 0 : Int)).toNat = (i 0).val; rw [h0, w0]; omega
  · rename_i h
    constructor
    · intro hE; exact absurd hE (by simp)
    · intro e0
      exfalso; apply h
      intro a
      match a with
      | ⟨0, _⟩ =>
        show 0 ≤ (vecDims N E wf).start j idx 0 + ((vecDims N E wf).window j 0 : Int) ∧ (vecDims N E wf).start j idx 0 + ((vecDims N E wf).window j 0 : Int) < (N : Int)
        rw [h0, w0]; omega

/-- THE SCATTER OF A VECTOR READ AT `v`: the operand there plus the sum, over the entries `e` whose index `(e, 0)`
    read signed is `v`, of the update at `e`. -/
theorem hostScatterAdd_vec_apply (x : (⟨1, ![N]⟩ : Shape).Idx → EReal) (idx : IVec ⟨2, ![E, 1]⟩ w)
    (upd : (⟨1, ![E]⟩ : Shape).Idx → EReal) (v : Fin N) :
    Ideal.hostScatterAdd (vecDims N E wf) x idx upd (ix1 v)
      = x (ix1 v) + ∑ e : Fin E, if (idx (ix2 e (0 : Fin 1))).toInt = (v.val : Int) then upd (ix1 e) else 0 := by
  unfold Ideal.hostScatterAdd
  congr 1
  rw [Finset.sum_filter]
  have hsum : ∀ f : (⟨1, ![E]⟩ : Shape).Idx → EReal, ∑ j, f j = ∑ e : Fin E, f (ix1 e) := by
    intro f
    refine (Fintype.sum_equiv ⟨fun e : Fin E => (ix1 e : (⟨1, ![E]⟩ : Shape).Idx), fun j => j 0, fun _ => rfl,
      fun j => (eq_ix1 j).symm⟩ _ _ (fun _ => rfl)).symm
  rw [hsum]
  refine Finset.sum_congr rfl fun e _ => ?_
  have hiff : ((vecDims N E wf).resultIdx? (ix1 e) idx = some (ix1 v)) ↔
      ((idx (ix2 e (0 : Fin 1))).toInt = (v.val : Int)) := by
    exact vec_resultIdx?_eq_some_iff wf (ix1 e) idx (ix1 v)
  simp only [hiff]

/-- The same for the program's operation `Host.scatterAdd`, which at the ideal values is that exact sum. -/
theorem scatterAdd_vec_apply {φ : FTy} (x : (⟨1, ![N]⟩ : Shape).Idx → EReal) (idx : IVec ⟨2, ![E, 1]⟩ w)
    (upd : (⟨1, ![E]⟩ : Shape).Idx → EReal) (v : Fin N) :
    Host.scatterAdd (F := Ideal) (φ := φ) (vecDims N E wf) x idx upd (ix1 v)
      = x (ix1 v) + ∑ e : Fin E, if (idx (ix2 e (0 : Fin 1))).toInt = (v.val : Int) then upd (ix1 e) else 0 :=
  hostScatterAdd_vec_apply wf x idx upd v

end Vec

end Cert.ScatterRows

end
-- ==== Proof.LibRowSoftmax.lean ====
/-
  One attention row over the extended reals.

  A row of scores `s k` (each a real number or `⊥`, the score of a masked key), shifted by a value `m` that is an upper
  bound of the row and is attained in it, gives the weights `p k = exp (s k - m)`. When some score is a real number, `m` is
  a real number, every weight is a nonnegative real number, the weight of a key that attains `m` is `1`, and so the
  normaliser `l = ∑ k, p k` is a positive real number. Dividing the weighted sum `∑ k, p k * v k` of real values by `l`
  is then the same as summing the values against the normalised weights `p k / l`: both are the real number
  `(∑ k, P k * V k) / L`. (With no real score the normaliser is `0` and the two sides are different junk values: the
  hypothesis is needed.)
-/
import Idealize.ShloMosaic.PureOps.Ideal

noncomputable section

namespace Cert.RowSoftmax

open Idealize.ShloMosaic

/-- A finite sum of embedded real numbers is the embedded sum. -/
theorem coe_finset_sum {ι : Type} (t : Finset ι) (f : ι → ℝ) :
    (∑ k ∈ t, ((f k : ℝ) : EReal)) = ((∑ k ∈ t, f k : ℝ) : EReal) := by
  classical
  refine Finset.induction_on t (by simp) ?_
  intro a t ha ih
  rw [Finset.sum_insert ha, Finset.sum_insert ha, ih, EReal.coe_add]

/-- The weight of a score that is not `⊤`, shifted by a real number: a nonnegative real number, `1` when the score is
    the shift itself. -/
theorem weight_real (x : EReal) (hx : x ≠ ⊤) (M : ℝ) :
    ∃ r : ℝ, 0 ≤ r ∧ Ideal.exp (x - (M : EReal)) = (r : EReal) ∧ (x = (M : EReal) → r = 1) := by
  induction x using EReal.rec with
  | bot =>
    refine ⟨0, le_refl _, ?_, fun h => absurd h (EReal.bot_ne_coe M)⟩
    rw [EReal.bot_sub]; rfl
  | coe r =>
    refine ⟨Real.exp (r - M), (Real.exp_pos _).le, ?_, fun h => ?_⟩
    · rw [← EReal.coe_sub]; rfl
    · have : r = M := EReal.coe_eq_coe_iff.mp h
      rw [this, sub_self, Real.exp_zero]
  | top => exact absurd rfl hx

variable {n : ℕ}

/-- Normalising after the weighted sum, or before it: the same real number, when some score of the row is real. -/
theorem div_after_eq_div_before (s v : Fin n → EReal) (m : EReal)
    (hle : ∀ k, s k ≤ m) (hatt : ∃ k, s k = m) (hs : ∀ k, s k ≠ ⊤) (hreal : ∃ k, s k ≠ ⊥)
    (hv : ∀ k, ∃ r : ℝ, v k = (r : EReal)) :
    Ideal.div (∑ k, Ideal.exp (s k - m) * v k) (∑ k, Ideal.exp (s k - m))
      = ∑ k, Ideal.div (Ideal.exp (s k - m)) (∑ j, Ideal.exp (s j - m)) * v k := by
  obtain ⟨ka, hka⟩ := hatt
  obtain ⟨k0, hk0⟩ := hreal
  have hmtop : m ≠ ⊤ := hka ▸ hs ka
  have hmbot : m ≠ ⊥ := fun h => hk0 (le_bot_iff.mp (h ▸ hle k0))
  lift m to ℝ using ⟨hmtop, hmbot⟩
  choose V hV using hv
  choose P hP0 hPe hP1 using fun k => weight_real (s k) (hs k) m
  have hL : (0 : ℝ) < ∑ k, P k := by
    have h1 : P ka = 1 := hP1 ka hka
    have : P ka ≤ ∑ k, P k := Finset.single_le_sum (fun k _ => hP0 k) (Finset.mem_univ ka)
    linarith
  have hL0 : (∑ k, P k) ≠ 0 := ne_of_gt hL
  simp only [hPe, hV]
  rw [coe_finset_sum]
  simp only [Ideal.div_coe hL0, ← EReal.coe_mul]
  rw [coe_finset_sum, coe_finset_sum, ← EReal.coe_mul, EReal.coe_eq_coe_iff, Finset.sum_mul]
  exact Finset.sum_congr rfl fun k _ => by ring

end Cert.RowSoftmax

end
-- ==== Proof.LibRealEntries.lean ====
/-
  Arrays all of whose entries are real numbers.

  At the exact instance an input array may hold `±∞`; the precondition says the float inputs do not. Every array the
  programs build from such inputs by re-laying entries (casts, slices, broadcasts, transposes, concatenations), by
  entrywise sums, differences and products, and by inner products, again holds only real numbers: an entry of a re-laid
  array IS an entry of its operand, and the real numbers are closed under `+`, `-`, `*` and finite sums.
-/
import Idealize.ShloMosaic.PureOps
import Idealize.ShloMosaic.PureOps.Ideal
import proofs.«176232_j25872882991658_2_alg».proof.Proof.LibRowSoftmax

noncomputable section

namespace Cert.RealEntries

open Idealize.ShloMosaic

/-- Every entry of the array is (the embedding of) a real number. -/
def AllReal {ι : Type} (x : ι → EReal) : Prop := ∀ i, ∃ r : ℝ, x i = (r : EReal)

variable {s t : Shape}

/-- A shape cast re-lays the same entries. -/
theorem shapeCast {x : s.Idx → EReal} (hx : AllReal x) (h : s.ShapeCasts t) :
    AllReal (Idealize.ShloMosaic.shapeCast t x h) := fun _ => hx _

/-- A slice holds entries of its operand. -/
theorem slice {x : s.Idx → EReal} (hx : AllReal x) (off : Fin s.rank → Nat) (h : s.Slices off t) :
    AllReal (extractStridedSlice t off x h) := fun _ => hx _

/-- A broadcast holds entries of its operand. -/
theorem bcast {x : s.Idx → EReal} (hx : AllReal x) (dims : Fin s.rank → Fin t.rank) (h : s.BroadcastsInDim t dims) :
    AllReal (broadcastInDim t dims h x) := fun _ => hx _

/-- A transpose holds the entries of its operand. -/
theorem transpose {x : s.Idx → EReal} (hx : AllReal x) (perm : List (Fin s.rank)) (h : s.Transposes perm t) :
    AllReal (Idealize.ShloMosaic.transpose t perm x h) := fun _ => hx _

/-- A concatenation of two arrays holds entries of one or the other. -/
theorem concat2 {s1 s2 : Shape} (a : Fin t.rank) {u : s1.Idx → EReal} {v : s2.Idx → EReal} (hu : AllReal u) (hv : AllReal v)
    (h : Shape.Concatenates (([⟨s1, u⟩, ⟨s2, v⟩] : List ((s : Shape) × (s.Idx → EReal))).map (·.1)) t a) :
    AllReal (concatenate t a [⟨s1, u⟩, ⟨s2, v⟩] h) := by
  intro j
  have key : ∀ p ∈ ([⟨s1, u⟩, ⟨s2, v⟩] : List ((s : Shape) × (s.Idx → EReal))), ∀ i, ∃ r : ℝ, p.2 i = (r : EReal) := by
    intro p hp
    simp only [List.mem_cons, List.not_mem_nil, or_false] at hp
    rcases hp with rfl | rfl
    · exact hu
    · exact hv
  unfold concatenate
  exact key _ (List.getElem_mem _) _

/-- Entrywise products of real entries are real. -/
theorem mulf {φ : FTy} {x y : FVec Ideal s φ} (hx : AllReal x) (hy : AllReal y) : AllReal (Idealize.ShloMosaic.mulf x y) := fun i => by
  obtain ⟨a, ha⟩ := hx i
  obtain ⟨b, hb⟩ := hy i
  exact ⟨a * b, by show x i * y i = _; rw [ha, hb, EReal.coe_mul]⟩

/-- Entrywise sums of real entries are real. -/
theorem addf {φ : FTy} {x y : FVec Ideal s φ} (hx : AllReal x) (hy : AllReal y) : AllReal (Idealize.ShloMosaic.addf x y) := fun i => by
  obtain ⟨a, ha⟩ := hx i
  obtain ⟨b, hb⟩ := hy i
  exact ⟨a + b, by show x i + y i = _; rw [ha, hb, EReal.coe_add]⟩

/-- Entrywise differences of real entries are real. -/
theorem subf {φ : FTy} {x y : FVec Ideal s φ} (hx : AllReal x) (hy : AllReal y) : AllReal (Idealize.ShloMosaic.subf x y) := fun i => by
  obtain ⟨a, ha⟩ := hx i
  obtain ⟨b, hb⟩ := hy i
  exact ⟨a - b, by show x i - y i = _; rw [ha, hb, EReal.coe_sub]⟩

/-- A finite sum of products of real numbers is a real number. -/
theorem sum_mul_real {n : ℕ} (f g : Fin n → EReal) (hf : ∀ k, ∃ r : ℝ, f k = (r : EReal)) (hg : ∀ k, ∃ r : ℝ, g k = (r : EReal)) :
    ∃ r : ℝ, (∑ k : Fin n, f k * g k) = (r : EReal) := by
  choose A hA using hf
  choose B hB using hg
  refine ⟨∑ k, A k * B k, ?_⟩
  simp only [hA, hB, ← EReal.coe_mul]
  exact RowSoftmax.coe_finset_sum _ _

end Cert.RealEntries

end
-- ==== Proof.LibRowGatherScatter.lean ====
/-
  Gathering rows by an index column, and scattering rows onto the rows an index column names, read at an index.

  `x[idx]` for a vector `x : [N]` or a matrix `x : [N, D]` and an index column `idx : [E, 1]` lowers to a gather that
  collapses axis 0: entry `e` (row `e`) of the result is the operand's entry (row) at the start index `idx[e, 0]`, read
  as a signed integer and clamped into `[0, N - 1]`. The accumulating scatter of `[E, D]` updates onto an `[N, D]`
  operand reads the same start index signed and does NOT clamp it: update `(e, k)` lands on `(idx[e, 0], k)` when that
  is a row of the operand and is dropped otherwise. So an update that lands on row `n` has start index exactly `n`.
-/
import Idealize.ShloMosaic.Lib.ValueIdx
import Idealize.ShloMosaic.PureOps.Ideal

noncomputable section

namespace RowIndex

open Idealize.ShloMosaic Idealize.ShloMosaic.ValueIdx

variable {α : Type}

/-- The position in the index column `[E, 1]` that entry (row) `e` reads. -/
abbrev colAt {E : Nat} (e : Fin E) : (⟨2, ![E, 1]⟩ : Shape).Idx := ix2 e (0 : Fin 1)

/-- A start index read signed and clamped into `[0, N - 1]`. -/
def clampRow (N : Nat) (hN : 0 < N) {w : Nat} (b : BitVec w) : Fin N := ⟨min b.toInt.toNat (N - 1), by omega⟩

/-! ## Entries of a vector gathered by an index column -/

/-- The gather's dimension numbers for an operand `[N]`, an index column `[E, 1]` and a result `[E]`. -/
abbrev takeEntries (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector is the operand at the clamped start index `idx[e, 0]`. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : (⟨1, ![E]⟩ : Shape).Idx) :
    Host.gather (takeEntries N E wf) x idx e = x (ix1 (clampRow N hN (idx (colAt (e 0))))) := by
  unfold Host.gather
  congr 1
  funext a
  obtain rfl : a = 0 := Subsingleton.elim _ _
  refine Fin.ext ?_
  show (takeEntries N E wf).start e idx 0 + (takeEntries N E wf).batchCoord e 0 + (takeEntries N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeEntries N E wf).startIndexMap from List.mem_singleton.mpr rfl)]
  have hsi : (takeEntries N E wf).siIdx e ⟨List.idxOf (0 : Fin 1) (takeEntries N E wf).startIndexMap,
      List.idxOf_lt_length_iff.2 (List.mem_singleton.mpr rfl)⟩ = colAt (e 0) := by
    funext b; refine Fin.ext ?_
    match b with
    | ⟨0, _⟩ => rfl
    | ⟨1, _⟩ => rfl
  rw [hsi]
  rfl

/-! ## Rows of a matrix gathered by an index column -/

/-- The gather's dimension numbers for an operand `[N, D]`, an index column `[E, 1]` and a result `[E, D]`. -/
abbrev takeRows (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry `(e, k)` of the gathered matrix is the operand at row "clamped `idx[e, 0]`", column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (j : (⟨2, ![E, D]⟩ : Shape).Idx) :
    Host.gather (takeRows N E D wf) x idx j = x (ix2 (clampRow N hN (idx (colAt (j 0)))) (j 1)) := by
  unfold Host.gather
  congr 1
  funext a
  refine Fin.ext ?_
  match a with
  | ⟨0, _⟩ =>
    show (takeRows N E D wf).start j idx 0 + (takeRows N E D wf).batchCoord j 0 + (takeRows N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRows N E D wf).startIndexMap from List.mem_singleton.mpr rfl)]
    have hsi : (takeRows N E D wf).siIdx j ⟨List.idxOf (0 : Fin 2) (takeRows N E D wf).startIndexMap,
        List.idxOf_lt_length_iff.2 (List.mem_singleton.mpr rfl)⟩ = colAt (j 0) := by
      funext b; refine Fin.ext ?_
      match b with
      | ⟨0, _⟩ => rfl
      | ⟨1, _⟩ => rfl
    rw [hsi]
    rfl
  | ⟨1, _⟩ =>
    show (takeRows N E D wf).start j idx 1 + (takeRows N E D wf).batchCoord j 1 + (takeRows N E D wf).offCoord j 1 = (j 1).val
    rw [GatherDims.batchCoord_eq_zero _ _ _ List.not_mem_nil]
    have hst : (takeRows N E D wf).start j idx 1 = 0 := by
      unfold GatherDims.start
      rw [dif_neg (show ¬ ((1 : Fin 2) ∈ ([0] : List (Fin 2))) by decide)]
    rw [hst]
    simp only [Nat.add_zero, Nat.zero_add]
    rfl

/-! ## Rows scattered onto the rows an index column names -/

/-- The scatter's dimension numbers for an operand `[N, D]`, an index column `[E, 1]` and updates `[E, D]`. -/
abbrev putRows (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, k)` that lands on the operand's entry `i` has start index `idx[e, 0]`, read signed, equal to `i`'s
    row: the scatter does not clamp. -/
theorem scatter_rows_landing {N E D w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (putRows N E D wf).resultIdx? j idx = some i) : (idx (colAt (j 0))).toInt = ((i 0).val : ℤ) := by
  unfold ScatterDims.resultIdx? at h
  split at h
  · rename_i hc
    have h0 := (hc 0).1
    have hi := congrFun (Option.some.inj h) 0
    have hs : (putRows N E D wf).start j idx 0 = (idx (colAt (j 0))).toInt := by
      unfold ScatterDims.start
      rw [dif_pos (show (0 : Fin 2) ∈ (putRows N E D wf).scatterDimsToOperandDims from List.mem_singleton.mpr rfl)]
      have hsi : (putRows N E D wf).siIdx j ⟨List.idxOf (0 : Fin 2) (putRows N E D wf).scatterDimsToOperandDims,
          List.idxOf_lt_length_iff.2 (List.mem_singleton.mpr rfl)⟩ = colAt (j 0) := by
        funext b; refine Fin.ext ?_
        match b with
        | ⟨0, _⟩ => rfl
        | ⟨1, _⟩ => rfl
      rw [hsi]
      rfl
    have hw : (putRows N E D wf).window j 0 = 0 := by
      unfold ScatterDims.window
      have hmem : (0 : Fin 2) ∉ (putRows N E D wf).sKept :=
        (show ¬ ((0 : Fin 2) ∈ (List.finRange 2).filter (fun a => a ∉ [(0 : Fin 2)])) by decide)
      rw [dif_neg hmem]
    have hi' : (i 0).val = ((putRows N E D wf).start j idx 0 + ((putRows N E D wf).window j 0 : ℕ)).toNat := by
      rw [← hi]
    rw [hs, hw] at hi'
    rw [hs, hw] at h0
    omega
  · exact absurd h (by simp)

/-- A start index that is a row number `n < N` read signed is not negative, and clamps to `n`. -/
theorem clampRow_of_toInt {N w : Nat} (hN : 0 < N) (b : BitVec w) (n : Fin N) (h : b.toInt = (n.val : ℤ)) :
    clampRow N hN b = n := by
  refine Fin.ext ?_
  show min b.toInt.toNat (N - 1) = n.val
  rw [h]
  have := n.isLt
  simp only [Int.toNat_natCast]
  omega

end RowIndex

end
-- ==== Proof.LibRealOps.lean ====
/-
  Arrays of real numbers through gathers, accumulating scatters, maxima, constants and the guarded inverse root.

  A gather by an index column holds entries of its operand. An accumulating scatter adds, onto each entry of its
  operand, finitely many entries of the updates (or nothing), and a finite sum of real numbers is a real number. The
  maximum of two real numbers is one of them. The patterns of zero and of one denote the real numbers 0 and 1. The
  guarded inverse square root `where(d > 0, 1/√d, z)` of a real number `d` is `1/√d`, a real number because `d > 0`
  there, or the alternative `z`. So each of these operations builds arrays of real numbers from arrays of real numbers.
-/
import Idealize.ShloMosaic.PureOps
import Idealize.ShloMosaic.PureOps.Ideal
import Idealize.ShloMosaic.PureOps.Ideal.Laws
import Idealize.ShloMosaic.Lib.IdealHost
import Idealize.ShloMosaic.Lib.ValueIdx
import proofs.«176232_j25872882991658_2_alg».proof.Proof.LibRealEntries
import proofs.«176232_j25872882991658_2_alg».proof.Proof.LibRowGatherScatter
import proofs.«176232_j25872882991658_2_alg».proof.Proof.LibScatterRows

noncomputable section

namespace Cert.RealEntries

open Idealize.ShloMosaic Idealize.ShloMosaic.ValueIdx

/-! ## Finite sums -/

/-- A finite sum of real numbers is a real number. -/
theorem sum_real {ι : Type} (t : Finset ι) (f : ι → EReal) (hf : ∀ k, ∃ r : ℝ, f k = (r : EReal)) :
    ∃ r : ℝ, (∑ k ∈ t, f k) = (r : EReal) := by
  choose A hA using hf
  exact ⟨∑ k ∈ t, A k, by simp only [hA]; exact RowSoftmax.coe_finset_sum _ _⟩

/-- A real number, or nothing, is a real number. -/
theorem ite_zero_real (p : Prop) [Decidable p] (x : EReal) (hx : ∃ r : ℝ, x = (r : EReal)) :
    ∃ r : ℝ, (if p then x else 0) = (r : EReal) := by
  by_cases h : p
  · rw [if_pos h]; exact hx
  · rw [if_neg h]; exact ⟨0, rfl⟩

/-! ## Gathers -/

/-- Entries of a vector gathered by an index column are entries of the vector. -/
theorem gatherEntries {N E w : Nat} (hN : 0 < N)
    (wf : GatherDims.WF ⟨1, ![N]⟩ ⟨2, ![E, 1]⟩ ⟨1, ![E]⟩ [] [0] [] [0] [] 1 ![1])
    {x : (⟨1, ![N]⟩ : Shape).Idx → EReal} (hx : AllReal x) (idx : IVec ⟨2, ![E, 1]⟩ w) :
    AllReal (Host.gather (RowIndex.takeEntries N E wf) x idx) := fun e => by
  rw [RowIndex.gather_entries_apply hN wf]
  exact hx _

/-- Rows of a matrix gathered by an index column hold entries of the matrix. -/
theorem gatherRows {N E D w : Nat} (hN : 0 < N)
    (wf : GatherDims.WF ⟨2, ![N, D]⟩ ⟨2, ![E, 1]⟩ ⟨2, ![E, D]⟩ [1] [0] [] [0] [] 1 ![1, D])
    {x : (⟨2, ![N, D]⟩ : Shape).Idx → EReal} (hx : AllReal x) (idx : IVec ⟨2, ![E, 1]⟩ w) :
    AllReal (Host.gather (RowIndex.takeRows N E D wf) x idx) := fun j => by
  rw [RowIndex.gather_rows_apply hN wf]
  exact hx _

/-! ## Accumulating scatters -/

/-- Real update rows added onto a real matrix give a real matrix. -/
theorem scatterRows {N D E w : Nat} {φ : FTy}
    (wf : ScatterDims.WF ⟨2, ![N, D]⟩ ⟨2, ![E, 1]⟩ ⟨2, ![E, D]⟩ [1] [0] [0] 1)
    {x : (⟨2, ![N, D]⟩ : Shape).Idx → EReal} (hx : AllReal x) (idx : IVec ⟨2, ![E, 1]⟩ w)
    {upd : (⟨2, ![E, D]⟩ : Shape).Idx → EReal} (hu : AllReal upd) :
    AllReal (Host.scatterAdd (F := Ideal) (φ := φ) (ScatterRows.rowsDims N D E wf) x idx upd) := by
  intro i
  obtain ⟨v, c, rfl⟩ : ∃ (v : Fin N) (c : Fin D), i = ix2 v c := ⟨i 0, i 1, eq_ix2 i⟩
  rw [ScatterRows.scatterAdd_rows_apply]
  obtain ⟨a, ha⟩ := hx (ix2 v c)
  obtain ⟨b, hb⟩ := sum_real Finset.univ
    (fun e : Fin E => if (idx (ix2 e (0 : Fin 1))).toInt = (v.val : Int) then upd (ix2 e c) else 0)
    (fun e => ite_zero_real _ _ (hu _))
  exact ⟨a + b, by rw [ha, hb, EReal.coe_add]⟩

/-- Real update entries added onto a real vector give a real vector. -/
theorem scatterVec {N E w : Nat} {φ : FTy}
    (wf : ScatterDims.WF ⟨1, ![N]⟩ ⟨2, ![E, 1]⟩ ⟨1, ![E]⟩ [] [0] [0] 1)
    {x : (⟨1, ![N]⟩ : Shape).Idx → EReal} (hx : AllReal x) (idx : IVec ⟨2, ![E, 1]⟩ w)
    {upd : (⟨1, ![E]⟩ : Shape).Idx → EReal} (hu : AllReal upd) :
    AllReal (Host.scatterAdd (F := Ideal) (φ := φ) (ScatterRows.vecDims N E wf) x idx upd) := by
  intro i
  obtain ⟨v, rfl⟩ : ∃ v : Fin N, i = ix1 v := ⟨i 0, eq_ix1 i⟩
  rw [ScatterRows.scatterAdd_vec_apply]
  obtain ⟨a, ha⟩ := hx (ix1 v)
  obtain ⟨b, hb⟩ := sum_real Finset.univ
    (fun e : Fin E => if (idx (ix2 e (0 : Fin 1))).toInt = (v.val : Int) then upd (ix1 e) else 0)
    (fun e => ite_zero_real _ _ (hu _))
  exact ⟨a + b, by rw [ha, hb, EReal.coe_add]⟩

/-! ## Maxima -/

variable {s : Shape}

/-- Entrywise maxima of real entries are real. -/
theorem maximumf {φ : FTy} {x y : FVec Ideal s φ} (hx : AllReal x) (hy : AllReal y) :
    AllReal (Idealize.ShloMosaic.maximumf x y) := fun i => by
  obtain ⟨a, ha⟩ := hx i
  obtain ⟨b, hb⟩ := hy i
  exact ⟨max a b, by
    show max (x i) (y i) = _
    rw [ha, hb]
    exact (EReal.coe_strictMono.monotone.map_max (a := a) (b := b)).symm⟩

/-! ## Constants -/

/-- The array that holds the pattern of zero everywhere is real. -/
theorem const_zero : AllReal (constant (F := Ideal) s .f32 0x00000000#32) := fun _ =>
  ⟨0, by show Ideal.ofBits .f32 0x00000000#32 = _; rw [Ideal.ofBits_zero_f32]; rfl⟩

/-- The array that holds the pattern of one everywhere is real. -/
theorem const_one : AllReal (constant (F := Ideal) s .f32 0x3F800000#32) := fun _ =>
  ⟨1, by show Ideal.ofBits .f32 0x3F800000#32 = _; rw [Ideal.ofBits_one_f32]; rfl⟩

/-- Every entry of the array that holds the pattern of zero everywhere is zero. -/
theorem const_zero_apply (i : s.Idx) : constant (F := Ideal) s .f32 0x00000000#32 i = 0 :=
  Ideal.ofBits_zero_f32

/-! ## The guarded inverse square root -/

/-- `1/√d` where `d` exceeds the threshold `0`, the alternative elsewhere: real, when `d` and the alternative are. -/
theorem select_gt_rsqrt {φ : FTy} {d z a : FVec Ideal s φ} (hd : AllReal d) (hz : ∀ i, z i = 0) (ha : AllReal a) :
    AllReal (select (cmpf .ogt d z) (Host.rsqrt d) a) := fun i => by
  obtain ⟨r, hr⟩ := hd i
  show ∃ q : ℝ, Scalar.select (Ideal.cmp .ogt (d i) (z i)) (Ideal.rsqrt (d i)) (a i) = (q : EReal)
  rw [hz i, hr]
  by_cases hpos : (0 : ℝ) < r
  · refine ⟨(Real.sqrt r)⁻¹, ?_⟩
    have hc : Ideal.cmp .ogt ((r : ℝ) : EReal) 0 = 1 := by
      show BitVec.ofBool (decide ((0 : EReal) < (r : EReal))) = 1
      rw [decide_eq_true (by exact_mod_cast hpos)]; rfl
    rw [hc, Ideal.rsqrt_coe, if_neg (not_lt.mpr hpos.le), if_neg hpos.ne']
    rfl
  · have hc : Ideal.cmp .ogt ((r : ℝ) : EReal) 0 = 0 := by
      show BitVec.ofBool (decide ((0 : EReal) < (r : EReal))) = 0
      rw [decide_eq_false (by exact_mod_cast hpos)]; rfl
    rw [hc]
    exact ha i

end Cert.RealEntries

end
-- ==== Proof.LibVectorColumn.lean ====
/-
  A vector made into a column, two ways: a general layout lemma.

  An `[a]` array becomes an `[a, 1]` column either by a shape cast (row-major order kept) or by a broadcast that sends
  its one axis to axis 0. Either way the entry at `(p, 0)` is the vector's entry at `p`, so the two columns are the
  same array.
-/
import Idealize.ShloMosaic.Lib.Pipeline.Value
import Idealize.ShloMosaic.Lib.ValueIdx

namespace Cert.LibVectorColumn

open Idealize.ShloMosaic Idealize.ShloMosaic.ValueIdx

/-- An `[a]` array shape-cast to `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a]` array broadcast to `[a, 1]` along axis 0 reads, at `(p, u)`, the operand at `p`. -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The shape-cast column and the broadcast column of one vector are the same array. -/
theorem shapeCast_eq_broadcastInDim {α : Type} {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  rw [shapeCast_a_a1_apply, broadcastInDim_a_a1_apply]

end Cert.LibVectorColumn
-- ==== Proof.Degree.lean ====
/-
  The clamped in-degree and its reciprocal column.

  The in-degree of a node is a sum of ones, one for every edge whose target is the node: a real number. Clamped below
  by one it is a real number at least one. The reciprocal column holds, at `(v, 0)`, the quotient of one by the clamped
  degree of `v`.
-/
import proofs.«176232_j25872882991658_2_alg».proof.Proof.Chain
import proofs.«176232_j25872882991658_2_alg».proof.Proof.Spec
import proofs.«176232_j25872882991658_2_alg».proof.Proof.LibScatterRows
import proofs.«176232_j25872882991658_2_alg».proof.Proof.LibRealOps
import proofs.«176232_j25872882991658_2_alg».proof.Proof.LibVectorColumn
import proofs.«176232_j25872882991658_2_alg».proof.Proof.LibBiasRow

noncomputable section

namespace Cert.KernelIdeal.Degree

open Cert.KernelIdeal Cert.KernelIdeal.Facts₀ Cert.KernelIdeal.Facts Idealize.ShloMosaic Idealize.ShloMosaic.ValueIdx

/-- The scatter of a vector of updates `[800000]` onto a vector `[50000]` by an index column is the general one. -/
theorem scatterDims_eq :
    scatter_S50000_S800000x1_S800000_n_0_0_1
      = Cert.ScatterRows.vecDims 50000 800000 scatter_S50000_S800000x1_S800000_n_0_0_1_wf := rfl

/-- The array of ones over the nodes reads one at every node. -/
theorem ones_apply (v : Fin 50000) :
    broadcastInDim (α := Ideal .f32) S50000 ![] bcast_S_S50000 (constant (F := Ideal) S_ .f32 0x3F800000#32) (ix1 v) = 1 := by
  refine (broadcastInDim_scalar_apply bcast_S_S50000 _ (ix1 v)).trans ?_
  exact Ideal.ofBits_one_f32

/-- The in-degree before the clamp (ones added up at the targets, onto zeros): every entry is a real number. -/
theorem count_allReal (a : (⟨S2x800000, .i32⟩ : BufTy).Contents (Elt Ideal)) :
    Cert.RealEntries.AllReal
      (Host.scatterAdd (F := Ideal) (φ := .f32) scatter_S50000_S800000x1_S800000_n_0_0_1
        (broadcastInDim S50000 ![] bcast_S_S50000 (constant (F := Ideal) S_ .f32 0x00000000#32))
        (Chain.col (F := Ideal) (Chain.dstRaw (F := Ideal) a))
        (broadcastInDim S800000 ![] bcast_S_S800000 (constant (F := Ideal) S_ .f32 0x3F800000#32))) := by
  rw [scatterDims_eq]
  exact Cert.RealEntries.scatterVec _
    (Cert.RealEntries.bcast (s := S_) (t := S50000) Cert.RealEntries.const_zero ![] bcast_S_S50000) _
    (Cert.RealEntries.bcast (s := S_) (t := S800000) Cert.RealEntries.const_one ![] bcast_S_S800000)

/-- THE CLAMPED DEGREE of every node is a real number at least one: the maximum of a real number and one. -/
theorem degMax_real (a : (⟨S2x800000, .i32⟩ : BufTy).Contents (Elt Ideal)) (v : Fin 50000) :
    ∃ r : ℝ, 1 ≤ r ∧ Chain.degMax (F := Ideal) a (ix1 v) = (r : EReal) := by
  obtain ⟨s, hs⟩ := count_allReal a (ix1 v)
  refine ⟨max s 1, le_max_right _ _, ?_⟩
  refine (maximumf_apply _ _ (ix1 v)).trans ?_
  rw [hs, ones_apply]
  exact (EReal.coe_strictMono.monotone.map_max (a := s) (b := 1)).symm

/-- THE RECIPROCAL COLUMN at `(v, 0)` is one divided by the clamped degree of `v`. -/
theorem invDeg_apply (a : (⟨S2x800000, .i32⟩ : BufTy).Contents (Elt Ideal)) (v : Fin 50000) :
    Chain.invDeg (F := Ideal) a (ix2 v (0 : Fin 1)) = Ideal.div 1 (Chain.degMax (F := Ideal) a (ix1 v)) := by
  refine (Cert.LibVectorColumn.shapeCast_a_a1_apply
    (Host.divf (F := Ideal) (φ := .f32)
      (broadcastInDim S50000 ![] bcast_S_S50000 (constant (F := Ideal) S_ .f32 0x3F800000#32))
      (Chain.degMax (F := Ideal) a)) shapeCasts_S50000_S50000x1 v (0 : Fin 1)).trans ?_
  refine (hostDivf_apply _ _ (ix1 v)).trans ?_
  rw [ones_apply]

end Cert.KernelIdeal.Degree

end
-- ==== Proof.LibColumnJoin.lean ====
/-
  Two arrays laid side by side: a general layout lemma.  An `[M, A]` array and an `[M, B]` array joined along the
  column axis into `[M, C]` read, at `(p, k)`, the first array at `(p, k)` when `k < A` and the second at
  `(p, k - A)` otherwise.
-/
import Idealize.ShloMosaic.Lib.Pipeline.Value
import Idealize.ShloMosaic.Lib.ValueIdx

namespace Cert.LibColumnJoin

open Idealize.ShloMosaic Idealize.ShloMosaic.ValueIdx

/-- A column of the joined array left of the seam is the first array's column. -/
theorem concat_cols_left {α : Type} {M A B C : ℕ} (x₁ : (⟨2, ![M, A]⟩ : Shape).Idx → α) (x₂ : (⟨2, ![M, B]⟩ : Shape).Idx → α)
    (h : Shape.Concatenates [(⟨2, ![M, A]⟩ : Shape), (⟨2, ![M, B]⟩ : Shape)] (⟨2, ![M, C]⟩ : Shape) 1)
    (p : Fin M) (k : Fin C) (hk : k.val < A) :
    concatenate (⟨2, ![M, C]⟩ : Shape) 1 [⟨(⟨2, ![M, A]⟩ : Shape), x₁⟩, ⟨(⟨2, ![M, B]⟩ : Shape), x₂⟩] h (ix2 p k)
      = x₁ (ix2 p ⟨k.val, hk⟩) :=
  concatenate_pair_apply_left 1 x₁ x₂ h (ix2 p k) rfl (ix2 p ⟨k.val, hk⟩) fun b => by
    match b with
    | ⟨0, _⟩ => rfl
    | ⟨1, _⟩ => rfl

/-- A column at or right of the seam is the second array's column, the first array's width less. -/
theorem concat_cols_right {α : Type} {M A B C : ℕ} (x₁ : (⟨2, ![M, A]⟩ : Shape).Idx → α) (x₂ : (⟨2, ![M, B]⟩ : Shape).Idx → α)
    (h : Shape.Concatenates [(⟨2, ![M, A]⟩ : Shape), (⟨2, ![M, B]⟩ : Shape)] (⟨2, ![M, C]⟩ : Shape) 1)
    (p : Fin M) (k : Fin C) (hk : A ≤ k.val) (hB : k.val - A < B) :
    concatenate (⟨2, ![M, C]⟩ : Shape) 1 [⟨(⟨2, ![M, A]⟩ : Shape), x₁⟩, ⟨(⟨2, ![M, B]⟩ : Shape), x₂⟩] h (ix2 p k)
      = x₂ (ix2 p ⟨k.val - A, hB⟩) :=
  concatenate_pair_apply_right 1 x₁ x₂ h (ix2 p k) rfl rfl (ix2 p ⟨k.val - A, hB⟩)
    (fun b hb => by
      match b with
      | ⟨0, _⟩ => rfl
      | ⟨1, _⟩ => exact absurd rfl hb)
    (by show k.val - A + A = k.val; omega)

end Cert.LibColumnJoin
-- ==== Proof.DecoderBridge.lean ====
/-
  The decoder's first layer, reassociated.

  The reference gathers the two 64-wide endpoint rows of the node embedding `Z` for every scored edge, lays them side
  by side into a 128-wide row and multiplies by the whole `[128, 32]` weight matrix `w`. The other program multiplies
  `Z` by the upper and the lower `[64, 32]` half of `w` at the nodes and gathers the 32-wide products. At entry `(p, j)`

    (∑_{k<64} Z(g₀ p, k) · w(k, j) + ∑_{k<64} Z(g₁ p, k) · w(64 + k, j)) + b j  =  (∑_{k<128} cat(p, k) · w(k, j)) + b j,

  where `g₀ p`, `g₁ p` are the start indices of the two index columns, read signed and clamped to the node range, and
  `cat(p, k)` is `Z(g₀ p, k)` for `k < 64` and `Z(g₁ p, k - 64)` otherwise. The sum over 128 terms splits into the
  sum of its first 64 and its last 64 terms: only commutativity and associativity of the addition are used, so nothing
  is asked of the entries (they may be infinite).
-/
import proofs.«176232_j25872882991658_2_alg».proof.Proof.Chain
import proofs.«176232_j25872882991658_2_alg».proof.Proof.Spec
import proofs.«176232_j25872882991658_2_alg».proof.Proof.LibRowGatherScatter
import proofs.«176232_j25872882991658_2_alg».proof.Proof.LibColumnJoin
import Idealize.ShloMosaic.Lib.ValueLayout

noncomputable section

open scoped BigOperators

namespace Cert.KernelIdeal.DecoderBridge

open Cert.KernelIdeal Cert.KernelIdeal.Facts₀ Cert.KernelIdeal.Facts Idealize.ShloMosaic Idealize.ShloMosaic.ValueIdx

/-! ## The two halves of the contraction range -/

/-- Row `k` of the upper half, as a row of the whole weight matrix. -/
def lo (k : Fin 64) : Fin 128 := ⟨k.val, by omega⟩

/-- Row `k` of the lower half, as a row of the whole weight matrix: `64 + k`. -/
def hi (k : Fin 64) : Fin 128 := ⟨64 + k.val, by omega⟩

/-- A sum over 128 terms is the sum of its first 64 terms plus the sum of its last 64 terms. -/
theorem sum_halves {M : Type} [AddCommMonoid M] (f : Fin 128 → M) :
    ∑ k : Fin 128, f k = ∑ k : Fin 64, f (lo k) + ∑ k : Fin 64, f (hi k) :=
  Fin.sum_univ_add (a := 64) (b := 64) f

/-! ## The pieces read at an index -/

/-- There is at least one node. -/
theorem nodes_pos : 0 < 50000 := by decide

/-- The 32-wide gather's dimension numbers are those of "rows of a matrix taken by an index column". -/
theorem gather32_dims :
    gather_S50000x32_S400000x1_S400000x32_1_0_n_n_0_1_132
      = RowIndex.takeRows 50000 400000 32 gather_S50000x32_S400000x1_S400000x32_1_0_n_n_0_1_132_wf := rfl

/-- Entry `(p, j)` of the gathered 32-wide table is the table's entry at the clamped start index of row `p`, column `j`. -/
theorem gather32_apply (t : Cert.Spec.A2 50000 32) (i : (⟨S400000x1, .i32⟩ : BufTy).Contents (Elt Ideal))
    (p : Fin 400000) (j : Fin 32) :
    Chain.gather32 (F := Ideal) t i (ix2 p j) = t (ix2 (RowIndex.clampRow 50000 nodes_pos (i (RowIndex.colAt p))) j) := by
  unfold Chain.gather32
  rw [gather32_dims]
  exact RowIndex.gather_rows_apply nodes_pos _ t i (ix2 p j)

/-- Entry `(k, j)` of the upper half of the weight matrix is the matrix's entry `(k, j)`. -/
theorem wd1a_apply (w : (⟨S128x32, .f32⟩ : BufTy).Contents (Elt Ideal)) (k : Fin 64) (j : Fin 32) :
    Chain.wd1a (F := Ideal) w (ix2 k j) = w (ix2 (lo k) j) :=
  slice2_axis0_apply 0 w slices_S128x32_S64x32_0_0 k j (lo k) (Nat.zero_add _).symm

/-- Entry `(k, j)` of the lower half of the weight matrix is the matrix's entry `(64 + k, j)`. -/
theorem wd1b_apply (w : (⟨S128x32, .f32⟩ : BufTy).Contents (Elt Ideal)) (k : Fin 64) (j : Fin 32) :
    Chain.wd1b (F := Ideal) w (ix2 k j) = w (ix2 (hi k) j) :=
  slice2_axis0_apply 64 w slices_S128x32_S64x32_64_0 k j (hi k) rfl

/-! ## The reassociation -/

/-- The sum of the two gathered half-projections plus the bias is the dense layer of the joined gathered rows. -/
theorem decoder_first (Z : Cert.Spec.A2 50000 64) (w : (⟨S128x32, .f32⟩ : BufTy).Contents (Elt Ideal)) (b : Cert.Spec.A1 32)
    (i0 i1 : (⟨S400000x1, .i32⟩ : BufTy).Contents (Elt Ideal))
    (wf64 : GatherDims.WF (⟨2, ![50000, 64]⟩ : Shape) ⟨2, ![400000, 1]⟩ ⟨2, ![400000, 64]⟩ [1] [0] [] [0] [] 1 ![1, 64])
    (hc : Shape.Concatenates [(⟨2, ![400000, 64]⟩ : Shape), (⟨2, ![400000, 64]⟩ : Shape)] (⟨2, ![400000, 128]⟩ : Shape) 1) :
    Cert.Spec.addBias (Chain.gather32 (F := Ideal) (Cert.Spec.proj Z (Chain.wd1a w)) i0)
        (Chain.gather32 (F := Ideal) (Cert.Spec.proj Z (Chain.wd1b w)) i1) b
      = Cert.Spec.affine (concatenate (⟨2, ![400000, 128]⟩ : Shape) 1
          [⟨(⟨2, ![400000, 64]⟩ : Shape), Host.gather (RowIndex.takeRows 50000 400000 64 wf64) Z i0⟩,
           ⟨(⟨2, ![400000, 64]⟩ : Shape), Host.gather (RowIndex.takeRows 50000 400000 64 wf64) Z i1⟩] hc) w b := by
  funext i
  obtain ⟨p, j, rfl⟩ : ∃ (p : Fin 400000) (j : Fin 32), i = ix2 p j := ⟨i 0, i 1, eq_ix2 i⟩
  show (Chain.gather32 (F := Ideal) (Cert.Spec.proj Z (Chain.wd1a w)) i0 (ix2 p j)
        + Chain.gather32 (F := Ideal) (Cert.Spec.proj Z (Chain.wd1b w)) i1 (ix2 p j)) + b (ix1 j)
      = (∑ e : Fin 128, concatenate (⟨2, ![400000, 128]⟩ : Shape) 1
          [⟨(⟨2, ![400000, 64]⟩ : Shape), Host.gather (RowIndex.takeRows 50000 400000 64 wf64) Z i0⟩,
           ⟨(⟨2, ![400000, 64]⟩ : Shape), Host.gather (RowIndex.takeRows 50000 400000 64 wf64) Z i1⟩] hc (ix2 p e)
          * w (ix2 e j)) + b (ix1 j)
  refine congrArg (· + b (ix1 j)) ?_
  rw [gather32_apply, gather32_apply, sum_halves]
  refine congrArg₂ (· + ·) ?_ ?_
  · refine Finset.sum_congr rfl fun e _ => ?_
    refine congrArg₂ (· * ·) ?_ (wd1a_apply w e j)
    refine Eq.symm ((Cert.LibColumnJoin.concat_cols_left _ _ hc p (lo e) e.isLt).trans ?_)
    exact RowIndex.gather_rows_apply nodes_pos wf64 Z i0 (ix2 p e)
  · refine Finset.sum_congr rfl fun e _ => ?_
    refine congrArg₂ (· * ·) ?_ (wd1b_apply w e j)
    refine Eq.symm ((Cert.LibColumnJoin.concat_cols_right _ _ hc p (hi e) (Nat.le_add_right 64 e.val)
      (by show 64 + e.val - 64 < 64; omega)).trans ?_)
    refine (RowIndex.gather_rows_apply nodes_pos wf64 Z i1 (ix2 p _)).trans ?_
    refine congrArg (fun k => Z (ix2 (RowIndex.clampRow 50000 nodes_pos (i1 (RowIndex.colAt p))) k)) ?_
    exact Fin.ext (by show 64 + e.val - 64 = e.val; omega)

end Cert.KernelIdeal.DecoderBridge

end
-- ==== Proof.Bridge.lean ====
/-
  The bridge: the idealized kernel program and the idealized reference compute one function of the argument arrays.
  The network is two graph-convolution layers and an edge decoder. A layer adds, to a root term `X · Wr` and a bias,
  the mean of the neighbours' rows times `Wl`; the reference divides the neighbour sums by the clamped degree and then
  multiplies by `Wl`, the kernel multiplies first and scales each row of the product by the reciprocal of the clamped
  degree — equal because the clamped degree is a real number at least one, so its reciprocal is a nonnegative real
  and distributes over the finite sum. The decoder's first dense layer acts on the two gathered endpoint rows of the
  embedding side by side; the kernel applies the two halves of the weight matrix at the nodes and gathers the
  products — equal by splitting the sum over the 128 joined columns into its two halves. Everything else (the
  gathers and scatters over the edge list, the rectifiers, the last two dense layers) is the same in both.
-/
import proofs.«176232_j25872882991658_2_alg».proof.Proof.Region0
import proofs.«176232_j25872882991658_2_alg».proof.Proof.Region1
import proofs.«176232_j25872882991658_2_alg».proof.Proof.Region2
import proofs.«176232_j25872882991658_2_alg».proof.Proof.HostChain
import proofs.«176232_j25872882991658_2_alg».proof.Proof.RefRead
import proofs.«176232_j25872882991658_2_alg».proof.Proof.Algebra
import proofs.«176232_j25872882991658_2_alg».proof.Proof.Degree
import proofs.«176232_j25872882991658_2_alg».proof.Proof.DecoderBridge

set_option maxRecDepth 16384

noncomputable section

namespace Cert.Bridge

open Cert.KernelIdeal Cert.KernelIdeal.Gen Cert.KernelIdeal.HostChain
open Idealize.ShloMosaic Idealize.ShloMosaic.ValueIdx Idealize.ShloMosaic.TcCoe Idealize.SL.Sem

/-! ## The function both programs compute -/

section Result

variable (x : (⟨S50000x64, .f32⟩ : BufTy).Contents (Elt Ideal)) (a1 : (⟨S2x800000, .i32⟩ : BufTy).Contents (Elt Ideal)) (a2 : (⟨S2x400000, .i32⟩ : BufTy).Contents (Elt Ideal))
  (w1l : (⟨S64x128, .f32⟩ : BufTy).Contents (Elt Ideal)) (b1l : (⟨S128, .f32⟩ : BufTy).Contents (Elt Ideal)) (w1r : (⟨S64x128, .f32⟩ : BufTy).Contents (Elt Ideal))
  (w2l : (⟨S128x64, .f32⟩ : BufTy).Contents (Elt Ideal)) (b2l : (⟨S64, .f32⟩ : BufTy).Contents (Elt Ideal)) (w2r : (⟨S128x64, .f32⟩ : BufTy).Contents (Elt Ideal))
  (wd1 : (⟨S128x32, .f32⟩ : BufTy).Contents (Elt Ideal)) (bd1 : (⟨S32, .f32⟩ : BufTy).Contents (Elt Ideal)) (wd2 : (⟨S32x16, .f32⟩ : BufTy).Contents (Elt Ideal)) (bd2 : (⟨S16, .f32⟩ : BufTy).Contents (Elt Ideal))
  (wd3 : (⟨S16x1, .f32⟩ : BufTy).Contents (Elt Ideal)) (bd3 : (⟨S1, .f32⟩ : BufTy).Contents (Elt Ideal))

/-- The hidden layer: the first graph convolution, rectified. -/
def hid : Cert.Spec.A2 50000 128 :=
  Cert.Spec.relu (Cert.Spec.combine (Chain.msg64 (F := Ideal) x a1) (Chain.invDeg (F := Ideal) a1) x w1l b1l w1r)

/-- The node embedding: the second graph convolution over the hidden layer. -/
def zed : Cert.Spec.A2 50000 64 :=
  Cert.Spec.combine (Chain.msg128 (F := Ideal) (hid x a1 w1l b1l w1r) a1) (Chain.invDeg (F := Ideal) a1) (hid x a1 w1l b1l w1r) w2l b2l w2r

/-- The edge scores: the decoder over the embedding's two projections gathered at the scored edges' endpoints. -/
def result : (⟨S400000, .f32⟩ : BufTy).Contents (Elt Ideal) :=
  Chain.flat (F := Ideal) (Cert.Spec.dec
    (Chain.gather32 (F := Ideal) (Cert.Spec.proj (zed x a1 w1l b1l w1r w2l b2l w2r) (Chain.wd1a (F := Ideal) wd1)) (Chain.wrapCol4 (Chain.lblRaw0 a2)))
    (Chain.gather32 (F := Ideal) (Cert.Spec.proj (zed x a1 w1l b1l w1r w2l b2l w2r) (Chain.wd1b (F := Ideal) wd1)) (Chain.wrapCol4 (Chain.lblRaw1 a2)))
    bd1 wd2 bd2 wd3 bd3)

end Result

/-! ## The kernel program's result array is that function of its arguments -/

section Kernel

variable (m : (ℓ : Loc nD τ sig) → Buf (Elt Ideal) ℓ) (ρ : Dev nD → PrngReg)

/-- The first region leaves the hidden layer in its output array. -/
theorem w2_v23 (c : Dev nD) : W2 m ρ c (Proc.devRef .tc main_v23) = hid (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 6).trans ((Cert.KernelIdeal.Region0.final0 (V1 m ρ) c).trans ?_)
  rw [show V1 m ρ c main_v13 = _ from w1_v13 m ρ c, show V1 m ρ c main_v22 = _ from w1_v22 m ρ c,
    show V1 m ρ c main_arg0 = _ from w1_arg0 m ρ c, show V1 m ρ c main_arg3 = _ from w1_arg3 m ρ c,
    show V1 m ρ c main_arg4 = _ from w1_arg4 m ρ c, show V1 m ρ c main_arg5 = _ from w1_arg5 m ρ c]
  rfl

/-- The neighbour sums the second region reads are those of the hidden layer. -/
theorem w3_v33' (c : Dev nD) : W3 m ρ c (Proc.devRef .tc main_v33) = Chain.msg128 (F := Ideal) (hid (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  rw [w3_v33 m ρ c, w2_v23 m ρ c, w2_v1 m ρ c, w2_v3 m ρ c]
  exact msg128v_eq _ _

/-- The second region leaves the embedding's first projection in its first output array … -/
theorem w4_v36_0 (c : Dev nD) : W4 m ρ c (Proc.devRef .tc main_v36_0) = Cert.Spec.proj (zed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Chain.wd1a (F := Ideal) (m ((c : Thread nD τ).loc main_arg9))) := by
  refine (W4_arr m ρ c 8).trans ((Cert.KernelIdeal.Region1.final1_8 (V3 m ρ) c).trans ?_)
  rw [show V3 m ρ c main_v33 = _ from w3_v33' m ρ c, show V3 m ρ c main_v22 = _ from w3_v22 m ρ c,
    show V3 m ρ c main_v23 = _ from (w3_v23 m ρ c).trans (w2_v23 m ρ c),
    show V3 m ρ c main_arg6 = _ from w3_arg6 m ρ c, show V3 m ρ c main_arg7 = _ from w3_arg7 m ρ c,
    show V3 m ρ c main_arg8 = _ from w3_arg8 m ρ c,
    show V3 m ρ c main_v34 = _ from (w3_v34 m ρ c).trans (congrArg (Chain.wd1a (F := Ideal)) (w2_arg9 m ρ c))]
  rfl

/-- … and its second projection in the second. -/
theorem w4_v36_1 (c : Dev nD) : W4 m ρ c (Proc.devRef .tc main_v36_1) = Cert.Spec.proj (zed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Chain.wd1b (F := Ideal) (m ((c : Thread nD τ).loc main_arg9))) := by
  refine (W4_arr m ρ c 9).trans ((Cert.KernelIdeal.Region1.final1_9 (V3 m ρ) c).trans ?_)
  rw [show V3 m ρ c main_v33 = _ from w3_v33' m ρ c, show V3 m ρ c main_v22 = _ from w3_v22 m ρ c,
    show V3 m ρ c main_v23 = _ from (w3_v23 m ρ c).trans (w2_v23 m ρ c),
    show V3 m ρ c main_arg6 = _ from w3_arg6 m ρ c, show V3 m ρ c main_arg7 = _ from w3_arg7 m ρ c,
    show V3 m ρ c main_arg8 = _ from w3_arg8 m ρ c,
    show V3 m ρ c main_v35 = _ from (w3_v35 m ρ c).trans (congrArg (Chain.wd1b (F := Ideal)) (w2_arg9 m ρ c))]
  rfl

/-- The program's result array, after the last stretch, is the edge scores of its arguments. -/
theorem kernel_value (c : Dev nD) : W7 m ρ c (Proc.devRef .tc main_v56) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [w7_v56 m ρ c]
  refine congrArg (Chain.flat (F := Ideal)) ?_
  refine (W6_arr m ρ c 7).trans ((Cert.KernelIdeal.Region2.final2 (V5 m ρ) c).trans ?_)
  rw [show V5 m ρ c main_v45 = _ from w5_v45 m ρ c, show V5 m ρ c main_v54 = _ from w5_v54 m ρ c,
    w4_v36_0 m ρ c, w4_v36_1 m ρ c, w4_arg2 m ρ c,
    show V5 m ρ c main_arg10 = _ from w5_arg10 m ρ c, show V5 m ρ c main_arg11 = _ from w5_arg11 m ρ c,
    show V5 m ρ c main_arg12 = _ from w5_arg12 m ρ c, show V5 m ρ c main_arg13 = _ from w5_arg13 m ρ c,
    show V5 m ρ c main_arg14 = _ from w5_arg14 m ρ c]

end Kernel

/-! ## The reference's result is the same function -/

section Reference

open Cert.ReferenceIdeal.Read

variable (x : (⟨S50000x64, .f32⟩ : BufTy).Contents (Elt Ideal)) (a1 : (⟨S2x800000, .i32⟩ : BufTy).Contents (Elt Ideal)) (a2 : (⟨S2x400000, .i32⟩ : BufTy).Contents (Elt Ideal))
  (w1l : (⟨S64x128, .f32⟩ : BufTy).Contents (Elt Ideal)) (b1l : (⟨S128, .f32⟩ : BufTy).Contents (Elt Ideal)) (w1r : (⟨S64x128, .f32⟩ : BufTy).Contents (Elt Ideal))
  (w2l : (⟨S128x64, .f32⟩ : BufTy).Contents (Elt Ideal)) (b2l : (⟨S64, .f32⟩ : BufTy).Contents (Elt Ideal)) (w2r : (⟨S128x64, .f32⟩ : BufTy).Contents (Elt Ideal))
  (wd1 : (⟨S128x32, .f32⟩ : BufTy).Contents (Elt Ideal)) (bd1 : (⟨S32, .f32⟩ : BufTy).Contents (Elt Ideal)) (wd2 : (⟨S32x16, .f32⟩ : BufTy).Contents (Elt Ideal)) (bd2 : (⟨S16, .f32⟩ : BufTy).Contents (Elt Ideal))
  (wd3 : (⟨S16x1, .f32⟩ : BufTy).Contents (Elt Ideal)) (bd3 : (⟨S1, .f32⟩ : BufTy).Contents (Elt Ideal))

/-- The reference's hidden layer is the kernel's: the mean before or after the product. -/
theorem ref_hid : val_main_v29 (F := Ideal) x a1 w1l b1l w1r = hid x a1 w1l b1l w1r := by
  rw [Cert.ReferenceIdeal.RefRead.h_eq]
  exact congrArg Cert.Spec.relu
    (Cert.Spec.combine_eq_combineRef (Chain.msg64 (F := Ideal) x a1) (Chain.invDeg (F := Ideal) a1) (Chain.degMax (F := Ideal) a1) x w1l b1l w1r
      (Cert.KernelIdeal.Degree.invDeg_apply a1) (Cert.KernelIdeal.Degree.degMax_real a1)).symm

/-- The reference's embedding is the kernel's. -/
theorem ref_zed : val_main_v58 (F := Ideal) x a1 w1l b1l w1r w2l b2l w2r = zed x a1 w1l b1l w1r w2l b2l w2r := by
  rw [Cert.ReferenceIdeal.RefRead.z_eq]
  show Cert.Spec.combineRef (Chain.msg128 (F := Ideal) (val_main_v29 (F := Ideal) x a1 w1l b1l w1r) a1) (Chain.degMax (F := Ideal) a1)
      (val_main_v29 (F := Ideal) x a1 w1l b1l w1r) w2l b2l w2r = _
  rw [ref_hid]
  exact (Cert.Spec.combine_eq_combineRef (Chain.msg128 (F := Ideal) (hid x a1 w1l b1l w1r) a1) (Chain.invDeg (F := Ideal) a1) (Chain.degMax (F := Ideal) a1)
      (hid x a1 w1l b1l w1r) w2l b2l w2r (Cert.KernelIdeal.Degree.invDeg_apply a1) (Cert.KernelIdeal.Degree.degMax_real a1)).symm

/-- The decoder's first dense layer over the joined endpoint rows is the sum of the two gathered projections. -/
theorem ref_first : Cert.Spec.affine (val_main_v77 (F := Ideal) x a1 a2 w1l b1l w1r w2l b2l w2r) wd1 bd1
    = Cert.Spec.addBias
        (Chain.gather32 (F := Ideal) (Cert.Spec.proj (zed x a1 w1l b1l w1r w2l b2l w2r) (Chain.wd1a (F := Ideal) wd1)) (Chain.wrapCol4 (Chain.lblRaw0 a2)))
        (Chain.gather32 (F := Ideal) (Cert.Spec.proj (zed x a1 w1l b1l w1r w2l b2l w2r) (Chain.wd1b (F := Ideal) wd1)) (Chain.wrapCol4 (Chain.lblRaw1 a2)))
        bd1 := by
  rw [Cert.KernelIdeal.DecoderBridge.decoder_first (zed x a1 w1l b1l w1r w2l b2l w2r) wd1 bd1
    (Chain.wrapCol4 (Chain.lblRaw0 a2)) (Chain.wrapCol4 (Chain.lblRaw1 a2))
    Cert.ReferenceIdeal.gather_S50000x64_S400000x1_S400000x64_1_0_n_n_0_1_164.wf
    Cert.ReferenceIdeal.Facts₀.concatenates_S400000x64_S400000x64_S400000x128_d1]
  rw [← ref_zed]
  rfl

/-- The reference's result is the edge scores of its arguments. -/
theorem ref_value : val_main_v92 (F := Ideal) x a1 a2 w1l b1l w1r w2l b2l w2r wd1 bd1 wd2 bd2 wd3 bd3
    = result x a1 a2 w1l b1l w1r w2l b2l w2r wd1 bd1 wd2 bd2 wd3 bd3 := by
  rw [Cert.ReferenceIdeal.RefRead.out_eq, ref_first]
  rfl

end Reference

end Cert.Bridge

end
-- ==== Proof.lean ====
/-
  The certificate of the graph link predictor: two graph-convolution layers and an edge decoder, computed by three
  tiled kernels among host gathers and scatters, against the plain host reference. The three frames: the kernel
  programs' are the generated frame certificates, the reference's is its generated run with the result dropped. The
  ideal pass rewrote nothing, so the idealized kernel program is the kernel program's own text. The value claim:
  both idealized programs end with the edge scores `Cert.Bridge.result` of the argument arrays — the kernel program
  by its run with the result named, the three regions' output arrays read as whole-array functions and the host
  stretches between them read stage by stage; the reference by its generated run and its operations read at an
  index; the two meet by one law (a real reciprocal of the clamped degree moves across the finite sum of a matrix
  product) and one split of a sum (the joined endpoint rows against the whole first decoder matrix).
-/
import proofs.«176232_j25872882991658_2_alg».proof.Defs
import proofs.«176232_j25872882991658_2_alg».proof.Proof.Gen.Kernel
import proofs.«176232_j25872882991658_2_alg».proof.Proof.Gen.Kernel.Frame
import proofs.«176232_j25872882991658_2_alg».proof.Proof.Gen.KernelIdeal
import proofs.«176232_j25872882991658_2_alg».proof.Proof.Gen.KernelIdeal.Frame
import proofs.«176232_j25872882991658_2_alg».proof.Proof.Gen.ReferenceIdeal
import proofs.«176232_j25872882991658_2_alg».proof.Proof.Gen.Pre_finite_inputs
import proofs.«176232_j25872882991658_2_alg».proof.Proof.Gen.ReferenceIdeal.Run
import proofs.«176232_j25872882991658_2_alg».proof.Proof.Gen.ReferenceIdeal.Read
import proofs.«176232_j25872882991658_2_alg».proof.Proof.KernelRun
import proofs.«176232_j25872882991658_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the same edge scores. -/
theorem algebraic : Cert.algebraic_KernelIdeal_ReferenceIdeal := by
  intro m ρ m' ρ' _ hagree
  refine ⟨fun c => Cert.Bridge.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.Bridge.kernel_value m ρ c), (h c).2⟩)
      (Cert.KernelIdeal.RunValue.run_value m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.Read.val_main_v92_eq, e0, e1, e2, e3, e4, e5, e6, e7, e8, e9, e10, e11, e12, e13, e14]
    exact Cert.Bridge.ref_value _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
